-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1 : Shape := ⟨1, ![1]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1 : S_.BroadcastsInDim S1 (![] : Fin 0 → Fin S1.rank)
  reducesTo_S1_S_d0 : S1.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S128 .f32) (main_arg6 : FVec F S128 .f32) (main_arg7 : FVec F S128x128 .f32) (main_arg8 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S100000x128 .f32) (main_arg1 : IVec S2x1600000 32) (main_arg2 : FVec F S1 .f32) (main_arg3 : FVec F S128x128 .f32) (main_arg4 : FVec F S128 .f32) (main_arg5 : FVec F S128 .f32) (main_arg6 : FVec F S128 .f32) (main_arg7 : FVec F S128x128 .f32) (main_arg8 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1 .f32 := Host.absf main_arg2
  let main_cst_0 : FVec F S_ .f32 := constant S_ .f32 0x7F800000#32
  let main_v5 : FVec F S1 .f32 := broadcastInDim S1 ![] bcast_S_S1 main_cst_0
  let main_v6 : IVec S1 1 := cmpf .olt main_v4 main_v5
  let main_c_1 : IVec S_ 1 := constantI S_ 1 1#1
  let main_v7 : IVec S_ 1 := (fun x v => Host.reduce IntOp.andi x v reducesTo_S1_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S100000x128 : Shape := ⟨2, ![100000, 128]⟩
abbrev S2x1600000 : Shape := ⟨2, ![2, 1600000]⟩
abbrev S1 : Shape := ⟨1, ![1]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S1x1 : Shape := ⟨2, ![1, 1]⟩
abbrev S4000x128 : Shape := ⟨2, ![4000, 128]⟩

abbrev nBuf : Space → Nat
  | .hbm => 45
  | .vmem => 23
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S128x128, .f32⟩
  | .hbm, ⟨27, _⟩ => ⟨S128x128, .f32⟩
  | .hbm, ⟨28, _⟩ => ⟨S1x128, .f32⟩
  | .hbm, ⟨29, _⟩ => ⟨S1x128, .f32⟩
  | .hbm, ⟨30, _⟩ => ⟨S1x128, .f32⟩
  | .hbm, ⟨31, _⟩ => ⟨S1x128, .f32⟩
  | .hbm, ⟨32, _⟩ => ⟨S1x1, .f32⟩
  | .hbm, ⟨33, _⟩ => ⟨S100000x128, .bf16⟩
  | .hbm, ⟨34, _⟩ => ⟨S1x128, .f32⟩
  | .hbm, ⟨35, _⟩ => ⟨S1x128, .f32⟩
  | .hbm, ⟨36, _⟩ => ⟨S_, .f32⟩
  | .hbm, ⟨37, _⟩ => ⟨S1x128, .f32⟩
  | .hbm, ⟨38, _⟩ => ⟨S1x128, .f32⟩
  | .hbm, ⟨39, _⟩ => ⟨S_, .f32⟩
  | .hbm, ⟨40, _⟩ => ⟨S1x128, .f32⟩
  | .hbm, ⟨41, _⟩ => ⟨S1x128, .f32⟩
  | .hbm, ⟨42, _⟩ => ⟨S1x128, .f32⟩
  | .hbm, ⟨43, _⟩ => ⟨S1x128, .f32⟩
  | .hbm, ⟨44, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S1x1, .f32⟩
  | .local _ .vmem, ⟨5, _⟩ => ⟨S128x128, .f32⟩
  | .local _ .vmem, ⟨6, _⟩ => ⟨S1x128, .f32⟩
  | .local _ .vmem, ⟨7, _⟩ => ⟨S4000x128, .bf16⟩
  | .local _ .vmem, ⟨8, _⟩ => ⟨S4000x128, .bf16⟩
  | .local _ .vmem, ⟨9, _⟩ => ⟨S1x128, .f32⟩
  | .local _ .vmem, ⟨10, _⟩ => ⟨S1x128, .f32⟩
  | .local _ .vmem, ⟨11, _⟩ => ⟨S1x128, .f32⟩
  | .local _ .vmem, ⟨12, _⟩ => ⟨S1x128, .f32⟩
  | .local _ .vmem, ⟨13, _⟩ => ⟨S4000x128, .bf16⟩
  | .local _ .vmem, ⟨14, _⟩ => ⟨S4000x128, .bf16⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S128x128, .f32⟩
  | .local _ .vmem, ⟨20, _⟩ => ⟨S1x128, .f32⟩
  | .local _ .vmem, ⟨21, _⟩ => ⟨S4000x128, .f32⟩
  | .local _ .vmem, ⟨22, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21_0 : Ref sig .tc := ⟨.hbm, 33, rfl⟩
abbrev main_v21_1 : Ref sig .tc := ⟨.hbm, 34, rfl⟩
abbrev main_v21_2 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v39 : BitVec 1 := Scalar.cmpi .eq arg0 c24_i32
  let v40 : BitVec 32 := Scalar.extui v39
  let c0_i32_23 : BitVec 32 := 0#32
  let v41 : BitVec 1 := Scalar.cmpi .ne v40 c0_i32_23
  v41

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  shapeCasts_S128_S1x128 : S128.ShapeCasts S1x128
  shapeCasts_S1_S1x1 : S1.ShapeCasts S1x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4000x128_S4000x128_0_0 : ∀ a, (![0, 0] : Fin 2 → Nat) a + S4000x128.size a ≤ S4000x128.size a
  h_S4000x128 : 0 < S4000x128.numel
  broadcasts_S1x1_S4000x128 : S1x1.Broadcasts S4000x128
  shapeCasts_S4000x128_S4000x128 : S4000x128.ShapeCasts S4000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S4000x128 : S1x128.Broadcasts S4000x128
  reduces_S4000x128_S128 : S4000x128.Reduces [0] S128
  packedbf16_S4000x128_S4000x128_0_0 : (Rect.unit (s := S4000x128) ![0, 0] S4000x128.size inb_S4000x128_S4000x128_0_0).PackedRows (EltTy.packing .bf16)
  bcast_S_S1x128 : S_.BroadcastsInDim S1x128 (![] : Fin 0 → Fin S1x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .bf16 = 32 ∨ (Rect.block (s := S100000x128) S4000x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .bf16 = 32 ∨ (Rect.block (s := S100000x128) S4000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S4000x128.size a ≤ S100000x128.size a
  hwx1_7 : ∀ i : grid1.Coords, EltTy.bits .f32 = 32 ∨ (Rect.block (s := S100000x128) S4000x128.size (cc1_transform_7 i) (hinb1_7 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_arg0) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21_0) S4000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v21_1) S1x128.size cc0_transform_6 reads0_6 true true 1 stage0_6 sem0_6
    hrank0 hreads0_6 hinb0_6 nbuf0_6 (Memref.isWhole_whole _) hwx0_6 hstage0_6

abbrev win0_7 : Pipeline.Window sig grid0 :=
  Pipeline.Window.ofSpec (Memref.whole main_v21_2) S1x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v21_0) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v19) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v15) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v28) S4000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1 : Shape := ⟨1, ![1]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x1 : Shape := ⟨2, ![1, 1]⟩
abbrev S1x128 : Shape := ⟨2, ![1, 128]⟩

abbrev nBuf : Space → Nat
  | .hbm => 76
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1, .f32⟩
  | .hbm, ⟨3, _⟩ => ⟨S128x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S_, .f32⟩
  | .hbm, ⟨23, _⟩ => ⟨S100000x128, .f32⟩
  | .hbm, ⟨24, _⟩ => ⟨S1600000x1, .i32⟩
  | .hbm, ⟨25, _⟩ => ⟨S100000x128, .f32⟩
  | .hbm, ⟨26, _⟩ => ⟨S_, .f32⟩
  | .hbm, ⟨27, _⟩ => ⟨S1, .f32⟩
  | .hbm, ⟨28, _⟩ => ⟨S1, .f32⟩
  | .hbm, ⟨29, _⟩ => ⟨S1x1, .f32⟩
  | .hbm, ⟨30, _⟩ => ⟨S100000x128, .f32⟩
  | .hbm, ⟨31, _⟩ => ⟨S100000x128, .f32⟩
  | .hbm, ⟨32, _⟩ => ⟨S100000x128, .f32⟩
  | .hbm, ⟨33, _⟩ => ⟨S128x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | .hbm, ⟨38, _⟩ => ⟨S_, .f32⟩
  | .hbm, ⟨39, _⟩ => ⟨S128, .f32⟩
  | .hbm, ⟨40, _⟩ => ⟨S_, .f32⟩
  | .hbm, ⟨41, _⟩ => ⟨S128, .f32⟩
  | .hbm, ⟨42, _⟩ => ⟨S128, .f32⟩
  | .hbm, ⟨43, _⟩ => ⟨S1x128, .f32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .f32⟩
  | .hbm, ⟨48, _⟩ => ⟨S128, .f32⟩
  | .hbm, ⟨49, _⟩ => ⟨S_, .f32⟩
  | .hbm, ⟨50, _⟩ => ⟨S128, .f32⟩
  | .hbm, ⟨51, _⟩ => ⟨S128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S128, .f32⟩
  | .hbm, ⟨57, _⟩ => ⟨S128, .f32⟩
  | .hbm, ⟨58, _⟩ => ⟨S128, .f32⟩
  | .hbm, ⟨59, _⟩ => ⟨S1x128, .f32⟩
  | .hbm, ⟨60, _⟩ => ⟨S100000x128, .f32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S128x128, .f32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_cst_3 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_cst_5 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_6 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_cst : Ref sig .tc := ⟨.hbm, 68, rfl⟩
abbrev main_call0_v0 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1 : S_.BroadcastsInDim S1 (![] : Fin 0 → Fin S1.rank)
  bcast_S1_S1x1_1 : S1.BroadcastsInDim S1x1 (![1] : Fin 1 → Fin S1x1.rank)
  bcast_S1x1_S100000x128_0_1 : S1x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KRuns.lean ====
/-
  The first kernel's grid has 25 points; its body resets two accumulator rows at the first point, adds a tile's
  column sums of `h` and of `h²` to them at every point, stores the tile of `h`, and copies the accumulators out at
  the last point. This module fixes what the three cases of the body share — which point is first and which is
  last, where the two statistics windows are idle, each input window's block at a point — and runs the body once
  per case.
-/
import proofs.«135623_j83167746719884_2_alg».proof.Proof.Gen.Kernel.Launch
import proofs.«135623_j83167746719884_2_alg».proof.Proof.Gen.Kernel.Skeleton
import proofs.«135623_j83167746719884_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Region0

/-- The first conditional (reset the accumulators): the grid coordinate is zero. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second conditional (copy the accumulators out): the grid coordinate is 24. -/
abbrev cond0_1 (i : grid0.Coords) : Prop := k0_cond2 i = 1#1
theorem hcond0_1 : ∀ t : Fin cfg0.N, cond0_1 (grid0.coords t) ↔ t.val = 24 :=
  (by decide +kernel : ∀ t : Fin grid0.N, cond0_1 (grid0.coords t) ↔ t.val = 24)

/-- No input window and not the `h` window is ever idle; the two statistics windows are idle, and not written back,
    everywhere but at the last point. -/
theorem liveAt0_in : ∀ (w : Fin 8), w.val ≤ 5 → ∀ t : Fin cfg0.N, cfg0.idle w (grid0.coords t) = false := by decide +kernel
theorem idleAt0_6 : ∀ t : Fin cfg0.N, ¬cond0_1 (grid0.coords t) → cfg0.idle 6 (grid0.coords t) = true := by decide +kernel
theorem idleAt0_7 : ∀ t : Fin cfg0.N, ¬cond0_1 (grid0.coords t) → cfg0.idle 7 (grid0.coords t) = true := by decide +kernel
theorem noFlush0_6 : ∀ t : Fin cfg0.N, ¬cond0_1 (grid0.coords t) → (cfg0.win 6).flush t = false := by decide +kernel
theorem noFlush0_7 : ∀ t : Fin cfg0.N, ¬cond0_1 (grid0.coords t) → (cfg0.win 7).flush t = false := by decide +kernel
theorem liveAt0_6 : ∀ t : Fin cfg0.N, cond0_1 (grid0.coords t) → cfg0.idle 6 (grid0.coords t) = false := by decide +kernel
theorem liveAt0_7 : ∀ t : Fin cfg0.N, cond0_1 (grid0.coords t) → cfg0.idle 7 (grid0.coords t) = false := by decide +kernel

/-- The two accumulator rows: whole scoped buffers of the kernel's own. -/
abbrev scM9 : Memref sig .tc .vmem S1x128 .f32 := Memref.whole cc0_scratch0
abbrev scM10 : Memref sig .tc .vmem S1x128 .f32 := Memref.whole cc0_scratch1

set_option maxHeartbeats 4000000 in
/-- The body of the first kernel in case A of its two conditionals, on whole memrefs: the five input blocks at their contents,
    the output blocks it stores at anything, the two accumulators at anything (the case overwrites them first).
    It runs to the continuation holding the inputs as they were and every buffer it stored into with its pieces written
    (last store first); the pieces are what the run finds. -/
noncomputable def kernelRun0_A (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x1 : Vec F S4000x128 .f32) (x2 : Vec F S4000x128 .f32) (x3 : Vec F S1x1 .f32) (x4 : Vec F S128x128 .f32) (x5 : Vec F S1x128 .f32) :
    Σ' (L6 : List (View.Piece (Elt F) S4000x128 .bf16)) (LS9 : List (View.Piece (Elt F) S1x128 .f32)), { LS10 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg9 fullShare d) ∗ (∃ d, owns (c : Thread nD τ) arg10 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10)) -∗ K ⟨⟩))
          ⊢ wp frame (wpE (defs₀ (F := F)) Variants.none c none) E (cc0__kernel_a i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__kernel_a_eq_skeleton]; unfold cc0__kernel_a_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%ds9, %fs9, -, HS9⟩, ⟨%ds10, %fs10, -, HS10⟩, Hk⟩
    obtain rfl := harg1.eq_unread hf1; obtain rfl := harg2.eq_unread hf2; obtain rfl := harg3.eq_unread hf3; obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [HS9]; · iexists _; iexact HS9
    iexists _; iexact HS10

set_option maxHeartbeats 4000000 in
/-- The body of the first kernel in case B of its two conditionals, on whole memrefs: the five input blocks at their contents,
    the output blocks it stores at anything, the two accumulators at the contents the point before left.
    It runs to the continuation holding the inputs as they were and every buffer it stored into with its pieces written
    (last store first); the pieces are what the run finds. -/
noncomputable def kernelRun0_B (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) :
    Σ' (L6 : List (View.Piece (Elt F) S4000x128 .bf16)) (LS9 : List (View.Piece (Elt F) S1x128 .f32)), { LS10 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ owns (c : Thread nD τ) arg9 fullShare xs9 ∗ owns (c : Thread nD τ) arg10 fullShare xs10
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10)) -∗ K ⟨⟩))
          ⊢ wp frame (wpE (defs₀ (F := F)) Variants.none c none) E (cc0__kernel_a i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__kernel_a_eq_skeleton]; unfold cc0__kernel_a_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%fs9, %hfs9, HS9⟩, ⟨%fs10, %hfs10, HS10⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hfs9; obtain rfl := harg10.eq_unread hfs10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [HS9]; · iexists _; iexact HS9
    iexists _; iexact HS10

set_option maxHeartbeats 4000000 in
/-- The body of the first kernel in case C of its two conditionals, on whole memrefs: the five input blocks at their contents,
    the output blocks it stores at anything, the two accumulators at the contents the point before left.
    It runs to the continuation holding the inputs as they were and every buffer it stored into with its pieces written
    (last store first); the pieces are what the run finds. -/
noncomputable def kernelRun0_C (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) :
    Σ' (L6 : List (View.Piece (Elt F) S4000x128 .bf16)) (L7 : List (View.Piece (Elt F) S1x128 .f32)) (L8 : List (View.Piece (Elt F) S1x128 .f32)) (LS9 : List (View.Piece (Elt F) S1x128 .f32)), { LS10 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs9 ∗ owns (c : Thread nD τ) arg10 fullShare xs10
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10)) -∗ K ⟨⟩))
          ⊢ wp frame (wpE (defs₀ (F := F)) Variants.none c none) E (cc0__kernel_a i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__kernel_a_eq_skeleton]; unfold cc0__kernel_a_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs9, %hfs9, HS9⟩, ⟨%fs10, %hfs10, HS10⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hfs9; obtain rfl := harg10.eq_unread hfs10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [HS9]; · iexists _; iexact HS9
    iexists _; iexact HS10

end Cert.Kernel.Hand

end
-- ==== Proof.KDat0.lean ====
/-
  The first kernel's proof data: what its three output windows' buffers and its two accumulator rows hold after
  each of the 25 grid points (by recursion on the point: the first point resets, every later one adds to what the
  point before left, the last one also copies the accumulators out), the invariant that carries the accumulators
  from one point to the next, and the body's obligation at every point.
-/
import proofs.«135623_j83167746719884_2_alg».proof.Proof.KRuns

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One buffer of each output window and the two accumulator rows as views, through which contents are stated. -/
abbrev VO5 : View sig .tc .vmem S4000x128 .bf16 := (Memref.whole cc0_stg5_0 : Memref sig .tc .vmem S4000x128 .bf16).view
abbrev VO6 : View sig .tc .vmem S1x128 .f32 := (Memref.whole cc0_stg6_0 : Memref sig .tc .vmem S1x128 .f32).view
abbrev VO7 : View sig .tc .vmem S1x128 .f32 := (Memref.whole cc0_stg7_0 : Memref sig .tc .vmem S1x128 .f32).view
abbrev VS9 : View sig .tc .vmem S1x128 .f32 := scM9.view
abbrev VS10 : View sig .tc .vmem S1x128 .f32 := scM10.view

/-- Each window's current staging memref at a point, spelt as the pipeline passes it to the body. -/
abbrev ms0_0 (t : Fin cfg0.N) : Memref sig .tc .vmem S4000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4000x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)

/-- Case A's stores into the `h` window's buffer tile it, so they cover it. -/
theorem cover0_A_5 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x1 : Vec F S4000x128 .f32) (x2 : Vec F S4000x128 .f32) (x3 : Vec F S1x1 .f32) (x4 : Vec F S128x128 .f32) (x5 : Vec F S1x128 .f32) (y : S4000x128.Idx) :
    ∃ pc ∈ (kernelRun0_A c i arg1 harg1 arg2 harg2 arg3 harg3 arg4 harg4 arg5 harg5 arg6 harg6 arg7 harg7 arg8 harg8 arg9 harg9 arg10 harg10 hc0 hc1 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x1 x2 x3 x4 x5).1 S4000x128.size (by sl_kernel_rfl) y

/-- What case A leaves in the `h` window's buffer: its stores read back. -/
def out0_A_5 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x1 : Vec F S4000x128 .f32) (x2 : Vec F S4000x128 .f32) (x3 : Vec F S1x1 .f32) (x4 : Vec F S128x128 .f32) (x5 : Vec F S1x128 .f32) : Vec F S4000x128 .bf16 :=
  VO5.read (Elt F) (VO5.writes (Elt F) VO5.junk (kernelRun0_A c i arg1 harg1 arg2 harg2 arg3 harg3 arg4 harg4 arg5 harg5 arg6 harg6 arg7 harg7 arg8 harg8 arg9 harg9 arg10 harg10 hc0 hc1 x1 x2 x3 x4 x5).1)
/-- Case A's stores into the first accumulator row tile it, so they cover it. -/
theorem cover0_A_9 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x1 : Vec F S4000x128 .f32) (x2 : Vec F S4000x128 .f32) (x3 : Vec F S1x1 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 hc1 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x1 x2 x3 x4 x5).2.1 S1x128.size (by sl_kernel_rfl) y

/-- What case A leaves in the first accumulator row: its stores read back. -/
def out0_A_9 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x1 : Vec F S4000x128 .f32) (x2 : Vec F S4000x128 .f32) (x3 : Vec F S1x1 .f32) (x4 : Vec F S128x128 .f32) (x5 : Vec F S1x128 .f32) : Vec F S1x128 .f32 :=
  VS9.read (Elt F) (VS9.writes (Elt F) VS9.junk (kernelRun0_A c i arg1 harg1 arg2 harg2 arg3 harg3 arg4 harg4 arg5 harg5 arg6 harg6 arg7 harg7 arg8 harg8 arg9 harg9 arg10 harg10 hc0 hc1 x1 x2 x3 x4 x5).2.1)
/-- Case A's stores into the second accumulator row tile it, so they cover it. -/
theorem cover0_A_10 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x1 : Vec F S4000x128 .f32) (x2 : Vec F S4000x128 .f32) (x3 : Vec F S1x1 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 hc1 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x1 x2 x3 x4 x5).2.2.1 S1x128.size (by sl_kernel_rfl) y

/-- What case A leaves in the second accumulator row: its stores read back. -/
def out0_A_10 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x1 : Vec F S4000x128 .f32) (x2 : Vec F S4000x128 .f32) (x3 : Vec F S1x1 .f32) (x4 : Vec F S128x128 .f32) (x5 : Vec F S1x128 .f32) : Vec F S1x128 .f32 :=
  VS10.read (Elt F) (VS10.writes (Elt F) VS10.junk (kernelRun0_A c i arg1 harg1 arg2 harg2 arg3 harg3 arg4 harg4 arg5 harg5 arg6 harg6 arg7 harg7 arg8 harg8 arg9 harg9 arg10 harg10 hc0 hc1 x1 x2 x3 x4 x5).2.2.1)

/-- Case B's stores into the `h` window's buffer tile it, so they cover it. -/
theorem cover0_B_5 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) (y : S4000x128.Idx) :
    ∃ pc ∈ (kernelRun0_B c i arg1 harg1 arg2 harg2 arg3 harg3 arg4 harg4 arg5 harg5 arg6 harg6 arg7 harg7 arg8 harg8 arg9 harg9 arg10 harg10 hc0 hc1 x1 x2 x3 x4 x5 xs9 xs10).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x1 x2 x3 x4 x5 xs9 xs10).1 S4000x128.size (by sl_kernel_rfl) y

/-- What case B leaves in the `h` window's buffer: its stores read back. -/
def out0_B_5 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) : Vec F S4000x128 .bf16 :=
  VO5.read (Elt F) (VO5.writes (Elt F) VO5.junk (kernelRun0_B c i arg1 harg1 arg2 harg2 arg3 harg3 arg4 harg4 arg5 harg5 arg6 harg6 arg7 harg7 arg8 harg8 arg9 harg9 arg10 harg10 hc0 hc1 x1 x2 x3 x4 x5 xs9 xs10).1)
/-- Case B's stores into the first accumulator row tile it, so they cover it. -/
theorem cover0_B_9 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 hc1 x1 x2 x3 x4 x5 xs9 xs10).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x1 x2 x3 x4 x5 xs9 xs10).2.1 S1x128.size (by sl_kernel_rfl) y

/-- What case B leaves in the first accumulator row: its stores read back. -/
def out0_B_9 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) : Vec F S1x128 .f32 :=
  VS9.read (Elt F) (VS9.writes (Elt F) VS9.junk (kernelRun0_B c i arg1 harg1 arg2 harg2 arg3 harg3 arg4 harg4 arg5 harg5 arg6 harg6 arg7 harg7 arg8 harg8 arg9 harg9 arg10 harg10 hc0 hc1 x1 x2 x3 x4 x5 xs9 xs10).2.1)
/-- Case B's stores into the second accumulator row tile it, so they cover it. -/
theorem cover0_B_10 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 hc1 x1 x2 x3 x4 x5 xs9 xs10).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x1 x2 x3 x4 x5 xs9 xs10).2.2.1 S1x128.size (by sl_kernel_rfl) y

/-- What case B leaves in the second accumulator row: its stores read back. -/
def out0_B_10 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) : Vec F S1x128 .f32 :=
  VS10.read (Elt F) (VS10.writes (Elt F) VS10.junk (kernelRun0_B c i arg1 harg1 arg2 harg2 arg3 harg3 arg4 harg4 arg5 harg5 arg6 harg6 arg7 harg7 arg8 harg8 arg9 harg9 arg10 harg10 hc0 hc1 x1 x2 x3 x4 x5 xs9 xs10).2.2.1)

/-- Case C's stores into the `h` window's buffer tile it, so they cover it. -/
theorem cover0_C_5 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) (y : S4000x128.Idx) :
    ∃ pc ∈ (kernelRun0_C c i arg1 harg1 arg2 harg2 arg3 harg3 arg4 harg4 arg5 harg5 arg6 harg6 arg7 harg7 arg8 harg8 arg9 harg9 arg10 harg10 hc0 hc1 x1 x2 x3 x4 x5 xs9 xs10).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x1 x2 x3 x4 x5 xs9 xs10).1 S4000x128.size (by sl_kernel_rfl) y

/-- What case C leaves in the `h` window's buffer: its stores read back. -/
def out0_C_5 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) : Vec F S4000x128 .bf16 :=
  VO5.read (Elt F) (VO5.writes (Elt F) VO5.junk (kernelRun0_C c i arg1 harg1 arg2 harg2 arg3 harg3 arg4 harg4 arg5 harg5 arg6 harg6 arg7 harg7 arg8 harg8 arg9 harg9 arg10 harg10 hc0 hc1 x1 x2 x3 x4 x5 xs9 xs10).1)
/-- Case C's stores into the sums window's buffer tile it, so they cover it. -/
theorem cover0_C_6 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x1 x2 x3 x4 x5 xs9 xs10).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x1 x2 x3 x4 x5 xs9 xs10).2.1 S1x128.size (by sl_kernel_rfl) y

/-- What case C leaves in the sums window's buffer: its stores read back. -/
def out0_C_6 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) : Vec F S1x128 .f32 :=
  VO6.read (Elt F) (VO6.writes (Elt F) VO6.junk (kernelRun0_C c i arg1 harg1 arg2 harg2 arg3 harg3 arg4 harg4 arg5 harg5 arg6 harg6 arg7 harg7 arg8 harg8 arg9 harg9 arg10 harg10 hc0 hc1 x1 x2 x3 x4 x5 xs9 xs10).2.1)
/-- Case C's stores into the sums-of-squares window's buffer tile it, so they cover it. -/
theorem cover0_C_7 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x1 x2 x3 x4 x5 xs9 xs10).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x1 x2 x3 x4 x5 xs9 xs10).2.2.1 S1x128.size (by sl_kernel_rfl) y

/-- What case C leaves in the sums-of-squares window's buffer: its stores read back. -/
def out0_C_7 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) : Vec F S1x128 .f32 :=
  VO7.read (Elt F) (VO7.writes (Elt F) VO7.junk (kernelRun0_C c i arg1 harg1 arg2 harg2 arg3 harg3 arg4 harg4 arg5 harg5 arg6 harg6 arg7 harg7 arg8 harg8 arg9 harg9 arg10 harg10 hc0 hc1 x1 x2 x3 x4 x5 xs9 xs10).2.2.1)
/-- Case C's stores into the first accumulator row tile it, so they cover it. -/
theorem cover0_C_9 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x1 x2 x3 x4 x5 xs9 xs10).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x1 x2 x3 x4 x5 xs9 xs10).2.2.2.1 S1x128.size (by sl_kernel_rfl) y

/-- What case C leaves in the first accumulator row: its stores read back. -/
def out0_C_9 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) : Vec F S1x128 .f32 :=
  VS9.read (Elt F) (VS9.writes (Elt F) VS9.junk (kernelRun0_C c i arg1 harg1 arg2 harg2 arg3 harg3 arg4 harg4 arg5 harg5 arg6 harg6 arg7 harg7 arg8 harg8 arg9 harg9 arg10 harg10 hc0 hc1 x1 x2 x3 x4 x5 xs9 xs10).2.2.2.1)
/-- Case C's stores into the second accumulator row tile it, so they cover it. -/
theorem cover0_C_10 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x1 x2 x3 x4 x5 xs9 xs10).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x1 x2 x3 x4 x5 xs9 xs10).2.2.2.2.1 S1x128.size (by sl_kernel_rfl) y

/-- What case C leaves in the second accumulator row: its stores read back. -/
def out0_C_10 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) : Vec F S1x128 .f32 :=
  VS10.read (Elt F) (VS10.writes (Elt F) VS10.junk (kernelRun0_C c i arg1 harg1 arg2 harg2 arg3 harg3 arg4 harg4 arg5 harg5 arg6 harg6 arg7 harg7 arg8 harg8 arg9 harg9 arg10 harg10 hc0 hc1 x1 x2 x3 x4 x5 xs9 xs10).2.2.2.2.1)

/-- The scoped buffers of the core that the first kernel never names (the second kernel's staging buffers), each whole at
    some contents. -/
def restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The class invariant with the two accumulator rows split off as memrefs owned at some contents. -/
theorem PhiA0_eq (c : Dev nD) :
    (Pipeline.ΦA spec0 c : sProp 𝕄)
      = iprop(((∃ d, owns (c : Thread nD τ) scM9 fullShare d) ∗ (∃ d, owns (c : Thread nD τ) scM10 fullShare d) ∗ restOther (F := F) c) ∗ (∃ r, prngReg c r)) := by
  unfold Pipeline.ΦA restOther; rw [scopedRest0_eq]; simp only [scM9, scM10, owns_whole]; try rfl

section Region0

variable (V : (c : Dev nD) → (b : Ref sig .tc) → Buf (Elt F) ((c : Thread nD τ).loc b))

/-- What the three output buffers and the two accumulator rows hold after the body at position `n`:
    (the `h` tile, the sums row, the sums-of-squares row, the first accumulator, the second accumulator). At the first
    point the reset case; at the last (position 24) the case that also copies out; in between the plain case; each later
    case over the accumulators the point before left. Where a statistics window is idle its entry is a placeholder that
    nothing reads. -/
def outsAt0 (c : Dev nD) : (n : ℕ) → n < cfg0.N → Vec F S4000x128 .bf16 × Vec F S1x128 .f32 × Vec F S1x128 .f32 × Vec F S1x128 .f32 × Vec F S1x128 .f32
  | 0, hn =>
    let t : Fin cfg0.N := ⟨0, hn⟩
    let hc0 : cond0_0 (grid0.coords t) := (hcond0_0 t).mpr rfl
    let hc1 : ¬cond0_1 (grid0.coords t) := fun h => by have h' := (hcond0_1 t).mp h; (try dsimp only [t] at h'); omega
    (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t),
      VO6.read (Elt F) (VO6.writes (Elt F) VO6.junk []), VO7.read (Elt F) (VO7.writes (Elt F) VO7.junk []),
      out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t),
      out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t))
  | n + 1, hn =>
    let t : Fin cfg0.N := ⟨n + 1, hn⟩
    let hc0 : ¬cond0_0 (grid0.coords t) := fun h => by have h' := (hcond0_0 t).mp h; (try dsimp only [t] at h'); omega
    let p := outsAt0 c n (Nat.lt_of_succ_lt hn)
    if h1 : n + 1 = 24 then
      let hc1 : cond0_1 (grid0.coords t) := (hcond0_1 t).mpr h1
      (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) p.2.2.2.1 p.2.2.2.2,
        out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) p.2.2.2.1 p.2.2.2.2,
        out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) p.2.2.2.1 p.2.2.2.2,
        out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) p.2.2.2.1 p.2.2.2.2,
        out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) p.2.2.2.1 p.2.2.2.2)
    else
      let hc1 : ¬cond0_1 (grid0.coords t) := fun h => h1 ((hcond0_1 t).mp h)
      (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) p.2.2.2.1 p.2.2.2.2,
        VO6.read (Elt F) (VO6.writes (Elt F) VO6.junk []), VO7.read (Elt F) (VO7.writes (Elt F) VO7.junk []),
        out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) p.2.2.2.1 p.2.2.2.2,
        out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) p.2.2.2.1 p.2.2.2.2)

/-- The accumulators the point before `t` left (for `t` not the first point). -/
abbrev prevAt0 (c : Dev nD) (t : Fin cfg0.N) := outsAt0 V c (t.val - 1) (Nat.lt_of_le_of_lt (Nat.sub_le _ _) t.isLt)

/-- `outsAt0` at the first point. -/
theorem outsAt0_A (c : Dev nD) (t : Fin cfg0.N) (h0 : t.val = 0) (hc0 : cond0_0 (grid0.coords t)) (hc1 : ¬cond0_1 (grid0.coords t)) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t),
      VO6.read (Elt F) (VO6.writes (Elt F) VO6.junk []), VO7.read (Elt F) (VO7.writes (Elt F) VO7.junk []),
      out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t),
      out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t)) := by
  obtain ⟨n, hn⟩ := t
  cases n with
  | zero => exact rfl
  | succ n => exact absurd h0 (Nat.succ_ne_zero n)

/-- `outsAt0` at a point that is neither first nor last. -/
theorem outsAt0_B (c : Dev nD) (t : Fin cfg0.N) (h0 : t.val ≠ 0) (h1 : t.val ≠ 24) (hc0 : ¬cond0_0 (grid0.coords t)) (hc1 : ¬cond0_1 (grid0.coords t)) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2,
      VO6.read (Elt F) (VO6.writes (Elt F) VO6.junk []), VO7.read (Elt F) (VO7.writes (Elt F) VO7.junk []),
      out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2,
      out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2) := by
  obtain ⟨n, hn⟩ := t
  cases n with
  | zero => exact absurd rfl h0
  | succ n => exact (dif_neg h1).trans rfl

/-- `outsAt0` at the last point. -/
theorem outsAt0_C (c : Dev nD) (t : Fin cfg0.N) (h0 : t.val ≠ 0) (h1 : t.val = 24) (hc0 : ¬cond0_0 (grid0.coords t)) (hc1 : cond0_1 (grid0.coords t)) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2,
      out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2,
      out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2,
      out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2,
      out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2) := by
  obtain ⟨n, hn⟩ := t
  cases n with
  | zero => exact absurd rfl h0
  | succ n => exact (dif_pos h1).trans rfl

/-- The region invariant before position `n`: before the first point the class's (every scoped buffer the kernel may use at
    anything, the generator register at some state); afterwards the two accumulator rows at what the point before left,
    the other scoped buffers at anything, the generator register at some state. -/
def PhiS (c : Dev nD) : (n : ℕ) → n ≤ cfg0.N → sProp 𝕄
  | 0, _ => Pipeline.ΦA spec0 c
  | n + 1, hn => iprop((owns (c : Thread nD τ) scM9 fullShare (outsAt0 V c n hn).2.2.2.1 ∗ owns (c : Thread nD τ) scM10 fullShare (outsAt0 V c n hn).2.2.2.2 ∗ restOther (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM9 fullShare (outsAt0 V c n hn).2.2.2.1 ∗ owns (c : Thread nD τ) scM10 fullShare (outsAt0 V c n hn).2.2.2.2 ∗ restOther (F := F) c) ∗ (∃ r, prngReg c r)) := rfl

theorem PhiS_pos (c : Dev nD) (n : ℕ) (h : n ≤ cfg0.N) (hz : n ≠ 0) :
    PhiS V c n h = iprop((owns (c : Thread nD τ) scM9 fullShare (outsAt0 V c (n - 1) (by omega)).2.2.2.1 ∗ owns (c : Thread nD τ) scM10 fullShare (outsAt0 V c (n - 1) (by omega)).2.2.2.2 ∗ restOther (F := F) c) ∗ (∃ r, prngReg c r)) := by
  cases n with
  | zero => exact absurd rfl hz
  | succ n => rfl

/-- The first kernel's proof data on core `c`: the arrays as the region finds them; after the body at point `t` each
    input's buffer at its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end Region0

end Cert.Kernel.Hand

end
-- ==== Proof.KBody0.lean ====
/-
  The first kernel's body obligation: at each of its 25 grid points, from the invariant and the windows' current buffers the
  body runs to the invariant one point on and the buffers at what the proof data say it leaves. One lemma per case of the
  body's two conditionals (first point, last point, the points between), then the three together.
-/
import proofs.«135623_j83167746719884_2_alg».proof.Proof.KDat0

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

/-- A window that is never idle is left at what the proof data name. -/
theorem leaves0_0 (c : Dev nD) (t : Fin cfg0.N) : (dat0 V c).leavesExact 0 t = owns (c : Thread nD τ) (ms0_0 t) fullShare (iblk0 V c 0 t) := by
  unfold Dat.leavesExact; rw [liveAt0_in 0 (by decide) t, after0_0]
theorem leaves0_1 (c : Dev nD) (t : Fin cfg0.N) : (dat0 V c).leavesExact 1 t = owns (c : Thread nD τ) (ms0_1 t) fullShare (iblk0 V c 1 t) := by
  unfold Dat.leavesExact; rw [liveAt0_in 1 (by decide) t, after0_1]
theorem leaves0_2 (c : Dev nD) (t : Fin cfg0.N) : (dat0 V c).leavesExact 2 t = owns (c : Thread nD τ) (ms0_2 t) fullShare (iblk0 V c 2 t) := by
  unfold Dat.leavesExact; rw [liveAt0_in 2 (by decide) t, after0_2]
theorem leaves0_3 (c : Dev nD) (t : Fin cfg0.N) : (dat0 V c).leavesExact 3 t = owns (c : Thread nD τ) (ms0_3 t) fullShare (iblk0 V c 3 t) := by
  unfold Dat.leavesExact; rw [liveAt0_in 3 (by decide) t, after0_3]
theorem leaves0_4 (c : Dev nD) (t : Fin cfg0.N) : (dat0 V c).leavesExact 4 t = owns (c : Thread nD τ) (ms0_4 t) fullShare (iblk0 V c 4 t) := by
  unfold Dat.leavesExact; rw [liveAt0_in 4 (by decide) t, after0_4]
theorem leaves0_5 (c : Dev nD) (t : Fin cfg0.N) : (dat0 V c).leavesExact 5 t = owns (c : Thread nD τ) (ms0_5 t) fullShare (outsAt0 V c t.val t.isLt).1 := by
  unfold Dat.leavesExact; rw [liveAt0_in 5 (by decide) t, after0_5]

set_option maxHeartbeats 4000000 in
/-- The body at the first point: the inputs' buffers hold their blocks, the invariant hands over the accumulator rows
    (at anything: the body resets them), the case's run applies, and the invariant takes the rows back at this point's contents. -/
theorem sound_body0_A (c : Dev nD) (t : Fin cfg0.N) (h0 : t.val = 0) :
    bodyPre0 V c t ⊢ wp frame (wpE (defs₀ (F := F)) Variants.none c none) Set.univ (bodyAt0 t) (fun _ => bodyPost0 V c t) := by
  have hc0 : cond0_0 (grid0.coords t) := (hcond0_0 t).mpr h0
  have hc1 : ¬cond0_1 (grid0.coords t) := fun h => by have h' := (hcond0_1 t).mp h; omega
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4, leaves0_5]
  rw [Dat.leavesExact_idle (dat0 V c) 6 t (idleAt0_6 t hc1) (noFlush0_6 t hc1), Dat.leavesExact_idle (dat0 V c) 7 t (idleAt0_7 t hc1) (noFlush0_7 t hc1)]
  rw [outsAt0_A V c t h0 hc0 hc1]
  unfold out0_A_5 out0_A_9 out0_A_10; (try dsimp only)
  rw [PhiS_castSucc V c t, PhiS_zero V c _ _ h0, PhiA0_eq]
  iintro ⟨⟨⟨HS9, HS10, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ hc0 hc1 (iblk0 V c 0 t) (iblk0 V c 1 t) (iblk0 V c 2 t) (iblk0 V c 3 t) (iblk0 V c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS9]; · iexact HS9
  isplitl [HS10]; · iexact HS10
  iintro ⟨H0, H1, H2, H3, H4, ⟨%e5, H5⟩, ⟨%es9, HS9⟩, ⟨%es10, HS10⟩⟩
  isplitl [HS9 HS10 HR Hg]
  · isplitl [HS9 HS10 HR]
    · isplitl [HS9]
      · unfold owns; iexists _; isplitr
        swap; · iexact HS9
        ipureintro; exact View.read_writes_of_cover _ _ _ _ _ (cover0_A_9 c _ _ _ _ _ _ _ _ _ _ _ _ _ _ _ _ _ _ _ _ _ _ _ _ _ _ _ _)
      isplitl [HS10]
      · unfold owns; iexists _; isplitr
        swap; · iexact HS10
        ipureintro; exact View.read_writes_of_cover _ _ _ _ _ (cover0_A_10 c _ _ _ _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _ _ _ _)
  isplitl [H6]; · iexists _; iexact H6
  iexists _; iexact H7

set_option maxHeartbeats 4000000 in
/-- The body at a point that is neither first nor last: the inputs' buffers hold their blocks, the invariant hands over the accumulator rows
    (at what the point before left), the case's run applies, and the invariant takes the rows back at this point's contents. -/
theorem sound_body0_B (c : Dev nD) (t : Fin cfg0.N) (h0 : t.val ≠ 0) (h1 : t.val ≠ 24) :
    bodyPre0 V c t ⊢ wp frame (wpE (defs₀ (F := F)) Variants.none c none) Set.univ (bodyAt0 t) (fun _ => bodyPost0 V c t) := by
  have hc0 : ¬cond0_0 (grid0.coords t) := fun h => h0 ((hcond0_0 t).mp h)
  have hc1 : ¬cond0_1 (grid0.coords t) := fun h => h1 ((hcond0_1 t).mp h)
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4, leaves0_5]
  rw [Dat.leavesExact_idle (dat0 V c) 6 t (idleAt0_6 t hc1) (noFlush0_6 t hc1), Dat.leavesExact_idle (dat0 V c) 7 t (idleAt0_7 t hc1) (noFlush0_7 t hc1)]
  rw [outsAt0_B V c t h0 h1 hc0 hc1]
  unfold out0_B_5 out0_B_9 out0_B_10; (try dsimp only)
  rw [PhiS_castSucc V c t, PhiS_pos V c _ _ h0]
  iintro ⟨⟨⟨HS9, HS10, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_B c (grid0.coords t) _ _ _ _ _ _ _ _ _ _ _ _ _ _ _ _ _ _ _ _ hc0 hc1 (iblk0 V c 0 t) (iblk0 V c 1 t) (iblk0 V c 2 t) (iblk0 V c 3 t) (iblk0 V c 4 t) (prevAt0 V c t).2.2.2.1 (prevAt0 V c t).2.2.2.2).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS9]; · iexact HS9
  isplitl [HS10]; · iexact HS10
  iintro ⟨H0, H1, H2, H3, H4, ⟨%e5, H5⟩, ⟨%es9, HS9⟩, ⟨%es10, HS10⟩⟩
  isplitl [HS9 HS10 HR Hg]
  · isplitl [HS9 HS10 HR]
    · isplitl [HS9]
      · unfold owns; iexists _; isplitr
        swap; · iexact HS9
        ipureintro; exact View.read_writes_of_cover _ _ _ _ _ (cover0_B_9 c _ _ _ _ _ _ _ _ _ _ _ _ _ _ _ _ _ _ _ _ _ _ _ _ _ _ _ _ _ _)
      isplitl [HS10]
      · unfold owns; iexists _; isplitr
        swap; · iexact HS10
        ipureintro; exact View.read_writes_of_cover _ _ _ _ _ (cover0_B_10 c _ _ _ _ _ _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_B_5 c _ _ _ _ _ _ _ _ _ _ _ _ _ _ _ _ _ _ _ _ _ _ _ _ _ _ _ _ _ _)
  isplitl [H6]; · iexists _; iexact H6
  iexists _; iexact H7

set_option maxHeartbeats 4000000 in
/-- The body at the last point: the inputs' buffers hold their blocks, the invariant hands over the accumulator rows
    (at what the point before left), the case's run applies, and the invariant takes the rows back at this point's contents. -/
theorem sound_body0_C (c : Dev nD) (t : Fin cfg0.N) (h0 : t.val ≠ 0) (h1 : t.val = 24) :
    bodyPre0 V c t ⊢ wp frame (wpE (defs₀ (F := F)) Variants.none c none) Set.univ (bodyAt0 t) (fun _ => bodyPost0 V c t) := by
  have hc0 : ¬cond0_0 (grid0.coords t) := fun h => h0 ((hcond0_0 t).mp h)
  have hc1 : cond0_1 (grid0.coords t) := (hcond0_1 t).mpr h1
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4, leaves0_5]
  rw [show (dat0 V c).leavesExact 6 t = owns (c : Thread nD τ) (ms0_6 t) fullShare (outsAt0 V c t.val t.isLt).2.1 from by
    unfold Dat.leavesExact; rw [liveAt0_6 t hc1, after0_6]]
  rw [show (dat0 V c).leavesExact 7 t = owns (c : Thread nD τ) (ms0_7 t) fullShare (outsAt0 V c t.val t.isLt).2.2.1 from by
    unfold Dat.leavesExact; rw [liveAt0_7 t hc1, after0_7]]
  rw [outsAt0_C V c t h0 h1 hc0 hc1]
  unfold out0_C_5 out0_C_6 out0_C_7 out0_C_9 out0_C_10; (try dsimp only)
  rw [PhiS_castSucc V c t, PhiS_pos V c _ _ h0]
  iintro ⟨⟨⟨HS9, HS10, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_C c (grid0.coords t) _ _ _ _ _ _ _ _ _ _ _ _ _ _ _ _ _ _ _ _ hc0 hc1 (iblk0 V c 0 t) (iblk0 V c 1 t) (iblk0 V c 2 t) (iblk0 V c 3 t) (iblk0 V c 4 t) (prevAt0 V c t).2.2.2.1 (prevAt0 V c t).2.2.2.2).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS9]; · iexact HS9
  isplitl [HS10]; · iexact HS10
  iintro ⟨H0, H1, H2, H3, H4, ⟨%e5, H5⟩, ⟨%e6, H6⟩, ⟨%e7, H7⟩, ⟨%es9, HS9⟩, ⟨%es10, HS10⟩⟩
  isplitl [HS9 HS10 HR Hg]
  · isplitl [HS9 HS10 HR]
    · isplitl [HS9]
      · unfold owns; iexists _; isplitr
        swap; · iexact HS9
        ipureintro; exact View.read_writes_of_cover _ _ _ _ _ (cover0_C_9 c _ _ _ _ _ _ _ _ _ _ _ _ _ _ _ _ _ _ _ _ _ _ _ _ _ _ _ _ _ _)
      isplitl [HS10]
      · unfold owns; iexists _; isplitr
        swap; · iexact HS10
        ipureintro; exact View.read_writes_of_cover _ _ _ _ _ (cover0_C_10 c _ _ _ _ _ _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_C_5 c _ _ _ _ _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_C_6 c _ _ _ _ _ _ _ _ _ _ _ _ _ _ _ _ _ _ _ _ _ _ _ _ _ _ _ _ _ _)
  unfold owns; iexists _; isplitr
  swap; · iexact H7
  ipureintro; exact View.read_writes_of_cover _ _ _ _ _ (cover0_C_7 c _ _ _ _ _ _ _ _ _ _ _ _ _ _ _ _ _ _ _ _ _ _ _ _ _ _ _ _ _ _)

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val = 0
  · exact sound_body0_A V c t h0
  · by_cases h1 : t.val = 24
    · exact sound_body0_C V c t h0 h1
    · exact sound_body0_B V c t h0 h1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the class's. -/
theorem Phi0_first (c : Dev nD) : (dat0 V c).Φ 0 = Pipeline.ΦA spec0 c := rfl

/-- After the last point the invariant gives the class's back: the accumulators' named contents are forgotten. -/
theorem Phi0_last (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 25 := N_0; omega), PhiA0_eq]
  iintro ⟨⟨HS9, HS10, HR⟩, Hg⟩
  isplitl [HS9 HS10 HR]
  · isplitl [HS9]; · iexists _; iexact HS9
    isplitl [HS10]; · iexists _; iexact HS10
    iexact HR
  iexact Hg

end Region0

end Cert.Kernel.Hand

end
-- ==== Proof.KReg1.lean ====
/-
  The second kernel: at each of its 25 grid points it reads a tile of `h` and six whole operands (mean, variance, scale,
  shift, the second weight matrix, the second bias) and stores one tile of the result. Nothing is carried between points.
  This module runs its body once, states its proof data and discharges its body obligation.
-/
import proofs.«135623_j83167746719884_2_alg».proof.Proof.Gen.Kernel.Launch
import proofs.«135623_j83167746719884_2_alg».proof.Proof.Gen.Kernel.Skeleton
import proofs.«135623_j83167746719884_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end Region1

/-- No window of the second kernel is ever idle. -/
theorem liveAt1 : ∀ (w : Fin 8) (t : Fin cfg1.N), cfg1.idle w (grid1.coords t) = false := by decide +kernel

/-- Each window's current staging memref at a point, spelt as the pipeline passes it to the body. -/
abbrev ms1_0 (t : Fin cfg1.N) : Memref sig .tc .vmem S4000x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S4000x128 .f32 := win1_7.stage (cfg1.slots t 7)
abbrev hs1_7 (t : Fin cfg1.N) : (ms1_7 t).IsWhole := hstage1_7 ((cfg1.slots t 7).cast nbuf1_7)

/-- One buffer of the output window as a view, through which its contents are stated. -/
abbrev VO1 : View sig .tc .vmem S4000x128 .f32 := (Memref.whole cc1_stg7_0 : Memref sig .tc .vmem S4000x128 .f32).view

set_option maxHeartbeats 4000000 in
/-- The body of the second kernel on whole memrefs: the seven input blocks at their contents, the output block at anything.
    It runs to the continuation holding the inputs as they were and the output buffer with its pieces written; the pieces
    are what the run finds. -/
noncomputable def kernelRun1 (c : Dev nD) (i : grid1.Coords) (arg1 : Memref sig .tc .vmem S4000x128 .bf16) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole)
    (x1 : Vec F S4000x128 .bf16) (x2 : Vec F S1x128 .f32) (x3 : Vec F S1x128 .f32) (x4 : Vec F S1x128 .f32) (x5 : Vec F S1x128 .f32) (x6 : Vec F S128x128 .f32) (x7 : Vec F S1x128 .f32) :
    { L8 : List (View.Piece (Elt F) S4000x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (∃ d, owns (c : Thread nD τ) arg8 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
                ∗ (∃ f, arg8.view.loc (c : Thread nD τ) ↦[arg8.view.set]{fullShare} arg8.view.writes (Elt F) f L8)) -∗ K ⟨⟩))
          ⊢ wp frame (wpE (defs₀ (F := F)) Variants.none c none) E (cc1__kernel_b i arg1 harg1 arg2 harg2 arg3 harg3 arg4 harg4 arg5 harg5 arg6 harg6 arg7 harg7 arg8 harg8) K } := by
  refine ⟨?_, fun E K => ?run⟩
  case run =>
    simp only [cc1__kernel_b_eq_skeleton]; unfold cc1__kernel_b_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

/-- The body's one store tiles the output block, so it covers it. -/
theorem cover1_7 (c : Dev nD) (i : grid1.Coords) (arg1 : Memref sig .tc .vmem S4000x128 .bf16) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole)
    (x1 : Vec F S4000x128 .bf16) (x2 : Vec F S1x128 .f32) (x3 : Vec F S1x128 .f32) (x4 : Vec F S1x128 .f32) (x5 : Vec F S1x128 .f32) (x6 : Vec F S128x128 .f32) (x7 : Vec F S1x128 .f32) (y : S4000x128.Idx) :
    ∃ pc ∈ (kernelRun1 c i arg1 harg1 arg2 harg2 arg3 harg3 arg4 harg4 arg5 harg5 arg6 harg6 arg7 harg7 arg8 harg8 x1 x2 x3 x4 x5 x6 x7).1, y ∈ pc.1.set :=
  View.cover_of_tiledL (kernelRun1 c i arg1 harg1 arg2 harg2 arg3 harg3 arg4 harg4 arg5 harg5 arg6 harg6 arg7 harg7 arg8 harg8 x1 x2 x3 x4 x5 x6 x7).1 S4000x128.size (by sl_kernel_rfl) y

/-- What the body leaves in the output window's buffer: its store read back. -/
def out1_7 (c : Dev nD) (i : grid1.Coords) (arg1 : Memref sig .tc .vmem S4000x128 .bf16) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole)
    (x1 : Vec F S4000x128 .bf16) (x2 : Vec F S1x128 .f32) (x3 : Vec F S1x128 .f32) (x4 : Vec F S1x128 .f32) (x5 : Vec F S1x128 .f32) (x6 : Vec F S128x128 .f32) (x7 : Vec F S1x128 .f32) : Vec F S4000x128 .f32 :=
  VO1.read (Elt F) (VO1.writes (Elt F) VO1.junk (kernelRun1 c i arg1 harg1 arg2 harg2 arg3 harg3 arg4 harg4 arg5 harg5 arg6 harg6 arg7 harg7 arg8 harg8 x1 x2 x3 x4 x5 x6 x7).1)

section Region1

variable (V : (c : Dev nD) → (b : Ref sig .tc) → Buf (Elt F) ((c : Thread nD τ).loc b))

/-- The second kernel's proof data on core `c`: the arrays as the region finds them; after the body at point `t` each
    input's buffer at its block and the output's at what the body's store leaves; the class invariant; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

theorem leaves1_0 (c : Dev nD) (t : Fin cfg1.N) : (dat1 V c).leavesExact 0 t = owns (c : Thread nD τ) (ms1_0 t) fullShare (iblk1 V c 0 t) := by
  unfold Dat.leavesExact; rw [liveAt1 0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1 1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1 2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1 3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1 4 t, after1_4]
theorem leaves1_5 (c : Dev nD) (t : Fin cfg1.N) : (dat1 V c).leavesExact 5 t = owns (c : Thread nD τ) (ms1_5 t) fullShare (iblk1 V c 5 t) := by
  unfold Dat.leavesExact; rw [liveAt1 5 t, after1_5]
theorem leaves1_6 (c : Dev nD) (t : Fin cfg1.N) : (dat1 V c).leavesExact 6 t = owns (c : Thread nD τ) (ms1_6 t) fullShare (iblk1 V c 6 t) := by
  unfold Dat.leavesExact; rw [liveAt1 6 t, after1_6]
theorem leaves1_7 (c : Dev nD) (t : Fin cfg1.N) : (dat1 V c).leavesExact 7 t = owns (c : Thread nD τ) (ms1_7 t) fullShare (out1_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t) (iblk1 V c 6 t)) := by
  unfold Dat.leavesExact; rw [liveAt1 7 t, after1_7]

set_option maxHeartbeats 4000000 in
/-- The body at any point: the inputs' buffers hold their blocks, so the run applies; the invariant and the core's dues pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl]
  rw [leaves1_0, leaves1_1, leaves1_2, leaves1_3, leaves1_4, leaves1_5, leaves1_6, leaves1_7]
  unfold out1_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1 c (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover1_7 c _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.Kernel.Hand

end
-- ==== Proof.KRun.lean ====
/-
  The whole program as four segments — host operations, the first kernel's region, host operations, the second kernel's
  region — run from the launch to the return. The buffers' contents at each boundary are a fold from the launch memory:
  a host stretch applies its operations; a region leaves its arrays at what its write-backs make of them and every other
  buffer alone. The run ends with every unscoped buffer at the last boundary's contents; from that, the argument arrays
  end as launched, and the result array holds what the second region's write-backs leave.
-/
import proofs.«135623_j83167746719884_2_alg».proof.Proof.KBody0
import proofs.«135623_j83167746719884_2_alg».proof.Proof.KReg1
import proofs.«135623_j83167746719884_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the first host stretch (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A buffer that no host operation writes and that is no array of either region ends as launched. -/
theorem W4_keep (c : Dev nD) (r : Ref sig .tc) (h0 : r ∉ (hostOps0_W : List (Ref sig .tc))) (h1 : r ∉ (hostOps1_W : List (Ref sig .tc)))
    (ha0 : ∀ w, Pipeline.arrRef spec0 w ≠ r) (ha1 : ∀ w, Pipeline.arrRef spec1 w ≠ r) :
    W4 m c (Proc.devRef .tc r) = m ((c : Thread nD τ).loc r) :=
  calc W4 m c (Proc.devRef .tc r)
    _ = W3 m c (Proc.devRef .tc r) := W4_of_ne m c r ha1
    _ = W2 m c (Proc.devRef .tc r) := StableHlo.after_of_writes_sub hostOps1 _ hostOps1_writes h1
    _ = W1 m c (Proc.devRef .tc r) := W2_of_ne m c r ha0
    _ = W0 m c (Proc.devRef .tc r) := StableHlo.after_of_writes_sub hostOps0 _ hostOps0_writes h0
    _ = m ((c : Thread nD τ).loc r) := rfl

/-- The node table is the first region's first input window: read and never written. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  W4_keep m c main_arg1 (by decide) (by decide) (by decide) (by decide)
theorem W4_main_arg2 (c : Dev nD) : W4 m c (Proc.devRef .tc main_arg2) = m ((c : Thread nD τ).loc main_arg2) :=
  W4_keep m c main_arg2 (by decide) (by decide) (by decide) (by decide)
theorem W4_main_arg3 (c : Dev nD) : W4 m c (Proc.devRef .tc main_arg3) = m ((c : Thread nD τ).loc main_arg3) :=
  W4_keep m c main_arg3 (by decide) (by decide) (by decide) (by decide)
theorem W4_main_arg4 (c : Dev nD) : W4 m c (Proc.devRef .tc main_arg4) = m ((c : Thread nD τ).loc main_arg4) :=
  W4_keep m c main_arg4 (by decide) (by decide) (by decide) (by decide)
theorem W4_main_arg5 (c : Dev nD) : W4 m c (Proc.devRef .tc main_arg5) = m ((c : Thread nD τ).loc main_arg5) :=
  W4_keep m c main_arg5 (by decide) (by decide) (by decide) (by decide)
theorem W4_main_arg6 (c : Dev nD) : W4 m c (Proc.devRef .tc main_arg6) = m ((c : Thread nD τ).loc main_arg6) :=
  W4_keep m c main_arg6 (by decide) (by decide) (by decide) (by decide)
theorem W4_main_arg7 (c : Dev nD) : W4 m c (Proc.devRef .tc main_arg7) = m ((c : Thread nD τ).loc main_arg7) :=
  W4_keep m c main_arg7 (by decide) (by decide) (by decide) (by decide)
theorem W4_main_arg8 (c : Dev nD) : W4 m c (Proc.devRef .tc main_arg8) = m ((c : Thread nD τ).loc main_arg8) :=
  W4_keep m c main_arg8 (by decide) (by decide) (by decide) (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first kernel's region: entered from every unscoped buffer at the first boundary's contents, left at the second's. Its
    arrays are split out of the unscoped buffers and put back at the exit contents; the generator register and the scoped
    buffers go into the invariant and come out of it; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi0_last (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region: entered from every unscoped buffer at the third boundary's contents, left at the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

variable (ρ : Dev nD → PrngReg)

set_option backward.isDefEq.respectTransparency.types false in
/-- THE RUN. From any memory with zero counters every weakly fair execution of the program on the TensorCores terminates,
    nothing faulting, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The argument arrays end as launched, and the result array holds what the second region's write-backs leave. -/
theorem run_value : θ_run defs (onTc (τ := τ) (main (F := F))) ⟨m, fun _ => 0, ρ⟩ (fun r => ∀ c : Dev nD,
      r.2.mem ((c.tc : Thread nD τ).loc main_v28) = (dat1 (V3 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v28 (by decide))).trans (W4_arr m c 7),
      (h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c),
      (h c _ (mem_uc main_arg7 (by decide))).trans (W4_main_arg7 m c),
      (h c _ (mem_uc main_arg8 (by decide))).trans (W4_main_arg8 m c)⟩) (run_all m ρ)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_value m ρ)

end Cert.Kernel.Hand

end
-- ==== Proof.KiRuns.lean ====
/-
  The first kernel's grid has 25 points; its body resets two accumulator rows at the first point, adds a tile's
  column sums of `h` and of `h²` to them at every point, stores the tile of `h`, and copies the accumulators out at
  the last point. This module fixes what the three cases of the body share — which point is first and which is
  last, where the two statistics windows are idle, each input window's block at a point — and runs the body once
  per case.
-/
import proofs.«135623_j83167746719884_2_alg».proof.Proof.Gen.KernelIdeal.Launch
import proofs.«135623_j83167746719884_2_alg».proof.Proof.Gen.KernelIdeal.Skeleton
import proofs.«135623_j83167746719884_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

end Region0

/-- The first conditional (reset the accumulators): the grid coordinate is zero. -/
abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second conditional (copy the accumulators out): the grid coordinate is 24. -/
abbrev cond0_1 (i : grid0.Coords) : Prop := k0_cond2 i = 1#1
theorem hcond0_1 : ∀ t : Fin cfg0.N, cond0_1 (grid0.coords t) ↔ t.val = 24 :=
  (by decide +kernel : ∀ t : Fin grid0.N, cond0_1 (grid0.coords t) ↔ t.val = 24)

/-- No input window and not the `h` window is ever idle; the two statistics windows are idle, and not written back,
    everywhere but at the last point. -/
theorem liveAt0_in : ∀ (w : Fin 8), w.val ≤ 5 → ∀ t : Fin cfg0.N, cfg0.idle w (grid0.coords t) = false := by decide +kernel
theorem idleAt0_6 : ∀ t : Fin cfg0.N, ¬cond0_1 (grid0.coords t) → cfg0.idle 6 (grid0.coords t) = true := by decide +kernel
theorem idleAt0_7 : ∀ t : Fin cfg0.N, ¬cond0_1 (grid0.coords t) → cfg0.idle 7 (grid0.coords t) = true := by decide +kernel
theorem noFlush0_6 : ∀ t : Fin cfg0.N, ¬cond0_1 (grid0.coords t) → (cfg0.win 6).flush t = false := by decide +kernel
theorem noFlush0_7 : ∀ t : Fin cfg0.N, ¬cond0_1 (grid0.coords t) → (cfg0.win 7).flush t = false := by decide +kernel
theorem liveAt0_6 : ∀ t : Fin cfg0.N, cond0_1 (grid0.coords t) → cfg0.idle 6 (grid0.coords t) = false := by decide +kernel
theorem liveAt0_7 : ∀ t : Fin cfg0.N, cond0_1 (grid0.coords t) → cfg0.idle 7 (grid0.coords t) = false := by decide +kernel

/-- The two accumulator rows: whole scoped buffers of the kernel's own. -/
abbrev scM9 : Memref sig .tc .vmem S1x128 .f32 := Memref.whole cc0_scratch0
abbrev scM10 : Memref sig .tc .vmem S1x128 .f32 := Memref.whole cc0_scratch1

set_option maxHeartbeats 4000000 in
/-- The body of the first kernel in case A of its two conditionals, on whole memrefs: the five input blocks at their contents,
    the output blocks it stores at anything, the two accumulators at anything (the case overwrites them first).
    It runs to the continuation holding the inputs as they were and every buffer it stored into with its pieces written
    (last store first); the pieces are what the run finds. -/
noncomputable def kernelRun0_A (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x1 : Vec F S4000x128 .f32) (x2 : Vec F S4000x128 .f32) (x3 : Vec F S1x1 .f32) (x4 : Vec F S128x128 .f32) (x5 : Vec F S1x128 .f32) :
    Σ' (L6 : List (View.Piece (Elt F) S4000x128 .bf16)) (LS9 : List (View.Piece (Elt F) S1x128 .f32)), { LS10 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg9 fullShare d) ∗ (∃ d, owns (c : Thread nD τ) arg10 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10)) -∗ K ⟨⟩))
          ⊢ wp frame (wpE (defs₀ (F := F)) Variants.none c none) E (cc0__kernel_a i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__kernel_a_eq_skeleton]; unfold cc0__kernel_a_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%ds9, %fs9, -, HS9⟩, ⟨%ds10, %fs10, -, HS10⟩, Hk⟩
    obtain rfl := harg1.eq_unread hf1; obtain rfl := harg2.eq_unread hf2; obtain rfl := harg3.eq_unread hf3; obtain rfl := harg4.eq_unread hf4; obtain rfl := harg5.eq_unread hf5
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [HS9]; · iexists _; iexact HS9
    iexists _; iexact HS10

set_option maxHeartbeats 4000000 in
/-- The body of the first kernel in case B of its two conditionals, on whole memrefs: the five input blocks at their contents,
    the output blocks it stores at anything, the two accumulators at the contents the point before left.
    It runs to the continuation holding the inputs as they were and every buffer it stored into with its pieces written
    (last store first); the pieces are what the run finds. -/
noncomputable def kernelRun0_B (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) :
    Σ' (L6 : List (View.Piece (Elt F) S4000x128 .bf16)) (LS9 : List (View.Piece (Elt F) S1x128 .f32)), { LS10 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ owns (c : Thread nD τ) arg9 fullShare xs9 ∗ owns (c : Thread nD τ) arg10 fullShare xs10
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6)
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10)) -∗ K ⟨⟩))
          ⊢ wp frame (wpE (defs₀ (F := F)) Variants.none c none) E (cc0__kernel_a i arg1 harg1 arg2 harg2 arg3 harg3 arg4 harg4 arg5 harg5 arg6 harg6 arg7 harg7 arg8 harg8 arg9 harg9 arg10 harg10) K } := by
  refine ⟨?_, ?_, ?_, fun E K => ?run⟩
  case run =>
    simp only [cc0__kernel_a_eq_skeleton]; unfold cc0__kernel_a_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%fs9, %hfs9, HS9⟩, ⟨%fs10, %hfs10, HS10⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hfs9; obtain rfl := harg10.eq_unread hfs10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [HS9]; · iexists _; iexact HS9
    iexists _; iexact HS10

set_option maxHeartbeats 4000000 in
/-- The body of the first kernel in case C of its two conditionals, on whole memrefs: the five input blocks at their contents,
    the output blocks it stores at anything, the two accumulators at the contents the point before left.
    It runs to the continuation holding the inputs as they were and every buffer it stored into with its pieces written
    (last store first); the pieces are what the run finds. -/
noncomputable def kernelRun0_C (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) :
    Σ' (L6 : List (View.Piece (Elt F) S4000x128 .bf16)) (L7 : List (View.Piece (Elt F) S1x128 .f32)) (L8 : List (View.Piece (Elt F) S1x128 .f32)) (LS9 : List (View.Piece (Elt F) S1x128 .f32)), { LS10 : List (View.Piece (Elt F) S1x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
            ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs9 ∗ owns (c : Thread nD τ) arg10 fullShare xs10
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5
                ∗ (∃ f, arg6.view.loc (c : Thread nD τ) ↦[arg6.view.set]{fullShare} arg6.view.writes (Elt F) f L6) ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8)
                ∗ (∃ f, arg9.view.loc (c : Thread nD τ) ↦[arg9.view.set]{fullShare} arg9.view.writes (Elt F) f LS9) ∗ (∃ f, arg10.view.loc (c : Thread nD τ) ↦[arg10.view.set]{fullShare} arg10.view.writes (Elt F) f LS10)) -∗ K ⟨⟩))
          ⊢ wp frame (wpE (defs₀ (F := F)) Variants.none c none) E (cc0__kernel_a i arg1 harg1 arg2 harg2 arg3 harg3 arg4 harg4 arg5 harg5 arg6 harg6 arg7 harg7 arg8 harg8 arg9 harg9 arg10 harg10) K } := by
  refine ⟨?_, ?_, ?_, ?_, ?_, fun E K => ?run⟩
  case run =>
    simp only [cc0__kernel_a_eq_skeleton]; unfold cc0__kernel_a_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs9, %hfs9, HS9⟩, ⟨%fs10, %hfs10, HS10⟩, Hk⟩
    obtain rfl := harg1.eq_unread hf1; obtain rfl := harg2.eq_unread hf2; obtain rfl := harg3.eq_unread hf3; obtain rfl := harg4.eq_unread hf4; obtain rfl := harg5.eq_unread hf5; obtain rfl := harg9.eq_unread hfs9; obtain rfl := harg10.eq_unread hfs10
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [HS9]; · iexists _; iexact HS9
    iexists _; iexact HS10

end Cert.KernelIdeal.Hand

end
-- ==== Proof.KiDat0.lean ====
/-
  The first kernel's proof data: what its three output windows' buffers and its two accumulator rows hold after
  each of the 25 grid points (by recursion on the point: the first point resets, every later one adds to what the
  point before left, the last one also copies the accumulators out), the invariant that carries the accumulators
  from one point to the next, and the body's obligation at every point.
-/
import proofs.«135623_j83167746719884_2_alg».proof.Proof.KiRuns

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One buffer of each output window and the two accumulator rows as views, through which contents are stated. -/
abbrev VO5 : View sig .tc .vmem S4000x128 .bf16 := (Memref.whole cc0_stg5_0 : Memref sig .tc .vmem S4000x128 .bf16).view
abbrev VO6 : View sig .tc .vmem S1x128 .f32 := (Memref.whole cc0_stg6_0 : Memref sig .tc .vmem S1x128 .f32).view
abbrev VO7 : View sig .tc .vmem S1x128 .f32 := (Memref.whole cc0_stg7_0 : Memref sig .tc .vmem S1x128 .f32).view
abbrev VS9 : View sig .tc .vmem S1x128 .f32 := scM9.view
abbrev VS10 : View sig .tc .vmem S1x128 .f32 := scM10.view

/-- Each window's current staging memref at a point, spelt as the pipeline passes it to the body. -/
abbrev ms0_0 (t : Fin cfg0.N) : Memref sig .tc .vmem S4000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4000x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S4000x128 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x128 .f32 := win0_7.stage (cfg0.slots t 7)
abbrev hs0_7 (t : Fin cfg0.N) : (ms0_7 t).IsWhole := hstage0_7 ((cfg0.slots t 7).cast nbuf0_7)

/-- Case A's stores into the `h` window's buffer tile it, so they cover it. -/
theorem cover0_A_5 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x1 : Vec F S4000x128 .f32) (x2 : Vec F S4000x128 .f32) (x3 : Vec F S1x1 .f32) (x4 : Vec F S128x128 .f32) (x5 : Vec F S1x128 .f32) (y : S4000x128.Idx) :
    ∃ pc ∈ (kernelRun0_A c i arg1 harg1 arg2 harg2 arg3 harg3 arg4 harg4 arg5 harg5 arg6 harg6 arg7 harg7 arg8 harg8 arg9 harg9 arg10 harg10 hc0 hc1 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x1 x2 x3 x4 x5).1 S4000x128.size (by sl_kernel_rfl) y

/-- What case A leaves in the `h` window's buffer: its stores read back. -/
def out0_A_5 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x1 : Vec F S4000x128 .f32) (x2 : Vec F S4000x128 .f32) (x3 : Vec F S1x1 .f32) (x4 : Vec F S128x128 .f32) (x5 : Vec F S1x128 .f32) : Vec F S4000x128 .bf16 :=
  VO5.read (Elt F) (VO5.writes (Elt F) VO5.junk (kernelRun0_A c i arg1 harg1 arg2 harg2 arg3 harg3 arg4 harg4 arg5 harg5 arg6 harg6 arg7 harg7 arg8 harg8 arg9 harg9 arg10 harg10 hc0 hc1 x1 x2 x3 x4 x5).1)
/-- Case A's stores into the first accumulator row tile it, so they cover it. -/
theorem cover0_A_9 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x1 : Vec F S4000x128 .f32) (x2 : Vec F S4000x128 .f32) (x3 : Vec F S1x1 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 hc1 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x1 x2 x3 x4 x5).2.1 S1x128.size (by sl_kernel_rfl) y

/-- What case A leaves in the first accumulator row: its stores read back. -/
def out0_A_9 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x1 : Vec F S4000x128 .f32) (x2 : Vec F S4000x128 .f32) (x3 : Vec F S1x1 .f32) (x4 : Vec F S128x128 .f32) (x5 : Vec F S1x128 .f32) : Vec F S1x128 .f32 :=
  VS9.read (Elt F) (VS9.writes (Elt F) VS9.junk (kernelRun0_A c i arg1 harg1 arg2 harg2 arg3 harg3 arg4 harg4 arg5 harg5 arg6 harg6 arg7 harg7 arg8 harg8 arg9 harg9 arg10 harg10 hc0 hc1 x1 x2 x3 x4 x5).2.1)
/-- Case A's stores into the second accumulator row tile it, so they cover it. -/
theorem cover0_A_10 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x1 : Vec F S4000x128 .f32) (x2 : Vec F S4000x128 .f32) (x3 : Vec F S1x1 .f32) (x4 : Vec F S128x128 .f32) (x5 : Vec F S1x128 .f32) (y : S1x128.Idx) :
    ∃ pc ∈ (kernelRun0_A c i arg1 harg1 arg2 harg2 arg3 harg3 arg4 harg4 arg5 harg5 arg6 harg6 arg7 harg7 arg8 harg8 arg9 harg9 arg10 harg10 hc0 hc1 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 hc0 hc1 x1 x2 x3 x4 x5).2.2.1 S1x128.size (by sl_kernel_rfl) y

/-- What case A leaves in the second accumulator row: its stores read back. -/
def out0_A_10 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x1 : Vec F S4000x128 .f32) (x2 : Vec F S4000x128 .f32) (x3 : Vec F S1x1 .f32) (x4 : Vec F S128x128 .f32) (x5 : Vec F S1x128 .f32) : Vec F S1x128 .f32 :=
  VS10.read (Elt F) (VS10.writes (Elt F) VS10.junk (kernelRun0_A c i arg1 harg1 arg2 harg2 arg3 harg3 arg4 harg4 arg5 harg5 arg6 harg6 arg7 harg7 arg8 harg8 arg9 harg9 arg10 harg10 hc0 hc1 x1 x2 x3 x4 x5).2.2.1)

/-- Case B's stores into the `h` window's buffer tile it, so they cover it. -/
theorem cover0_B_5 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) (y : S4000x128.Idx) :
    ∃ pc ∈ (kernelRun0_B c i arg1 harg1 arg2 harg2 arg3 harg3 arg4 harg4 arg5 harg5 arg6 harg6 arg7 harg7 arg8 harg8 arg9 harg9 arg10 harg10 hc0 hc1 x1 x2 x3 x4 x5 xs9 xs10).1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x1 x2 x3 x4 x5 xs9 xs10).1 S4000x128.size (by sl_kernel_rfl) y

/-- What case B leaves in the `h` window's buffer: its stores read back. -/
def out0_B_5 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) : Vec F S4000x128 .bf16 :=
  VO5.read (Elt F) (VO5.writes (Elt F) VO5.junk (kernelRun0_B c i arg1 harg1 arg2 harg2 arg3 harg3 arg4 harg4 arg5 harg5 arg6 harg6 arg7 harg7 arg8 harg8 arg9 harg9 arg10 harg10 hc0 hc1 x1 x2 x3 x4 x5 xs9 xs10).1)
/-- Case B's stores into the first accumulator row tile it, so they cover it. -/
theorem cover0_B_9 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 hc1 x1 x2 x3 x4 x5 xs9 xs10).2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x1 x2 x3 x4 x5 xs9 xs10).2.1 S1x128.size (by sl_kernel_rfl) y

/-- What case B leaves in the first accumulator row: its stores read back. -/
def out0_B_9 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) : Vec F S1x128 .f32 :=
  VS9.read (Elt F) (VS9.writes (Elt F) VS9.junk (kernelRun0_B c i arg1 harg1 arg2 harg2 arg3 harg3 arg4 harg4 arg5 harg5 arg6 harg6 arg7 harg7 arg8 harg8 arg9 harg9 arg10 harg10 hc0 hc1 x1 x2 x3 x4 x5 xs9 xs10).2.1)
/-- Case B's stores into the second accumulator row tile it, so they cover it. -/
theorem cover0_B_10 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) (y : S1x128.Idx) :
    ∃ pc ∈ (kernelRun0_B c i arg1 harg1 arg2 harg2 arg3 harg3 arg4 harg4 arg5 harg5 arg6 harg6 arg7 harg7 arg8 harg8 arg9 harg9 arg10 harg10 hc0 hc1 x1 x2 x3 x4 x5 xs9 xs10).2.2.1, y ∈ pc.1.set :=
  View.cover_of_tiledL (kernelRun0_B c i arg1 harg1 arg2 harg2 arg3 harg3 arg4 harg4 arg5 harg5 arg6 harg6 arg7 harg7 arg8 harg8 arg9 harg9 arg10 harg10 hc0 hc1 x1 x2 x3 x4 x5 xs9 xs10).2.2.1 S1x128.size (by sl_kernel_rfl) y

/-- What case B leaves in the second accumulator row: its stores read back. -/
def out0_B_10 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) : Vec F S1x128 .f32 :=
  VS10.read (Elt F) (VS10.writes (Elt F) VS10.junk (kernelRun0_B c i arg1 harg1 arg2 harg2 arg3 harg3 arg4 harg4 arg5 harg5 arg6 harg6 arg7 harg7 arg8 harg8 arg9 harg9 arg10 harg10 hc0 hc1 x1 x2 x3 x4 x5 xs9 xs10).2.2.1)

/-- Case C's stores into the `h` window's buffer tile it, so they cover it. -/
theorem cover0_C_5 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) (y : S4000x128.Idx) :
    ∃ pc ∈ (kernelRun0_C c i arg1 harg1 arg2 harg2 arg3 harg3 arg4 harg4 arg5 harg5 arg6 harg6 arg7 harg7 arg8 harg8 arg9 harg9 arg10 harg10 hc0 hc1 x1 x2 x3 x4 x5 xs9 xs10).1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x1 x2 x3 x4 x5 xs9 xs10).1 S4000x128.size (by sl_kernel_rfl) y

/-- What case C leaves in the `h` window's buffer: its stores read back. -/
def out0_C_5 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) : Vec F S4000x128 .bf16 :=
  VO5.read (Elt F) (VO5.writes (Elt F) VO5.junk (kernelRun0_C c i arg1 harg1 arg2 harg2 arg3 harg3 arg4 harg4 arg5 harg5 arg6 harg6 arg7 harg7 arg8 harg8 arg9 harg9 arg10 harg10 hc0 hc1 x1 x2 x3 x4 x5 xs9 xs10).1)
/-- Case C's stores into the sums window's buffer tile it, so they cover it. -/
theorem cover0_C_6 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x1 x2 x3 x4 x5 xs9 xs10).2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x1 x2 x3 x4 x5 xs9 xs10).2.1 S1x128.size (by sl_kernel_rfl) y

/-- What case C leaves in the sums window's buffer: its stores read back. -/
def out0_C_6 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) : Vec F S1x128 .f32 :=
  VO6.read (Elt F) (VO6.writes (Elt F) VO6.junk (kernelRun0_C c i arg1 harg1 arg2 harg2 arg3 harg3 arg4 harg4 arg5 harg5 arg6 harg6 arg7 harg7 arg8 harg8 arg9 harg9 arg10 harg10 hc0 hc1 x1 x2 x3 x4 x5 xs9 xs10).2.1)
/-- Case C's stores into the sums-of-squares window's buffer tile it, so they cover it. -/
theorem cover0_C_7 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x1 x2 x3 x4 x5 xs9 xs10).2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x1 x2 x3 x4 x5 xs9 xs10).2.2.1 S1x128.size (by sl_kernel_rfl) y

/-- What case C leaves in the sums-of-squares window's buffer: its stores read back. -/
def out0_C_7 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) : Vec F S1x128 .f32 :=
  VO7.read (Elt F) (VO7.writes (Elt F) VO7.junk (kernelRun0_C c i arg1 harg1 arg2 harg2 arg3 harg3 arg4 harg4 arg5 harg5 arg6 harg6 arg7 harg7 arg8 harg8 arg9 harg9 arg10 harg10 hc0 hc1 x1 x2 x3 x4 x5 xs9 xs10).2.2.1)
/-- Case C's stores into the first accumulator row tile it, so they cover it. -/
theorem cover0_C_9 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x1 x2 x3 x4 x5 xs9 xs10).2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x1 x2 x3 x4 x5 xs9 xs10).2.2.2.1 S1x128.size (by sl_kernel_rfl) y

/-- What case C leaves in the first accumulator row: its stores read back. -/
def out0_C_9 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) : Vec F S1x128 .f32 :=
  VS9.read (Elt F) (VS9.writes (Elt F) VS9.junk (kernelRun0_C c i arg1 harg1 arg2 harg2 arg3 harg3 arg4 harg4 arg5 harg5 arg6 harg6 arg7 harg7 arg8 harg8 arg9 harg9 arg10 harg10 hc0 hc1 x1 x2 x3 x4 x5 xs9 xs10).2.2.2.1)
/-- Case C's stores into the second accumulator row tile it, so they cover it. -/
theorem cover0_C_10 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) (y : S1x128.Idx) :
    ∃ pc ∈ (kernelRun0_C c i arg1 harg1 arg2 harg2 arg3 harg3 arg4 harg4 arg5 harg5 arg6 harg6 arg7 harg7 arg8 harg8 arg9 harg9 arg10 harg10 hc0 hc1 x1 x2 x3 x4 x5 xs9 xs10).2.2.2.2.1, y ∈ pc.1.set :=
  View.cover_of_tiledL (kernelRun0_C c i arg1 harg1 arg2 harg2 arg3 harg3 arg4 harg4 arg5 harg5 arg6 harg6 arg7 harg7 arg8 harg8 arg9 harg9 arg10 harg10 hc0 hc1 x1 x2 x3 x4 x5 xs9 xs10).2.2.2.2.1 S1x128.size (by sl_kernel_rfl) y

/-- What case C leaves in the second accumulator row: its stores read back. -/
def out0_C_10 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) : Vec F S1x128 .f32 :=
  VS10.read (Elt F) (VS10.writes (Elt F) VS10.junk (kernelRun0_C c i arg1 harg1 arg2 harg2 arg3 harg3 arg4 harg4 arg5 harg5 arg6 harg6 arg7 harg7 arg8 harg8 arg9 harg9 arg10 harg10 hc0 hc1 x1 x2 x3 x4 x5 xs9 xs10).2.2.2.2.1)

/-- The scoped buffers of the core that the first kernel never names (the second kernel's staging buffers), each whole at
    some contents. -/
def restOther (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f))

/-- The class invariant with the two accumulator rows split off as memrefs owned at some contents. -/
theorem PhiA0_eq (c : Dev nD) :
    (Pipeline.ΦA spec0 c : sProp 𝕄)
      = iprop(((∃ d, owns (c : Thread nD τ) scM9 fullShare d) ∗ (∃ d, owns (c : Thread nD τ) scM10 fullShare d) ∗ restOther (F := F) c) ∗ (∃ r, prngReg c r)) := by
  unfold Pipeline.ΦA restOther; rw [scopedRest0_eq]; simp only [scM9, scM10, owns_whole]; try rfl

section Region0

variable (V : (c : Dev nD) → (b : Ref sig .tc) → Buf (Elt F) ((c : Thread nD τ).loc b))

/-- What the three output buffers and the two accumulator rows hold after the body at position `n`:
    (the `h` tile, the sums row, the sums-of-squares row, the first accumulator, the second accumulator). At the first
    point the reset case; at the last (position 24) the case that also copies out; in between the plain case; each later
    case over the accumulators the point before left. Where a statistics window is idle its entry is a placeholder that
    nothing reads. -/
def outsAt0 (c : Dev nD) : (n : ℕ) → n < cfg0.N → Vec F S4000x128 .bf16 × Vec F S1x128 .f32 × Vec F S1x128 .f32 × Vec F S1x128 .f32 × Vec F S1x128 .f32
  | 0, hn =>
    let t : Fin cfg0.N := ⟨0, hn⟩
    let hc0 : cond0_0 (grid0.coords t) := (hcond0_0 t).mpr rfl
    let hc1 : ¬cond0_1 (grid0.coords t) := fun h => by have h' := (hcond0_1 t).mp h; (try dsimp only [t] at h'); omega
    (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t),
      VO6.read (Elt F) (VO6.writes (Elt F) VO6.junk []), VO7.read (Elt F) (VO7.writes (Elt F) VO7.junk []),
      out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t),
      out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t))
  | n + 1, hn =>
    let t : Fin cfg0.N := ⟨n + 1, hn⟩
    let hc0 : ¬cond0_0 (grid0.coords t) := fun h => by have h' := (hcond0_0 t).mp h; (try dsimp only [t] at h'); omega
    let p := outsAt0 c n (Nat.lt_of_succ_lt hn)
    if h1 : n + 1 = 24 then
      let hc1 : cond0_1 (grid0.coords t) := (hcond0_1 t).mpr h1
      (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) p.2.2.2.1 p.2.2.2.2,
        out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) p.2.2.2.1 p.2.2.2.2,
        out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) p.2.2.2.1 p.2.2.2.2,
        out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) p.2.2.2.1 p.2.2.2.2,
        out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) p.2.2.2.1 p.2.2.2.2)
    else
      let hc1 : ¬cond0_1 (grid0.coords t) := fun h => h1 ((hcond0_1 t).mp h)
      (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) p.2.2.2.1 p.2.2.2.2,
        VO6.read (Elt F) (VO6.writes (Elt F) VO6.junk []), VO7.read (Elt F) (VO7.writes (Elt F) VO7.junk []),
        out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) p.2.2.2.1 p.2.2.2.2,
        out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) p.2.2.2.1 p.2.2.2.2)

/-- The accumulators the point before `t` left (for `t` not the first point). -/
abbrev prevAt0 (c : Dev nD) (t : Fin cfg0.N) := outsAt0 V c (t.val - 1) (Nat.lt_of_le_of_lt (Nat.sub_le _ _) t.isLt)

/-- `outsAt0` at the first point. -/
theorem outsAt0_A (c : Dev nD) (t : Fin cfg0.N) (h0 : t.val = 0) (hc0 : cond0_0 (grid0.coords t)) (hc1 : ¬cond0_1 (grid0.coords t)) :
    outsAt0 V c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t),
      VO6.read (Elt F) (VO6.writes (Elt F) VO6.junk []), VO7.read (Elt F) (VO7.writes (Elt F) VO7.junk []),
      out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t),
      out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t)) := by
  obtain ⟨n, hn⟩ := t
  cases n with
  | zero => exact rfl
  | succ n => exact absurd h0 (Nat.succ_ne_zero n)

/-- `outsAt0` at a point that is neither first nor last. -/
theorem outsAt0_B (c : Dev nD) (t : Fin cfg0.N) (h0 : t.val ≠ 0) (h1 : t.val ≠ 24) (hc0 : ¬cond0_0 (grid0.coords t)) (hc1 : ¬cond0_1 (grid0.coords t)) :
    outsAt0 V c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2,
      VO6.read (Elt F) (VO6.writes (Elt F) VO6.junk []), VO7.read (Elt F) (VO7.writes (Elt F) VO7.junk []),
      out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2,
      out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2) := by
  obtain ⟨n, hn⟩ := t
  cases n with
  | zero => exact absurd rfl h0
  | succ n => exact (dif_neg h1).trans rfl

/-- `outsAt0` at the last point. -/
theorem outsAt0_C (c : Dev nD) (t : Fin cfg0.N) (h0 : t.val ≠ 0) (h1 : t.val = 24) (hc0 : ¬cond0_0 (grid0.coords t)) (hc1 : cond0_1 (grid0.coords t)) :
    outsAt0 V c t.val t.isLt = (out0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2,
      out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2,
      out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2,
      out0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2,
      out0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2) := by
  obtain ⟨n, hn⟩ := t
  cases n with
  | zero => exact absurd rfl h0
  | succ n => exact (dif_pos h1).trans rfl

/-- The region invariant before position `n`: before the first point the class's (every scoped buffer the kernel may use at
    anything, the generator register at some state); afterwards the two accumulator rows at what the point before left,
    the other scoped buffers at anything, the generator register at some state. -/
def PhiS (c : Dev nD) : (n : ℕ) → n ≤ cfg0.N → sProp 𝕄
  | 0, _ => Pipeline.ΦA spec0 c
  | n + 1, hn => iprop((owns (c : Thread nD τ) scM9 fullShare (outsAt0 V c n hn).2.2.2.1 ∗ owns (c : Thread nD τ) scM10 fullShare (outsAt0 V c n hn).2.2.2.2 ∗ restOther (F := F) c) ∗ (∃ r, prngReg c r))

theorem PhiS_zero (c : Dev nD) (n : ℕ) (h : n ≤ cfg0.N) (hz : n = 0) : PhiS V c n h = Pipeline.ΦA spec0 c := by
  subst hz; rfl

theorem PhiS_succ (c : Dev nD) (n : ℕ) (hn : n < cfg0.N) :
    PhiS V c (n + 1) hn = iprop((owns (c : Thread nD τ) scM9 fullShare (outsAt0 V c n hn).2.2.2.1 ∗ owns (c : Thread nD τ) scM10 fullShare (outsAt0 V c n hn).2.2.2.2 ∗ restOther (F := F) c) ∗ (∃ r, prngReg c r)) := rfl

theorem PhiS_pos (c : Dev nD) (n : ℕ) (h : n ≤ cfg0.N) (hz : n ≠ 0) :
    PhiS V c n h = iprop((owns (c : Thread nD τ) scM9 fullShare (outsAt0 V c (n - 1) (by omega)).2.2.2.1 ∗ owns (c : Thread nD τ) scM10 fullShare (outsAt0 V c (n - 1) (by omega)).2.2.2.2 ∗ restOther (F := F) c) ∗ (∃ r, prngReg c r)) := by
  cases n with
  | zero => exact absurd rfl hz
  | succ n => rfl

/-- The first kernel's proof data on core `c`: the arrays as the region finds them; after the body at point `t` each
    input's buffer at its block and the outputs' at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t.val t.isLt).1
    | ⟨6, _⟩ => (outsAt0 V c t.val t.isLt).2.1
    | ⟨7, _⟩ => (outsAt0 V c t.val t.isLt).2.2.1
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = (outsAt0 V c t.val t.isLt).1 := by dsimp only [dat0]
theorem after0_6 (c : Dev nD) (t : Fin cfg0.N) : (dat0 V c).after 6 t = (outsAt0 V c t.val t.isLt).2.1 := by dsimp only [dat0]
theorem after0_7 (c : Dev nD) (t : Fin cfg0.N) : (dat0 V c).after 7 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

end Region0

end Cert.KernelIdeal.Hand

end
-- ==== Proof.KiVal0.lean ====
/-
  What the first kernel's cases leave, read as values: each buffer the body stores into ends holding the payload of its last
  store, and a row stored and then loaded again within the point reads back what was stored. So at every point the `h`
  window's buffer holds the tile's `h`; each accumulator row holds its contents before the point plus the tile's column
  sums (from zero at the first point); and at the last point the two statistics windows' buffers hold the accumulators.
-/
import proofs.«135623_j83167746719884_2_alg».proof.Proof.KiDat0
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-! ## The first point -/

theorem val0_A_5 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x1 : Vec F S4000x128 .f32) (x2 : Vec F S4000x128 .f32) (x3 : Vec F S1x1 .f32) (x4 : Vec F S128x128 .f32) (x5 : Vec F S1x128 .f32) :
    out0_A_5 c i arg1 harg1 arg2 harg2 arg3 harg3 arg4 harg4 arg5 harg5 arg6 harg6 arg7 harg7 arg8 harg8 arg9 harg9 arg10 harg10 hc0 hc1 x1 x2 x3 x4 x5 = k0_pay2 (k0_pay5 x3 x1 x2 x4 x5) := by
  unfold out0_A_5
  rw [View.read_writes_eq_canon _ _ _ (cover0_A_5 c i arg1 harg1 arg2 harg2 arg3 harg3 arg4 harg4 arg5 harg5 arg6 harg6 arg7 harg7 arg8 harg8 arg9 harg9 arg10 harg10 hc0 hc1 x1 x2 x3 x4 x5)]
  unfold kernelRun0_A
  dsimp only
  sl_unfold_words
  rw [View.canon_unit_zero (S := S4000x128) hz]
  simp only [View.readAt_eq_ld, harg1.read_unread, harg2.read_unread, harg3.read_unread, harg4.read_unread, harg5.read_unread, View.ld_unit_zero (S := S1x1) hz, View.ld_unit_zero (S := S4000x128) hz, View.ld_unit_zero (S := S128x128) hz, View.ld_unit_zero (S := S1x128) hz]

theorem val0_A_9 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x1 : Vec F S4000x128 .f32) (x2 : Vec F S4000x128 .f32) (x3 : Vec F S1x1 .f32) (x4 : Vec F S128x128 .f32) (x5 : Vec F S1x128 .f32) :
    out0_A_9 c i arg1 harg1 arg2 harg2 arg3 harg3 arg4 harg4 arg5 harg5 arg6 harg6 arg7 harg7 arg8 harg8 arg9 harg9 arg10 harg10 hc0 hc1 x1 x2 x3 x4 x5 = k0_pay6 x3 x1 x2 x4 x5 (k0_pay3 (F := F)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc0 hc1 x1 x2 x3 x4 x5)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, View.ld_unit_zero (S := S1x1) hz, View.ld_unit_zero (S := S4000x128) hz, View.ld_unit_zero (S := S128x128) hz, View.ld_unit_zero (S := S1x128) hz]

theorem val0_A_10 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : cond0_0 i) (hc1 : ¬cond0_1 i)
    (x1 : Vec F S4000x128 .f32) (x2 : Vec F S4000x128 .f32) (x3 : Vec F S1x1 .f32) (x4 : Vec F S128x128 .f32) (x5 : Vec F S1x128 .f32) :
    out0_A_10 c i arg1 harg1 arg2 harg2 arg3 harg3 arg4 harg4 arg5 harg5 arg6 harg6 arg7 harg7 arg8 harg8 arg9 harg9 arg10 harg10 hc0 hc1 x1 x2 x3 x4 x5 = k0_pay1 (k0_pay7 x3 x1 x2 x4 x5 (k0_pay4 (F := F))) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 hc0 hc1 x1 x2 x3 x4 x5)]
  unfold kernelRun0_A
  dsimp only
  sl_unfold_words
  rw [View.canon_cons_unit_zero (S := S1x128) hz, View.readCov_unit_zero (S := S1x128) _ hz]
  simp only [View.readAt_eq_ld, harg1.read_unread, harg2.read_unread, harg3.read_unread, harg4.read_unread, harg5.read_unread, View.ld_unit_zero (S := S1x1) hz, View.ld_unit_zero (S := S4000x128) hz, View.ld_unit_zero (S := S128x128) hz, View.ld_unit_zero (S := S1x128) hz]

/-! ## A point between -/

theorem val0_B_5 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) :
    out0_B_5 c i arg1 harg1 arg2 harg2 arg3 harg3 arg4 harg4 arg5 harg5 arg6 harg6 arg7 harg7 arg8 harg8 arg9 harg9 arg10 harg10 hc0 hc1 x1 x2 x3 x4 x5 xs9 xs10 = k0_pay2 (k0_pay5 x3 x1 x2 x4 x5) := by
  unfold out0_B_5
  rw [View.read_writes_eq_canon _ _ _ (cover0_B_5 c i arg1 harg1 arg2 harg2 arg3 harg3 arg4 harg4 arg5 harg5 arg6 harg6 arg7 harg7 arg8 harg8 arg9 harg9 arg10 harg10 hc0 hc1 x1 x2 x3 x4 x5 xs9 xs10)]
  unfold kernelRun0_B
  dsimp only
  sl_unfold_words
  rw [View.canon_unit_zero (S := S4000x128) hz]
  simp only [View.readAt_eq_ld, harg1.read_unread, harg2.read_unread, harg3.read_unread, harg4.read_unread, harg5.read_unread, View.ld_unit_zero (S := S1x1) hz, View.ld_unit_zero (S := S4000x128) hz, View.ld_unit_zero (S := S128x128) hz, View.ld_unit_zero (S := S1x128) hz]

theorem val0_B_9 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) :
    out0_B_9 c i arg1 harg1 arg2 harg2 arg3 harg3 arg4 harg4 arg5 harg5 arg6 harg6 arg7 harg7 arg8 harg8 arg9 harg9 arg10 harg10 hc0 hc1 x1 x2 x3 x4 x5 xs9 xs10 = k0_pay6 x3 x1 x2 x4 x5 xs9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc0 hc1 x1 x2 x3 x4 x5 xs9 xs10)]
  unfold kernelRun0_B
  dsimp only
  sl_unfold_words
  rw [View.canon_unit_zero (S := S1x128) hz]
  simp only [View.readAt_eq_ld, harg1.read_unread, harg2.read_unread, harg3.read_unread, harg4.read_unread, harg5.read_unread, harg9.read_unread, View.ld_unit_zero (S := S1x1) hz, View.ld_unit_zero (S := S4000x128) hz, View.ld_unit_zero (S := S128x128) hz, View.ld_unit_zero (S := S1x128) hz]

theorem val0_B_10 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : ¬cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) :
    out0_B_10 c i arg1 harg1 arg2 harg2 arg3 harg3 arg4 harg4 arg5 harg5 arg6 harg6 arg7 harg7 arg8 harg8 arg9 harg9 arg10 harg10 hc0 hc1 x1 x2 x3 x4 x5 xs9 xs10 = k0_pay1 (k0_pay7 x3 x1 x2 x4 x5 xs10) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 hc0 hc1 x1 x2 x3 x4 x5 xs9 xs10)]
  unfold kernelRun0_B
  dsimp only
  sl_unfold_words
  rw [View.canon_unit_zero (S := S1x128) hz]
  simp only [View.readAt_eq_ld, harg1.read_unread, harg2.read_unread, harg3.read_unread, harg4.read_unread, harg5.read_unread, harg10.read_unread, View.ld_unit_zero (S := S1x1) hz, View.ld_unit_zero (S := S4000x128) hz, View.ld_unit_zero (S := S128x128) hz, View.ld_unit_zero (S := S1x128) hz]

/-! ## The last point -/

theorem val0_C_5 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) :
    out0_C_5 c i arg1 harg1 arg2 harg2 arg3 harg3 arg4 harg4 arg5 harg5 arg6 harg6 arg7 harg7 arg8 harg8 arg9 harg9 arg10 harg10 hc0 hc1 x1 x2 x3 x4 x5 xs9 xs10 = k0_pay2 (k0_pay5 x3 x1 x2 x4 x5) := by
  unfold out0_C_5
  rw [View.read_writes_eq_canon _ _ _ (cover0_C_5 c i arg1 harg1 arg2 harg2 arg3 harg3 arg4 harg4 arg5 harg5 arg6 harg6 arg7 harg7 arg8 harg8 arg9 harg9 arg10 harg10 hc0 hc1 x1 x2 x3 x4 x5 xs9 xs10)]
  unfold kernelRun0_C
  dsimp only
  sl_unfold_words
  rw [View.canon_unit_zero (S := S4000x128) hz]
  simp only [View.readAt_eq_ld, harg1.read_unread, harg2.read_unread, harg3.read_unread, harg4.read_unread, harg5.read_unread, View.ld_unit_zero (S := S1x1) hz, View.ld_unit_zero (S := S4000x128) hz, View.ld_unit_zero (S := S128x128) hz, View.ld_unit_zero (S := S1x128) hz]

theorem val0_C_9 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) :
    out0_C_9 c i arg1 harg1 arg2 harg2 arg3 harg3 arg4 harg4 arg5 harg5 arg6 harg6 arg7 harg7 arg8 harg8 arg9 harg9 arg10 harg10 hc0 hc1 x1 x2 x3 x4 x5 xs9 xs10 = k0_pay6 x3 x1 x2 x4 x5 xs9 := by
  unfold out0_C_9
  rw [View.read_writes_eq_canon _ _ _ (cover0_C_9 c i arg1 harg1 arg2 harg2 arg3 harg3 arg4 harg4 arg5 harg5 arg6 harg6 arg7 harg7 arg8 harg8 arg9 harg9 arg10 harg10 hc0 hc1 x1 x2 x3 x4 x5 xs9 xs10)]
  unfold kernelRun0_C
  dsimp only
  sl_unfold_words
  rw [View.canon_unit_zero (S := S1x128) hz]
  simp only [View.readAt_eq_ld, harg1.read_unread, harg2.read_unread, harg3.read_unread, harg4.read_unread, harg5.read_unread, harg9.read_unread, View.ld_unit_zero (S := S1x1) hz, View.ld_unit_zero (S := S4000x128) hz, View.ld_unit_zero (S := S128x128) hz, View.ld_unit_zero (S := S1x128) hz]

theorem val0_C_10 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) :
    out0_C_10 c i arg1 harg1 arg2 harg2 arg3 harg3 arg4 harg4 arg5 harg5 arg6 harg6 arg7 harg7 arg8 harg8 arg9 harg9 arg10 harg10 hc0 hc1 x1 x2 x3 x4 x5 xs9 xs10 = k0_pay1 (k0_pay7 x3 x1 x2 x4 x5 xs10) := by
  unfold out0_C_10
  rw [View.read_writes_eq_canon _ _ _ (cover0_C_10 c i arg1 harg1 arg2 harg2 arg3 harg3 arg4 harg4 arg5 harg5 arg6 harg6 arg7 harg7 arg8 harg8 arg9 harg9 arg10 harg10 hc0 hc1 x1 x2 x3 x4 x5 xs9 xs10)]
  unfold kernelRun0_C
  dsimp only
  sl_unfold_words
  rw [View.canon_unit_zero (S := S1x128) hz]
  simp only [View.readAt_eq_ld, harg1.read_unread, harg2.read_unread, harg3.read_unread, harg4.read_unread, harg5.read_unread, harg10.read_unread, View.ld_unit_zero (S := S1x1) hz, View.ld_unit_zero (S := S4000x128) hz, View.ld_unit_zero (S := S128x128) hz, View.ld_unit_zero (S := S1x128) hz]

theorem val0_C_6 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) :
    out0_C_6 c i arg1 harg1 arg2 harg2 arg3 harg3 arg4 harg4 arg5 harg5 arg6 harg6 arg7 harg7 arg8 harg8 arg9 harg9 arg10 harg10 hc0 hc1 x1 x2 x3 x4 x5 xs9 xs10 = k0_pay6 x3 x1 x2 x4 x5 xs9 := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 hc0 hc1 x1 x2 x3 x4 x5 xs9 xs10)]
  unfold kernelRun0_C
  dsimp only
  sl_unfold_words
  rw [View.canon_unit_zero (S := S1x128) hz, View.readCov_unit_zero (S := S1x128) _ hz]
  simp only [View.readAt_eq_ld, harg1.read_unread, harg2.read_unread, harg3.read_unread, harg4.read_unread, harg5.read_unread, harg9.read_unread, View.ld_unit_zero (S := S1x1) hz, View.ld_unit_zero (S := S4000x128) hz, View.ld_unit_zero (S := S128x128) hz, View.ld_unit_zero (S := S1x128) hz]

theorem val0_C_7 (c : Dev nD) (i : grid0.Coords) (arg1 : Memref sig .tc .vmem S4000x128 .f32) (harg1 : arg1.IsWhole) (arg2 : Memref sig .tc .vmem S4000x128 .f32) (harg2 : arg2.IsWhole) (arg3 : Memref sig .tc .vmem S1x1 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S4000x128 .bf16) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S1x128 .f32) (harg10 : arg10.IsWhole) (hc0 : ¬cond0_0 i) (hc1 : cond0_1 i)
    (x1 : Vec F S4000x128 .f32) (x2 : Vec F S4000x128 .f32) (x3 : Vec F S1x1 .f32) (x4 : Vec F S128x128 .f32) (x5 : Vec F S1x128 .f32) (xs9 : Vec F S1x128 .f32) (xs10 : Vec F S1x128 .f32) :
    out0_C_7 c i arg1 harg1 arg2 harg2 arg3 harg3 arg4 harg4 arg5 harg5 arg6 harg6 arg7 harg7 arg8 harg8 arg9 harg9 arg10 harg10 hc0 hc1 x1 x2 x3 x4 x5 xs9 xs10 = k0_pay1 (k0_pay7 x3 x1 x2 x4 x5 xs10) := by
  unfold out0_C_7
  rw [View.read_writes_eq_canon _ _ _ (cover0_C_7 c i arg1 harg1 arg2 harg2 arg3 harg3 arg4 harg4 arg5 harg5 arg6 harg6 arg7 harg7 arg8 harg8 arg9 harg9 arg10 harg10 hc0 hc1 x1 x2 x3 x4 x5 xs9 xs10)]
  unfold kernelRun0_C
  dsimp only
  sl_unfold_words
  rw [View.canon_unit_zero (S := S1x128) hz, View.readCov_unit_zero (S := S1x128) _ hz]
  simp only [View.readAt_eq_ld, harg1.read_unread, harg2.read_unread, harg3.read_unread, harg4.read_unread, harg5.read_unread, harg10.read_unread, View.ld_unit_zero (S := S1x1) hz, View.ld_unit_zero (S := S4000x128) hz, View.ld_unit_zero (S := S128x128) hz, View.ld_unit_zero (S := S1x128) hz]

end Cert.KernelIdeal.Hand

end
-- ==== Proof.KiSteps.lean ====
/-
  The first kernel's proof data in terms of the body's arithmetic alone. At every point the `h` window's buffer holds the
  payload `h` of the point's input blocks; the first accumulator row holds `S₀ = 0 ⊕ tile₀`, `Sₙ₊₁ = Sₙ ⊕ tileₙ₊₁` (the payload
  that adds a tile's column sums), the second likewise for the squares; and at the last point the two statistics windows'
  buffers hold the accumulators.
-/
import proofs.«135623_j83167746719884_2_alg».proof.Proof.KiVal0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- The tile of `h` the body computes at point `t`. -/
def hTile (c : Dev nD) (t : Fin cfg0.N) : FVec F S4000x128 .f32 := k0_pay5 (iblk0 V c 2 t) (iblk0 V c 0 t) (iblk0 V c 1 t) (iblk0 V c 3 t) (iblk0 V c 4 t)

theorem step_A (c : Dev nD) (t : Fin cfg0.N) (h0 : t.val = 0) :
    outsAt0 V c t.val t.isLt = (k0_pay2 (hTile V c t), VO6.read (Elt F) (VO6.writes (Elt F) VO6.junk []), VO7.read (Elt F) (VO7.writes (Elt F) VO7.junk []),
      k0_pay6 (iblk0 V c 2 t) (iblk0 V c 0 t) (iblk0 V c 1 t) (iblk0 V c 3 t) (iblk0 V c 4 t) (k0_pay3 (F := F)), k0_pay1 (k0_pay7 (iblk0 V c 2 t) (iblk0 V c 0 t) (iblk0 V c 1 t) (iblk0 V c 3 t) (iblk0 V c 4 t) (k0_pay4 (F := F)))) := by
  have hc0 : cond0_0 (grid0.coords t) := (hcond0_0 t).mpr h0
  have hc1 : ¬cond0_1 (grid0.coords t) := fun h => by have h' := (hcond0_1 t).mp h; omega
  rw [outsAt0_A V c t h0 hc0 hc1, val0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t),
    val0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t), val0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t)]
  rfl

theorem step_B (c : Dev nD) (t : Fin cfg0.N) (h0 : t.val ≠ 0) (h1 : t.val ≠ 24) :
    outsAt0 V c t.val t.isLt = (k0_pay2 (hTile V c t), VO6.read (Elt F) (VO6.writes (Elt F) VO6.junk []), VO7.read (Elt F) (VO7.writes (Elt F) VO7.junk []),
      k0_pay6 (iblk0 V c 2 t) (iblk0 V c 0 t) (iblk0 V c 1 t) (iblk0 V c 3 t) (iblk0 V c 4 t) (prevAt0 V c t).2.2.2.1, k0_pay1 (k0_pay7 (iblk0 V c 2 t) (iblk0 V c 0 t) (iblk0 V c 1 t) (iblk0 V c 3 t) (iblk0 V c 4 t) (prevAt0 V c t).2.2.2.2)) := by
  have hc0 : ¬cond0_0 (grid0.coords t) := fun h => h0 ((hcond0_0 t).mp h)
  have hc1 : ¬cond0_1 (grid0.coords t) := fun h => h1 ((hcond0_1 t).mp h)
  rw [outsAt0_B V c t h0 h1 hc0 hc1, val0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2,
    val0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2, val0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2]
  rfl

theorem step_C (c : Dev nD) (t : Fin cfg0.N) (h0 : t.val ≠ 0) (h1 : t.val = 24) :
    outsAt0 V c t.val t.isLt = (k0_pay2 (hTile V c t), k0_pay6 (iblk0 V c 2 t) (iblk0 V c 0 t) (iblk0 V c 1 t) (iblk0 V c 3 t) (iblk0 V c 4 t) (prevAt0 V c t).2.2.2.1, k0_pay1 (k0_pay7 (iblk0 V c 2 t) (iblk0 V c 0 t) (iblk0 V c 1 t) (iblk0 V c 3 t) (iblk0 V c 4 t) (prevAt0 V c t).2.2.2.2),
      k0_pay6 (iblk0 V c 2 t) (iblk0 V c 0 t) (iblk0 V c 1 t) (iblk0 V c 3 t) (iblk0 V c 4 t) (prevAt0 V c t).2.2.2.1, k0_pay1 (k0_pay7 (iblk0 V c 2 t) (iblk0 V c 0 t) (iblk0 V c 1 t) (iblk0 V c 3 t) (iblk0 V c 4 t) (prevAt0 V c t).2.2.2.2)) := by
  have hc0 : ¬cond0_0 (grid0.coords t) := fun h => h0 ((hcond0_0 t).mp h)
  have hc1 : cond0_1 (grid0.coords t) := (hcond0_1 t).mpr h1
  rw [outsAt0_C V c t h0 h1 hc0 hc1, val0_C_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2,
    val0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2, val0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2,
    val0_C_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2, val0_C_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM9 (Memref.isWhole_whole _) scM10 (Memref.isWhole_whole _) hc0 hc1 (iblk0 V c 0 t) (iblk0 V c 1 t) (iblk0 V c 2 t) (iblk0 V c 3 t) (iblk0 V c 4 t) (prevAt0 V c t).2.2.2.1 (prevAt0 V c t).2.2.2.2]
  rfl

/-- The first accumulator row after point `n`. -/
def accS (c : Dev nD) : (n : ℕ) → n < cfg0.N → FVec F S1x128 .f32
  | 0, h => let t : Fin cfg0.N := ⟨0, h⟩; k0_pay6 (iblk0 V c 2 t) (iblk0 V c 0 t) (iblk0 V c 1 t) (iblk0 V c 3 t) (iblk0 V c 4 t) (k0_pay3 (F := F))
  | n + 1, h => let t : Fin cfg0.N := ⟨n + 1, h⟩; k0_pay6 (iblk0 V c 2 t) (iblk0 V c 0 t) (iblk0 V c 1 t) (iblk0 V c 3 t) (iblk0 V c 4 t) (accS c n (Nat.lt_of_succ_lt h))

/-- The second accumulator row after point `n`. -/
def accQ (c : Dev nD) : (n : ℕ) → n < cfg0.N → FVec F S1x128 .f32
  | 0, h => let t : Fin cfg0.N := ⟨0, h⟩; k0_pay1 (k0_pay7 (iblk0 V c 2 t) (iblk0 V c 0 t) (iblk0 V c 1 t) (iblk0 V c 3 t) (iblk0 V c 4 t) (k0_pay4 (F := F)))
  | n + 1, h => let t : Fin cfg0.N := ⟨n + 1, h⟩; k0_pay1 (k0_pay7 (iblk0 V c 2 t) (iblk0 V c 0 t) (iblk0 V c 1 t) (iblk0 V c 3 t) (iblk0 V c 4 t) (accQ c n (Nat.lt_of_succ_lt h)))

/-- The proof data's entries are these, at every point. -/
theorem outs_eq (c : Dev nD) : ∀ (n : ℕ) (h : n < cfg0.N),
    (outsAt0 V c n h).1 = k0_pay2 (hTile V c ⟨n, h⟩) ∧ (outsAt0 V c n h).2.2.2.1 = accS V c n h ∧ (outsAt0 V c n h).2.2.2.2 = accQ V c n h
      ∧ (n = 24 → (outsAt0 V c n h).2.1 = accS V c n h ∧ (outsAt0 V c n h).2.2.1 = accQ V c n h)
  | 0, h => by
    rw [step_A V c ⟨0, h⟩ rfl]
    exact ⟨rfl, rfl, rfl, fun h24 => absurd h24 (by decide)⟩
  | n + 1, h => by
    obtain ⟨-, ih9, ih10, -⟩ := outs_eq c n (Nat.lt_of_succ_lt h)
    have e9 : (prevAt0 V c ⟨n + 1, h⟩).2.2.2.1 = accS V c n (Nat.lt_of_succ_lt h) := ih9
    have e10 : (prevAt0 V c ⟨n + 1, h⟩).2.2.2.2 = accQ V c n (Nat.lt_of_succ_lt h) := ih10
    by_cases h1 : n + 1 = 24
    · rw [step_C V c ⟨n + 1, h⟩ (Nat.succ_ne_zero n) h1, e9, e10]
      exact ⟨rfl, rfl, rfl, fun _ => ⟨rfl, rfl⟩⟩
    · rw [step_B V c ⟨n + 1, h⟩ (Nat.succ_ne_zero n) h1, e9, e10]
      exact ⟨rfl, rfl, rfl, fun h24 => absurd h24 h1⟩

end Region0

end Cert.KernelIdeal.Hand

end
-- ==== Proof.KiReg1.lean ====
/-
  The second kernel: at each of its 25 grid points it reads a tile of `h` and six whole operands (mean, variance, scale,
  shift, the second weight matrix, the second bias) and stores one tile of the result. Nothing is carried between points.
  This module runs its body once, states its proof data and discharges its body obligation.
-/
import proofs.«135623_j83167746719884_2_alg».proof.Proof.Gen.KernelIdeal.Launch
import proofs.«135623_j83167746719884_2_alg».proof.Proof.Gen.KernelIdeal.Skeleton
import proofs.«135623_j83167746719884_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

end Region1

/-- No window of the second kernel is ever idle. -/
theorem liveAt1 : ∀ (w : Fin 8) (t : Fin cfg1.N), cfg1.idle w (grid1.coords t) = false := by decide +kernel

/-- Each window's current staging memref at a point, spelt as the pipeline passes it to the body. -/
abbrev ms1_0 (t : Fin cfg1.N) : Memref sig .tc .vmem S4000x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x128 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S128x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x128 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S4000x128 .f32 := win1_7.stage (cfg1.slots t 7)
abbrev hs1_7 (t : Fin cfg1.N) : (ms1_7 t).IsWhole := hstage1_7 ((cfg1.slots t 7).cast nbuf1_7)

/-- One buffer of the output window as a view, through which its contents are stated. -/
abbrev VO1 : View sig .tc .vmem S4000x128 .f32 := (Memref.whole cc1_stg7_0 : Memref sig .tc .vmem S4000x128 .f32).view

set_option maxHeartbeats 4000000 in
/-- The body of the second kernel on whole memrefs: the seven input blocks at their contents, the output block at anything.
    It runs to the continuation holding the inputs as they were and the output buffer with its pieces written; the pieces
    are what the run finds. -/
noncomputable def kernelRun1 (c : Dev nD) (i : grid1.Coords) (arg1 : Memref sig .tc .vmem S4000x128 .bf16) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole)
    (x1 : Vec F S4000x128 .bf16) (x2 : Vec F S1x128 .f32) (x3 : Vec F S1x128 .f32) (x4 : Vec F S1x128 .f32) (x5 : Vec F S1x128 .f32) (x6 : Vec F S128x128 .f32) (x7 : Vec F S1x128 .f32) :
    { L8 : List (View.Piece (Elt F) S4000x128 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
            ∗ (∃ d, owns (c : Thread nD τ) arg8 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7
                ∗ (∃ f, arg8.view.loc (c : Thread nD τ) ↦[arg8.view.set]{fullShare} arg8.view.writes (Elt F) f L8)) -∗ K ⟨⟩))
          ⊢ wp frame (wpE (defs₀ (F := F)) Variants.none c none) E (cc1__kernel_b i arg1 harg1 arg2 harg2 arg3 harg3 arg4 harg4 arg5 harg5 arg6 harg6 arg7 harg7 arg8 harg8) K } := by
  refine ⟨?_, fun E K => ?run⟩
  case run =>
    simp only [cc1__kernel_b_eq_skeleton]; unfold cc1__kernel_b_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, Hk⟩
    obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
    sl_exec
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    iexists _; iexact H8

/-- The body's one store tiles the output block, so it covers it. -/
theorem cover1_7 (c : Dev nD) (i : grid1.Coords) (arg1 : Memref sig .tc .vmem S4000x128 .bf16) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole)
    (x1 : Vec F S4000x128 .bf16) (x2 : Vec F S1x128 .f32) (x3 : Vec F S1x128 .f32) (x4 : Vec F S1x128 .f32) (x5 : Vec F S1x128 .f32) (x6 : Vec F S128x128 .f32) (x7 : Vec F S1x128 .f32) (y : S4000x128.Idx) :
    ∃ pc ∈ (kernelRun1 c i arg1 harg1 arg2 harg2 arg3 harg3 arg4 harg4 arg5 harg5 arg6 harg6 arg7 harg7 arg8 harg8 x1 x2 x3 x4 x5 x6 x7).1, y ∈ pc.1.set :=
  View.cover_of_tiledL (kernelRun1 c i arg1 harg1 arg2 harg2 arg3 harg3 arg4 harg4 arg5 harg5 arg6 harg6 arg7 harg7 arg8 harg8 x1 x2 x3 x4 x5 x6 x7).1 S4000x128.size (by sl_kernel_rfl) y

/-- What the body leaves in the output window's buffer: its store read back. -/
def out1_7 (c : Dev nD) (i : grid1.Coords) (arg1 : Memref sig .tc .vmem S4000x128 .bf16) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole)
    (x1 : Vec F S4000x128 .bf16) (x2 : Vec F S1x128 .f32) (x3 : Vec F S1x128 .f32) (x4 : Vec F S1x128 .f32) (x5 : Vec F S1x128 .f32) (x6 : Vec F S128x128 .f32) (x7 : Vec F S1x128 .f32) : Vec F S4000x128 .f32 :=
  VO1.read (Elt F) (VO1.writes (Elt F) VO1.junk (kernelRun1 c i arg1 harg1 arg2 harg2 arg3 harg3 arg4 harg4 arg5 harg5 arg6 harg6 arg7 harg7 arg8 harg8 x1 x2 x3 x4 x5 x6 x7).1)

section Region1

variable (V : (c : Dev nD) → (b : Ref sig .tc) → Buf (Elt F) ((c : Thread nD τ).loc b))

/-- The second kernel's proof data on core `c`: the arrays as the region finds them; after the body at point `t` each
    input's buffer at its block and the output's at what the body's store leaves; the class invariant; nothing owed; full
    shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => out1_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t) (iblk1 V c 6 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = out1_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t) (iblk1 V c 6 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t)

theorem leaves1_0 (c : Dev nD) (t : Fin cfg1.N) : (dat1 V c).leavesExact 0 t = owns (c : Thread nD τ) (ms1_0 t) fullShare (iblk1 V c 0 t) := by
  unfold Dat.leavesExact; rw [liveAt1 0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1 1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1 2 t, after1_2]
theorem leaves1_3 (c : Dev nD) (t : Fin cfg1.N) : (dat1 V c).leavesExact 3 t = owns (c : Thread nD τ) (ms1_3 t) fullShare (iblk1 V c 3 t) := by
  unfold Dat.leavesExact; rw [liveAt1 3 t, after1_3]
theorem leaves1_4 (c : Dev nD) (t : Fin cfg1.N) : (dat1 V c).leavesExact 4 t = owns (c : Thread nD τ) (ms1_4 t) fullShare (iblk1 V c 4 t) := by
  unfold Dat.leavesExact; rw [liveAt1 4 t, after1_4]
theorem leaves1_5 (c : Dev nD) (t : Fin cfg1.N) : (dat1 V c).leavesExact 5 t = owns (c : Thread nD τ) (ms1_5 t) fullShare (iblk1 V c 5 t) := by
  unfold Dat.leavesExact; rw [liveAt1 5 t, after1_5]
theorem leaves1_6 (c : Dev nD) (t : Fin cfg1.N) : (dat1 V c).leavesExact 6 t = owns (c : Thread nD τ) (ms1_6 t) fullShare (iblk1 V c 6 t) := by
  unfold Dat.leavesExact; rw [liveAt1 6 t, after1_6]
theorem leaves1_7 (c : Dev nD) (t : Fin cfg1.N) : (dat1 V c).leavesExact 7 t = owns (c : Thread nD τ) (ms1_7 t) fullShare (out1_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t) (iblk1 V c 6 t)) := by
  unfold Dat.leavesExact; rw [liveAt1 7 t, after1_7]

set_option maxHeartbeats 4000000 in
/-- The body at any point: the inputs' buffers hold their blocks, so the run applies; the invariant and the core's dues pass
    through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6]
  rw [show (dat1 V c).Φ t.succ = (dat1 V c).Φ t.castSucc from rfl,
    show (dat1 V c).owesAt () t.succ = (dat1 V c).owesAt () t.castSucc from rfl]
  rw [leaves1_0, leaves1_1, leaves1_2, leaves1_3, leaves1_4, leaves1_5, leaves1_6, leaves1_7]
  unfold out1_7
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun1 c (grid1.coords t) _ _ _ _ _ _ _ _ _ _ _ _ _ _ _ _ (iblk1 V c 0 t) (iblk1 V c 1 t) (iblk1 V c 2 t) (iblk1 V c 3 t) (iblk1 V c 4 t) (iblk1 V c 5 t) (iblk1 V c 6 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, ⟨%e7, H7⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  unfold owns; iexists _; isplitr
  swap; · iexact H7
  ipureintro; exact View.read_writes_of_cover _ _ _ _ _ (cover1_7 c _ _ _ _ _ _ _ _ _ _ _ _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

end Region1

end Cert.KernelIdeal.Hand

end
-- ==== Proof.KiVal1.lean ====
/-
  What the second kernel's body leaves, read as a value: its one store covers the output block, so the block ends holding the
  store's payload of the seven loaded blocks.
-/
import proofs.«135623_j83167746719884_2_alg».proof.Proof.KiReg1
import proofs.«135623_j83167746719884_2_alg».proof.Proof.KiVal0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem val1_7 (c : Dev nD) (i : grid1.Coords) (arg1 : Memref sig .tc .vmem S4000x128 .bf16) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S128x128 .f32) (harg6 : arg6.IsWhole) (arg7 : Memref sig .tc .vmem S1x128 .f32) (harg7 : arg7.IsWhole) (arg8 : Memref sig .tc .vmem S4000x128 .f32) (harg8 : arg8.IsWhole)
    (x1 : Vec F S4000x128 .bf16) (x2 : Vec F S1x128 .f32) (x3 : Vec F S1x128 .f32) (x4 : Vec F S1x128 .f32) (x5 : Vec F S1x128 .f32) (x6 : Vec F S128x128 .f32) (x7 : Vec F S1x128 .f32) :
    out1_7 c i arg1 harg1 arg2 harg2 arg3 harg3 arg4 harg4 arg5 harg5 arg6 harg6 arg7 harg7 arg8 harg8 x1 x2 x3 x4 x5 x6 x7 = k1_pay1 x1 x3 x2 x4 x5 x6 x7 := by
  unfold out1_7
  rw [View.read_writes_eq_canon _ _ _ (cover1_7 c i arg1 harg1 arg2 harg2 arg3 harg3 arg4 harg4 arg5 harg5 arg6 harg6 arg7 harg7 arg8 harg8 x1 x2 x3 x4 x5 x6 x7)]
  unfold kernelRun1
  dsimp only
  sl_unfold_words
  rw [View.canon_unit_zero (S := S4000x128) hz]
  simp only [View.readAt_eq_ld, harg1.read_unread, harg2.read_unread, harg3.read_unread, harg4.read_unread, harg5.read_unread, harg6.read_unread, harg7.read_unread, View.ld_unit_zero (S := S4000x128) hz, View.ld_unit_zero (S := S128x128) hz, View.ld_unit_zero (S := S1x128) hz]

end Cert.KernelIdeal.Hand

end
-- ==== Proof.KiBlk.lean ====
/-
  Where a window's block sits in its array. A window whose block index follows the grid point reads, at point `t`, rows
  `4000·t` to `4000·t + 3999` of its array; a window whose block index is constant reads its whole (one-block) array at
  every point. Stated once per window, as one entry of the block against one entry of the array.
-/
import proofs.«135623_j83167746719884_2_alg».proof.Proof.KiRuns
import proofs.«135623_j83167746719884_2_alg».proof.Proof.KiReg1
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The printed index maps, decided over the grid. -/
theorem idx0_0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx0_1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx0_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx0_5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx0_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem idx0_7 : ∀ t : Fin cfg0.N, win0_7.index t (0 : Fin 2) = 0 ∧ win0_7.index t (1 : Fin 2) = 0 :=
  (by decide +kernel : ∀ t : Fin grid0.N, win0_7.index t (0 : Fin 2) = 0 ∧ win0_7.index t (1 : Fin 2) = 0)
theorem idx1_0 : ∀ t : Fin cfg1.N, win1_0.index t (0 : Fin 2) = t.val ∧ win1_0.index t (1 : Fin 2) = 0 :=
  (by decide +kernel : ∀ t : Fin grid1.N, win1_0.index t (0 : Fin 2) = t.val ∧ win1_0.index t (1 : Fin 2) = 0)
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
theorem idx1_3 : ∀ t : Fin cfg1.N, win1_3.index t (0 : Fin 2) = 0 ∧ win1_3.index t (1 : Fin 2) = 0 :=
  (by decide +kernel : ∀ t : Fin grid1.N, win1_3.index t (0 : Fin 2) = 0 ∧ win1_3.index t (1 : Fin 2) = 0)
theorem idx1_4 : ∀ t : Fin cfg1.N, win1_4.index t (0 : Fin 2) = 0 ∧ win1_4.index t (1 : Fin 2) = 0 :=
  (by decide +kernel : ∀ t : Fin grid1.N, win1_4.index t (0 : Fin 2) = 0 ∧ win1_4.index t (1 : Fin 2) = 0)
theorem idx1_5 : ∀ t : Fin cfg1.N, win1_5.index t (0 : Fin 2) = 0 ∧ win1_5.index t (1 : Fin 2) = 0 :=
  (by decide +kernel : ∀ t : Fin grid1.N, win1_5.index t (0 : Fin 2) = 0 ∧ win1_5.index t (1 : Fin 2) = 0)
theorem idx1_6 : ∀ t : Fin cfg1.N, win1_6.index t (0 : Fin 2) = 0 ∧ win1_6.index t (1 : Fin 2) = 0 :=
  (by decide +kernel : ∀ t : Fin grid1.N, win1_6.index t (0 : Fin 2) = 0 ∧ win1_6.index t (1 : Fin 2) = 0)
theorem idx1_7 : ∀ t : Fin cfg1.N, win1_7.index t (0 : Fin 2) = t.val ∧ win1_7.index t (1 : Fin 2) = 0 :=
  (by decide +kernel : ∀ t : Fin grid1.N, win1_7.index t (0 : Fin 2) = t.val ∧ win1_7.index t (1 : Fin 2) = 0)

section Blocks

variable (V : (c : Dev nD) → (b : Ref sig .tc) → Buf (Elt F) ((c : Thread nD τ).loc b))

/-! ## The first kernel's input windows -/

theorem iblk0_0_apply (c : Dev nD) (t : Fin cfg0.N) (p : Fin 4000) (k : Fin 128) (r : Fin 100000) (hr : r.val = 4000 * t.val + p.val) :
    (iblk0 V c 0 t : Vec F S4000x128 .f32) (ix2 p k) = V c main_arg0 (ix2 r k) := by
  have hi := idx0_0 t
  unfold iblk0
  rw [View.read_apply]
  show V c main_arg0 (((cfg0.win 0).blk t).view.emb (ix2 p k)) = _
  refine congrArg (V c main_arg0) ?_
  funext a; apply Fin.ext
  match a with
  | ⟨0, _⟩ => show win0_0.index t 0 * 4000 + 1 * p.val = r.val; rw [hi.1, hr]; omega
  | ⟨1, _⟩ => show win0_0.index t 1 * 128 + 1 * k.val = k.val; rw [hi.2]; omega
theorem iblk0_1_apply (c : Dev nD) (t : Fin cfg0.N) (p : Fin 4000) (k : Fin 128) (r : Fin 100000) (hr : r.val = 4000 * t.val + p.val) :
    (iblk0 V c 1 t : Vec F S4000x128 .f32) (ix2 p k) = V c main_v13 (ix2 r k) := by
  have hi := idx0_1 t
  unfold iblk0
  rw [View.read_apply]
  show V c main_v13 (((cfg0.win 1).blk t).view.emb (ix2 p k)) = _
  refine congrArg (V c main_v13) ?_
  funext a; apply Fin.ext
  match a with
  | ⟨0, _⟩ => show win0_1.index t 0 * 4000 + 1 * p.val = r.val; rw [hi.1, hr]; omega
  | ⟨1, _⟩ => show win0_1.index t 1 * 128 + 1 * k.val = k.val; rw [hi.2]; omega
theorem iblk0_2_apply (c : Dev nD) (t : Fin cfg0.N) (p : Fin 1) (k : Fin 1) :
    (iblk0 V c 2 t : Vec F S1x1 .f32) (ix2 p k) = V c main_v20 (ix2 p k) := by
  have hi := idx0_2 t
  unfold iblk0
  rw [View.read_apply]
  show V c main_v20 (((cfg0.win 2).blk t).view.emb (ix2 p k)) = _
  refine congrArg (V c main_v20) ?_
  funext a; apply Fin.ext
  match a with
  | ⟨0, _⟩ => show win0_2.index t 0 * 1 + 1 * p.val = p.val; rw [hi.1]; omega
  | ⟨1, _⟩ => show win0_2.index t 1 * 1 + 1 * k.val = k.val; rw [hi.2]; omega
theorem iblk0_3_apply (c : Dev nD) (t : Fin cfg0.N) (p : Fin 128) (k : Fin 128) :
    (iblk0 V c 3 t : Vec F S128x128 .f32) (ix2 p k) = V c main_v14 (ix2 p k) := by
  have hi := idx0_3 t
  unfold iblk0
  rw [View.read_apply]
  show V c main_v14 (((cfg0.win 3).blk t).view.emb (ix2 p k)) = _
  refine congrArg (V c main_v14) ?_
  funext a; apply Fin.ext
  match a with
  | ⟨0, _⟩ => show win0_3.index t 0 * 128 + 1 * p.val = p.val; rw [hi.1]; omega
  | ⟨1, _⟩ => show win0_3.index t 1 * 128 + 1 * k.val = k.val; rw [hi.2]; omega
theorem iblk0_4_apply (c : Dev nD) (t : Fin cfg0.N) (p : Fin 1) (k : Fin 128) :
    (iblk0 V c 4 t : Vec F S1x128 .f32) (ix2 p k) = V c main_v16 (ix2 p k) := by
  have hi := idx0_4 t
  unfold iblk0
  rw [View.read_apply]
  show V c main_v16 (((cfg0.win 4).blk t).view.emb (ix2 p k)) = _
  refine congrArg (V c main_v16) ?_
  funext a; apply Fin.ext
  match a with
  | ⟨0, _⟩ => show win0_4.index t 0 * 1 + 1 * p.val = p.val; rw [hi.1]; omega
  | ⟨1, _⟩ => show win0_4.index t 1 * 128 + 1 * k.val = k.val; rw [hi.2]; omega

/-! ## The second kernel's input windows -/

theorem iblk1_0_apply (c : Dev nD) (t : Fin cfg1.N) (p : Fin 4000) (k : Fin 128) (r : Fin 100000) (hr : r.val = 4000 * t.val + p.val) :
    (iblk1 V c 0 t : Vec F S4000x128 .bf16) (ix2 p k) = V c main_v21_0 (ix2 r k) := by
  have hi := idx1_0 t
  unfold iblk1
  rw [View.read_apply]
  show V c main_v21_0 (((cfg1.win 0).blk t).view.emb (ix2 p k)) = _
  refine congrArg (V c main_v21_0) ?_
  funext a; apply Fin.ext
  match a with
  | ⟨0, _⟩ => show win1_0.index t 0 * 4000 + 1 * p.val = r.val; rw [hi.1, hr]; omega
  | ⟨1, _⟩ => show win1_0.index t 1 * 128 + 1 * k.val = k.val; rw [hi.2]; omega
theorem iblk1_1_apply (c : Dev nD) (t : Fin cfg1.N) (p : Fin 1) (k : Fin 128) :
    (iblk1 V c 1 t : Vec F S1x128 .f32) (ix2 p k) = V c main_v23 (ix2 p k) := by
  have hi := idx1_1 t
  unfold iblk1
  rw [View.read_apply]
  show V c main_v23 (((cfg1.win 1).blk t).view.emb (ix2 p k)) = _
  refine congrArg (V c main_v23) ?_
  funext a; apply Fin.ext
  match a with
  | ⟨0, _⟩ => show win1_1.index t 0 * 1 + 1 * p.val = p.val; rw [hi.1]; omega
  | ⟨1, _⟩ => show win1_1.index t 1 * 128 + 1 * k.val = k.val; rw [hi.2]; omega
theorem iblk1_2_apply (c : Dev nD) (t : Fin cfg1.N) (p : Fin 1) (k : Fin 128) :
    (iblk1 V c 2 t : Vec F S1x128 .f32) (ix2 p k) = V c main_v27 (ix2 p k) := by
  have hi := idx1_2 t
  unfold iblk1
  rw [View.read_apply]
  show V c main_v27 (((cfg1.win 2).blk t).view.emb (ix2 p k)) = _
  refine congrArg (V c main_v27) ?_
  funext a; apply Fin.ext
  match a with
  | ⟨0, _⟩ => show win1_2.index t 0 * 1 + 1 * p.val = p.val; rw [hi.1]; omega
  | ⟨1, _⟩ => show win1_2.index t 1 * 128 + 1 * k.val = k.val; rw [hi.2]; omega
theorem iblk1_3_apply (c : Dev nD) (t : Fin cfg1.N) (p : Fin 1) (k : Fin 128) :
    (iblk1 V c 3 t : Vec F S1x128 .f32) (ix2 p k) = V c main_v18 (ix2 p k) := by
  have hi := idx1_3 t
  unfold iblk1
  rw [View.read_apply]
  show V c main_v18 (((cfg1.win 3).blk t).view.emb (ix2 p k)) = _
  refine congrArg (V c main_v18) ?_
  funext a; apply Fin.ext
  match a with
  | ⟨0, _⟩ => show win1_3.index t 0 * 1 + 1 * p.val = p.val; rw [hi.1]; omega
  | ⟨1, _⟩ => show win1_3.index t 1 * 128 + 1 * k.val = k.val; rw [hi.2]; omega
theorem iblk1_4_apply (c : Dev nD) (t : Fin cfg1.N) (p : Fin 1) (k : Fin 128) :
    (iblk1 V c 4 t : Vec F S1x128 .f32) (ix2 p k) = V c main_v19 (ix2 p k) := by
  have hi := idx1_4 t
  unfold iblk1
  rw [View.read_apply]
  show V c main_v19 (((cfg1.win 4).blk t).view.emb (ix2 p k)) = _
  refine congrArg (V c main_v19) ?_
  funext a; apply Fin.ext
  match a with
  | ⟨0, _⟩ => show win1_4.index t 0 * 1 + 1 * p.val = p.val; rw [hi.1]; omega
  | ⟨1, _⟩ => show win1_4.index t 1 * 128 + 1 * k.val = k.val; rw [hi.2]; omega
theorem iblk1_5_apply (c : Dev nD) (t : Fin cfg1.N) (p : Fin 128) (k : Fin 128) :
    (iblk1 V c 5 t : Vec F S128x128 .f32) (ix2 p k) = V c main_v15 (ix2 p k) := by
  have hi := idx1_5 t
  unfold iblk1
  rw [View.read_apply]
  show V c main_v15 (((cfg1.win 5).blk t).view.emb (ix2 p k)) = _
  refine congrArg (V c main_v15) ?_
  funext a; apply Fin.ext
  match a with
  | ⟨0, _⟩ => show win1_5.index t 0 * 128 + 1 * p.val = p.val; rw [hi.1]; omega
  | ⟨1, _⟩ => show win1_5.index t 1 * 128 + 1 * k.val = k.val; rw [hi.2]; omega
theorem iblk1_6_apply (c : Dev nD) (t : Fin cfg1.N) (p : Fin 1) (k : Fin 128) :
    (iblk1 V c 6 t : Vec F S1x128 .f32) (ix2 p k) = V c main_v17 (ix2 p k) := by
  have hi := idx1_6 t
  unfold iblk1
  rw [View.read_apply]
  show V c main_v17 (((cfg1.win 6).blk t).view.emb (ix2 p k)) = _
  refine congrArg (V c main_v17) ?_
  funext a; apply Fin.ext
  match a with
  | ⟨0, _⟩ => show win1_6.index t 0 * 1 + 1 * p.val = p.val; rw [hi.1]; omega
  | ⟨1, _⟩ => show win1_6.index t 1 * 128 + 1 * k.val = k.val; rw [hi.2]; omega

end Blocks

end Cert.KernelIdeal.Hand

end
-- ==== Proof.KiBody0.lean ====
/-
  The first kernel's body obligation: at each of its 25 grid points, from the invariant and the windows' current buffers the
  body runs to the invariant one point on and the buffers at what the proof data say it leaves. One lemma per case of the
  body's two conditionals (first point, last point, the points between), then the three together.
-/
import proofs.«135623_j83167746719884_2_alg».proof.Proof.KiDat0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

/-- A window that is never idle is left at what the proof data name. -/
theorem leaves0_0 (c : Dev nD) (t : Fin cfg0.N) : (dat0 V c).leavesExact 0 t = owns (c : Thread nD τ) (ms0_0 t) fullShare (iblk0 V c 0 t) := by
  unfold Dat.leavesExact; rw [liveAt0_in 0 (by decide) t, after0_0]
theorem leaves0_1 (c : Dev nD) (t : Fin cfg0.N) : (dat0 V c).leavesExact 1 t = owns (c : Thread nD τ) (ms0_1 t) fullShare (iblk0 V c 1 t) := by
  unfold Dat.leavesExact; rw [liveAt0_in 1 (by decide) t, after0_1]
theorem leaves0_2 (c : Dev nD) (t : Fin cfg0.N) : (dat0 V c).leavesExact 2 t = owns (c : Thread nD τ) (ms0_2 t) fullShare (iblk0 V c 2 t) := by
  unfold Dat.leavesExact; rw [liveAt0_in 2 (by decide) t, after0_2]
theorem leaves0_3 (c : Dev nD) (t : Fin cfg0.N) : (dat0 V c).leavesExact 3 t = owns (c : Thread nD τ) (ms0_3 t) fullShare (iblk0 V c 3 t) := by
  unfold Dat.leavesExact; rw [liveAt0_in 3 (by decide) t, after0_3]
theorem leaves0_4 (c : Dev nD) (t : Fin cfg0.N) : (dat0 V c).leavesExact 4 t = owns (c : Thread nD τ) (ms0_4 t) fullShare (iblk0 V c 4 t) := by
  unfold Dat.leavesExact; rw [liveAt0_in 4 (by decide) t, after0_4]
theorem leaves0_5 (c : Dev nD) (t : Fin cfg0.N) : (dat0 V c).leavesExact 5 t = owns (c : Thread nD τ) (ms0_5 t) fullShare (outsAt0 V c t.val t.isLt).1 := by
  unfold Dat.leavesExact; rw [liveAt0_in 5 (by decide) t, after0_5]

set_option maxHeartbeats 4000000 in
/-- The body at the first point: the inputs' buffers hold their blocks, the invariant hands over the accumulator rows
    (at anything: the body resets them), the case's run applies, and the invariant takes the rows back at this point's contents. -/
theorem sound_body0_A (c : Dev nD) (t : Fin cfg0.N) (h0 : t.val = 0) :
    bodyPre0 V c t ⊢ wp frame (wpE (defs₀ (F := F)) Variants.none c none) Set.univ (bodyAt0 t) (fun _ => bodyPost0 V c t) := by
  have hc0 : cond0_0 (grid0.coords t) := (hcond0_0 t).mpr h0
  have hc1 : ¬cond0_1 (grid0.coords t) := fun h => by have h' := (hcond0_1 t).mp h; omega
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4, leaves0_5]
  rw [Dat.leavesExact_idle (dat0 V c) 6 t (idleAt0_6 t hc1) (noFlush0_6 t hc1), Dat.leavesExact_idle (dat0 V c) 7 t (idleAt0_7 t hc1) (noFlush0_7 t hc1)]
  rw [outsAt0_A V c t h0 hc0 hc1]
  unfold out0_A_5 out0_A_9 out0_A_10; (try dsimp only)
  rw [PhiS_castSucc V c t, PhiS_zero V c _ _ h0, PhiA0_eq]
  iintro ⟨⟨⟨HS9, HS10, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (grid0.coords t) _ _ _ _ _ _ _ _ _ _ _ _ _ _ _ _ _ _ _ _ hc0 hc1 (iblk0 V c 0 t) (iblk0 V c 1 t) (iblk0 V c 2 t) (iblk0 V c 3 t) (iblk0 V c 4 t)).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS9]; · iexact HS9
  isplitl [HS10]; · iexact HS10
  iintro ⟨H0, H1, H2, H3, H4, ⟨%e5, H5⟩, ⟨%es9, HS9⟩, ⟨%es10, HS10⟩⟩
  isplitl [HS9 HS10 HR Hg]
  · isplitl [HS9 HS10 HR]
    · isplitl [HS9]
      · unfold owns; iexists _; isplitr
        swap; · iexact HS9
        ipureintro; exact View.read_writes_of_cover _ _ _ _ _ (cover0_A_9 c _ _ _ _ _ _ _ _ _ _ _ _ _ _ _ _ _ _ _ _ _ _ _ _ _ _ _ _)
      isplitl [HS10]
      · unfold owns; iexists _; isplitr
        swap; · iexact HS10
        ipureintro; exact View.read_writes_of_cover _ _ _ _ _ (cover0_A_10 c _ _ _ _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_A_5 c _ _ _ _ _ _ _ _ _ _ _ _ _ _ _ _ _ _ _ _ _ _ _ _ _ _ _ _)
  isplitl [H6]; · iexists _; iexact H6
  iexists _; iexact H7

set_option maxHeartbeats 4000000 in
/-- The body at a point that is neither first nor last: the inputs' buffers hold their blocks, the invariant hands over the accumulator rows
    (at what the point before left), the case's run applies, and the invariant takes the rows back at this point's contents. -/
theorem sound_body0_B (c : Dev nD) (t : Fin cfg0.N) (h0 : t.val ≠ 0) (h1 : t.val ≠ 24) :
    bodyPre0 V c t ⊢ wp frame (wpE (defs₀ (F := F)) Variants.none c none) Set.univ (bodyAt0 t) (fun _ => bodyPost0 V c t) := by
  have hc0 : ¬cond0_0 (grid0.coords t) := fun h => h0 ((hcond0_0 t).mp h)
  have hc1 : ¬cond0_1 (grid0.coords t) := fun h => h1 ((hcond0_1 t).mp h)
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4, leaves0_5]
  rw [Dat.leavesExact_idle (dat0 V c) 6 t (idleAt0_6 t hc1) (noFlush0_6 t hc1), Dat.leavesExact_idle (dat0 V c) 7 t (idleAt0_7 t hc1) (noFlush0_7 t hc1)]
  rw [outsAt0_B V c t h0 h1 hc0 hc1]
  unfold out0_B_5 out0_B_9 out0_B_10; (try dsimp only)
  rw [PhiS_castSucc V c t, PhiS_pos V c _ _ h0]
  iintro ⟨⟨⟨HS9, HS10, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_B c (grid0.coords t) _ _ _ _ _ _ _ _ _ _ _ _ _ _ _ _ _ _ _ _ hc0 hc1 (iblk0 V c 0 t) (iblk0 V c 1 t) (iblk0 V c 2 t) (iblk0 V c 3 t) (iblk0 V c 4 t) (prevAt0 V c t).2.2.2.1 (prevAt0 V c t).2.2.2.2).2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [HS9]; · iexact HS9
  isplitl [HS10]; · iexact HS10
  iintro ⟨H0, H1, H2, H3, H4, ⟨%e5, H5⟩, ⟨%es9, HS9⟩, ⟨%es10, HS10⟩⟩
  isplitl [HS9 HS10 HR Hg]
  · isplitl [HS9 HS10 HR]
    · isplitl [HS9]
      · unfold owns; iexists _; isplitr
        swap; · iexact HS9
        ipureintro; exact View.read_writes_of_cover _ _ _ _ _ (cover0_B_9 c _ _ _ _ _ _ _ _ _ _ _ _ _ _ _ _ _ _ _ _ _ _ _ _ _ _ _ _ _ _)
      isplitl [HS10]
      · unfold owns; iexists _; isplitr
        swap; · iexact HS10
        ipureintro; exact View.read_writes_of_cover _ _ _ _ _ (cover0_B_10 c _ _ _ _ _ _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_B_5 c _ _ _ _ _ _ _ _ _ _ _ _ _ _ _ _ _ _ _ _ _ _ _ _ _ _ _ _ _ _)
  isplitl [H6]; · iexists _; iexact H6
  iexists _; iexact H7

set_option maxHeartbeats 4000000 in
/-- The body at the last point: the inputs' buffers hold their blocks, the invariant hands over the accumulator rows
    (at what the point before left), the case's run applies, and the invariant takes the rows back at this point's contents. -/
theorem sound_body0_C (c : Dev nD) (t : Fin cfg0.N) (h0 : t.val ≠ 0) (h1 : t.val = 24) :
    bodyPre0 V c t ⊢ wp frame (wpE (defs₀ (F := F)) Variants.none c none) Set.univ (bodyAt0 t) (fun _ => bodyPost0 V c t) := by
  have hc0 : ¬cond0_0 (grid0.coords t) := fun h => h0 ((hcond0_0 t).mp h)
  have hc1 : cond0_1 (grid0.coords t) := (hcond0_1 t).mpr h1
  unfold bodyPre0 bodyPost0 bodyAt0
  simp only [before0_0, before0_1, before0_2, before0_3, before0_4]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4, leaves0_5]
  rw [show (dat0 V c).leavesExact 6 t = owns (c : Thread nD τ) (ms0_6 t) fullShare (outsAt0 V c t.val t.isLt).2.1 from by
    unfold Dat.leavesExact; rw [liveAt0_6 t hc1, after0_6]]
  rw [show (dat0 V c).leavesExact 7 t = owns (c : Thread nD τ) (ms0_7 t) fullShare (outsAt0 V c t.val t.isLt).2.2.1 from by
    unfold Dat.leavesExact; rw [liveAt0_7 t hc1, after0_7]]
  rw [outsAt0_C V c t h0 h1 hc0 hc1]
  unfold out0_C_5 out0_C_6 out0_C_7 out0_C_9 out0_C_10; (try dsimp only)
  rw [PhiS_castSucc V c t, PhiS_pos V c _ _ h0]
  iintro ⟨⟨⟨HS9, HS10, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_C c (grid0.coords t) _ _ _ _ _ _ _ _ _ _ _ _ _ _ _ _ _ _ _ _ hc0 hc1 (iblk0 V c 0 t) (iblk0 V c 1 t) (iblk0 V c 2 t) (iblk0 V c 3 t) (iblk0 V c 4 t) (prevAt0 V c t).2.2.2.1 (prevAt0 V c t).2.2.2.2).2.2.2.2.2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS9]; · iexact HS9
  isplitl [HS10]; · iexact HS10
  iintro ⟨H0, H1, H2, H3, H4, ⟨%e5, H5⟩, ⟨%e6, H6⟩, ⟨%e7, H7⟩, ⟨%es9, HS9⟩, ⟨%es10, HS10⟩⟩
  isplitl [HS9 HS10 HR Hg]
  · isplitl [HS9 HS10 HR]
    · isplitl [HS9]
      · unfold owns; iexists _; isplitr
        swap; · iexact HS9
        ipureintro; exact View.read_writes_of_cover _ _ _ _ _ (cover0_C_9 c _ _ _ _ _ _ _ _ _ _ _ _ _ _ _ _ _ _ _ _ _ _ _ _ _ _ _ _ _ _)
      isplitl [HS10]
      · unfold owns; iexists _; isplitr
        swap; · iexact HS10
        ipureintro; exact View.read_writes_of_cover _ _ _ _ _ (cover0_C_10 c _ _ _ _ _ _ _ _ _ _ _ _ _ _ _ _ _ _ _ _ _ _ _ _ _ _ _ _ _ _)
      iexact HR
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover0_C_5 c _ _ _ _ _ _ _ _ _ _ _ _ _ _ _ _ _ _ _ _ _ _ _ _ _ _ _ _ _ _)
  isplitl [H6]
  · unfold owns; iexists _; isplitr
    swap; · iexact H6
    ipureintro; exact View.read_writes_of_cover _ _ _ _ _ (cover0_C_6 c _ _ _ _ _ _ _ _ _ _ _ _ _ _ _ _ _ _ _ _ _ _ _ _ _ _ _ _ _ _)
  unfold owns; iexists _; isplitr
  swap; · iexact H7
  ipureintro; exact View.read_writes_of_cover _ _ _ _ _ (cover0_C_7 c _ _ _ _ _ _ _ _ _ _ _ _ _ _ _ _ _ _ _ _ _ _ _ _ _ _ _ _ _ _)

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  by_cases h0 : t.val = 0
  · exact sound_body0_A V c t h0
  · by_cases h1 : t.val = 24
    · exact sound_body0_C V c t h0 h1
    · exact sound_body0_B V c t h0 h1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- Before the first point the invariant is the class's. -/
theorem Phi0_first (c : Dev nD) : (dat0 V c).Φ 0 = Pipeline.ΦA spec0 c := rfl

/-- After the last point the invariant gives the class's back: the accumulators' named contents are forgotten. -/
theorem Phi0_last (c : Dev nD) : (dat0 V c).Φ (Fin.last cfg0.N) ⊢ Pipeline.ΦA spec0 c := by
  rw [show (dat0 V c).Φ (Fin.last cfg0.N) = PhiS V c (Fin.last cfg0.N).val (Nat.le_of_lt_succ (Fin.last cfg0.N).isLt) from rfl,
    PhiS_pos V c _ _ (by rw [Fin.val_last]; have : cfg0.N = 25 := N_0; omega), PhiA0_eq]
  iintro ⟨⟨HS9, HS10, HR⟩, Hg⟩
  isplitl [HS9 HS10 HR]
  · isplitl [HS9]; · iexists _; iexact HS9
    isplitl [HS10]; · iexists _; iexact HS10
    iexact HR
  iexact Hg

end Region0

end Cert.KernelIdeal.Hand

end
-- ==== Proof.KiFinal.lean ====
/-
  From blocks to arrays. The `h` window's blocks tile its array, tile `t` covering rows `4000·t … 4000·t + 3999`, and every
  point writes its block back: the array ends holding, at row `r`, what point `r / 4000` computed at row `r % 4000` of its
  tile. The same holds of the second kernel's result window. Each statistics window is one block that only the last point
  writes back: its array ends holding the accumulator after the last point.
-/
import proofs.«135623_j83167746719884_2_alg».proof.Proof.KiSteps
import proofs.«135623_j83167746719884_2_alg».proof.Proof.KiVal1
import proofs.«135623_j83167746719884_2_alg».proof.Proof.KiBlk
import proofs.«135623_j83167746719884_2_alg».proof.Proof.KiBody0

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- The tile a row belongs to, and its place in the tile. -/
def tileOf0 (r : Fin 100000) : Fin cfg0.N := ⟨r.val / 4000, by have := N_0; have hr := r.isLt; show r.val / 4000 < grid0.N; omega⟩
def tileOf1 (r : Fin 100000) : Fin cfg1.N := ⟨r.val / 4000, by have := N_1; have hr := r.isLt; show r.val / 4000 < grid1.N; omega⟩
def rowIn (r : Fin 100000) : Fin 4000 := ⟨r.val % 4000, Nat.mod_lt _ (by decide)⟩

theorem tileOf0_eq (r : Fin 100000) (t : Fin cfg0.N) (p : Fin 4000) (h : r.val = 4000 * t.val + p.val) : tileOf0 r = t :=
  Fin.ext (by show r.val / 4000 = t.val; have := p.isLt; omega)
theorem tileOf1_eq (r : Fin 100000) (t : Fin cfg1.N) (p : Fin 4000) (h : r.val = 4000 * t.val + p.val) : tileOf1 r = t :=
  Fin.ext (by show r.val / 4000 = t.val; have := p.isLt; omega)
theorem rowIn_eq (r : Fin 100000) (t : ℕ) (p : Fin 4000) (h : r.val = 4000 * t + p.val) : rowIn r = p :=
  Fin.ext (by show r.val % 4000 = p.val; have := p.isLt; omega)

/-- The last point of the first kernel's grid. -/
def t24 : Fin cfg0.N := ⟨24, by have := N_0; show 24 < grid0.N; omega⟩

section Finals

variable (V : (c : Dev nD) → (b : Ref sig .tc) → Buf (Elt F) ((c : Thread nD τ).loc b))

/-! ## The `h` array -/

/-- What the `h` array ends holding: at each row, the tile's payload at the row's place in the tile. -/
def G5 (c : Dev nD) : Buf (Elt F) ((c : Thread nD τ).loc main_v21_0) :=
  fun i => k0_pay2 (hTile V c (tileOf0 (i 0))) (ix2 (rowIn (i 0)) (i 1))

theorem mem_blk0_5 (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v21_0).slice (win0_5.rect t)).set ↔ _
  rw [View.set_slice_whole, Rect.mem_set_unit]
  exact Iff.rfl

theorem flushed0_5 (c : Dev nD) (t : Fin cfg0.N) :
    (dat0 V c).flushed 5 t = ((cfg0.win 5).blk t).view.read (Elt F) (G5 V c) := by
  show (cfg0.win 5).cut (grid0.coords t) ((dat0 V c).after 5 t) = _
  rw [after0_5, (outs_eq V c t.val t.isLt).1]
  have hi := idx0_5 t
  funext y
  rw [View.read_apply]
  show k0_pay2 (hTile V c ⟨t.val, t.isLt⟩) y = G5 V c (((cfg0.win 5).blk t).view.emb y)
  have e0 : ((((cfg0.win 5).blk t).view.emb y) 0).val = 4000 * t.val + (y 0).val := by
    show win0_5.index t 0 * 4000 + 1 * (y 0).val = _; rw [hi.1]; omega
  have e1 : (((cfg0.win 5).blk t).view.emb y) 1 = y 1 := by
    apply Fin.ext; show win0_5.index t 1 * 128 + 1 * (y 1).val = _; rw [hi.2]; omega
  unfold G5
  rw [tileOf0_eq _ t (y 0) e0, rowIn_eq _ t.val (y 0) e0, e1]
  exact congrArg _ (eq_ix2 y)

theorem final0_5 (c : Dev nD) : (dat0 V c).arrAt 5 cfg0.N = G5 V c :=
  (dat0 V c).arrAt_eq_of_cover 5 (G5 V c) (fun t _ => flushed0_5 V c t) fun i =>
    ⟨tileOf0 (i 0), flush0_5 _, by
      rw [mem_blk0_5]
      have hi := idx0_5 (tileOf0 (i 0))
      have h0 : (i 0 : Nat) < 100000 := (i 0).isLt
      have h1 : (i 1 : Nat) < 128 := (i 1).isLt
      have ht : (tileOf0 (i 0)).val = (i 0 : Nat) / 4000 := rfl
      intro a
      match a with
      | ⟨0, _⟩ => show win0_5.index (tileOf0 (i 0)) 0 * 4000 ≤ (i 0 : Nat) ∧ (i 0 : Nat) < win0_5.index (tileOf0 (i 0)) 0 * 4000 + 4000
                  rw [hi.1, ht]; omega
      | ⟨1, _⟩ => show win0_5.index (tileOf0 (i 0)) 1 * 128 ≤ (i 1 : Nat) ∧ (i 1 : Nat) < win0_5.index (tileOf0 (i 0)) 1 * 128 + 128
                  rw [hi.2]; omega⟩

/-! ## The two statistics arrays -/

theorem flushed0_6 (c : Dev nD) (t : Fin cfg0.N) (hf : (cfg0.win 6).flush t = true) :
    (dat0 V c).flushed 6 t = ((cfg0.win 6).blk t).view.read (Elt F) (accS V c t24.val t24.isLt : Buf (Elt F) ((c : Thread nD τ).loc main_v21_1)) := by
  have hN : cfg0.N = 25 := N_0
  have h24 : t.val = 24 := by have := (flush0_6 t).mp hf; have := t.isLt; omega
  obtain rfl : t = t24 := Fin.ext h24
  show (cfg0.win 6).cut (grid0.coords t24) ((dat0 V c).after 6 t24) = _
  rw [after0_6, ((outs_eq V c t24.val t24.isLt).2.2.2 rfl).1]
  have hz' : (fun a => win0_6.index t24 a * main_v21_1.ty.shape.size a) = fun _ => 0 := funext fun a => by fin_cases a <;> decide +kernel
  exact (Memref.read_access_unit_zero (Elt F) main_v21_1 hz' (fun a => by rw [congrFun hz' a]; simp) (accS V c t24.val t24.isLt)).symm

theorem final0_6 (c : Dev nD) : (dat0 V c).arrAt 6 cfg0.N = (accS V c t24.val t24.isLt : Buf (Elt F) ((c : Thread nD τ).loc main_v21_1)) :=
  (dat0 V c).arrAt_eq_of_cover 6 _ (flushed0_6 V c) fun i =>
    ⟨t24, (flush0_6 t24).mpr rfl, by
      show i ∈ ((View.whole main_v21_1).slice (win0_6.rect t24)).set
      rw [View.set_slice_whole, Rect.mem_set_unit]
      intro a
      have h0 : (i 0 : Nat) < 1 := (i 0).isLt
      have h1 : (i 1 : Nat) < 128 := (i 1).isLt
      match a with
      | ⟨0, _⟩ => show win0_6.index t24 0 * win0_6.size 0 ≤ (i 0 : Nat) ∧ (i 0 : Nat) < win0_6.index t24 0 * win0_6.size 0 + win0_6.xsize (grid0.coords t24) 0
                  rw [show win0_6.index t24 0 * win0_6.size 0 = 0 from by decide +kernel, show win0_6.xsize (grid0.coords t24) 0 = 1 from by decide +kernel]; omega
      | ⟨1, _⟩ => show win0_6.index t24 1 * win0_6.size 1 ≤ (i 1 : Nat) ∧ (i 1 : Nat) < win0_6.index t24 1 * win0_6.size 1 + win0_6.xsize (grid0.coords t24) 1
                  rw [show win0_6.index t24 1 * win0_6.size 1 = 0 from by decide +kernel, show win0_6.xsize (grid0.coords t24) 1 = 128 from by decide +kernel]; omega⟩

theorem flushed0_7 (c : Dev nD) (t : Fin cfg0.N) (hf : (cfg0.win 7).flush t = true) :
    (dat0 V c).flushed 7 t = ((cfg0.win 7).blk t).view.read (Elt F) (accQ V c t24.val t24.isLt : Buf (Elt F) ((c : Thread nD τ).loc main_v21_2)) := by
  have hN : cfg0.N = 25 := N_0
  have h24 : t.val = 24 := by have := (flush0_7 t).mp hf; have := t.isLt; omega
  obtain rfl : t = t24 := Fin.ext h24
  show (cfg0.win 7).cut (grid0.coords t24) ((dat0 V c).after 7 t24) = _
  rw [after0_7, ((outs_eq V c t24.val t24.isLt).2.2.2 rfl).2]
  have hz' : (fun a => win0_7.index t24 a * main_v21_2.ty.shape.size a) = fun _ => 0 := funext fun a => by fin_cases a <;> decide +kernel
  exact (Memref.read_access_unit_zero (Elt F) main_v21_2 hz' (fun a => by rw [congrFun hz' a]; simp) (accQ V c t24.val t24.isLt)).symm

theorem final0_7 (c : Dev nD) : (dat0 V c).arrAt 7 cfg0.N = (accQ V c t24.val t24.isLt : Buf (Elt F) ((c : Thread nD τ).loc main_v21_2)) :=
  (dat0 V c).arrAt_eq_of_cover 7 _ (flushed0_7 V c) fun i =>
    ⟨t24, (flush0_7 t24).mpr rfl, by
      show i ∈ ((View.whole main_v21_2).slice (win0_7.rect t24)).set
      rw [View.set_slice_whole, Rect.mem_set_unit]
      intro a
      have h0 : (i 0 : Nat) < 1 := (i 0).isLt
      have h1 : (i 1 : Nat) < 128 := (i 1).isLt
      match a with
      | ⟨0, _⟩ => show win0_7.index t24 0 * win0_7.size 0 ≤ (i 0 : Nat) ∧ (i 0 : Nat) < win0_7.index t24 0 * win0_7.size 0 + win0_7.xsize (grid0.coords t24) 0
                  rw [show win0_7.index t24 0 * win0_7.size 0 = 0 from by decide +kernel, show win0_7.xsize (grid0.coords t24) 0 = 1 from by decide +kernel]; omega
      | ⟨1, _⟩ => show win0_7.index t24 1 * win0_7.size 1 ≤ (i 1 : Nat) ∧ (i 1 : Nat) < win0_7.index t24 1 * win0_7.size 1 + win0_7.xsize (grid0.coords t24) 1
                  rw [show win0_7.index t24 1 * win0_7.size 1 = 0 from by decide +kernel, show win0_7.xsize (grid0.coords t24) 1 = 128 from by decide +kernel]; omega⟩

/-! ## The result array -/

/-- The tile of the result the second kernel's body computes at point `t`. -/
def oTile (c : Dev nD) (t : Fin cfg1.N) : FVec F S4000x128 .f32 := k1_pay1 (iblk1 V c 0 t) (iblk1 V c 2 t) (iblk1 V c 1 t) (iblk1 V c 3 t) (iblk1 V c 4 t) (iblk1 V c 5 t) (iblk1 V c 6 t)

def G1 (c : Dev nD) : Buf (Elt F) ((c : Thread nD τ).loc main_v28) :=
  fun i => oTile V c (tileOf1 (i 0)) (ix2 (rowIn (i 0)) (i 1))

theorem mem_blk1_7 (t : Fin cfg1.N) (i : S100000x128.Idx) :
    i ∈ ((cfg1.win 7).blk t).view.set ↔ ∀ a : Fin 2, win1_7.index t a * S4000x128.size a ≤ (i a).val ∧ (i a).val < win1_7.index t a * S4000x128.size a + S4000x128.size a := by
  show i ∈ ((View.whole main_v28).slice (win1_7.rect t)).set ↔ _
  rw [View.set_slice_whole, Rect.mem_set_unit]
  exact Iff.rfl

theorem flushed1_7 (c : Dev nD) (t : Fin cfg1.N) :
    (dat1 V c).flushed 7 t = ((cfg1.win 7).blk t).view.read (Elt F) (G1 V c) := by
  show (cfg1.win 7).cut (grid1.coords t) ((dat1 V c).after 7 t) = _
  rw [after1_7, val1_7 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (iblk1 V c 0 t) (iblk1 V c 1 t) (iblk1 V c 2 t) (iblk1 V c 3 t) (iblk1 V c 4 t) (iblk1 V c 5 t) (iblk1 V c 6 t)]
  have hi := idx1_7 t
  funext y
  rw [View.read_apply]
  show oTile V c t y = G1 V c (((cfg1.win 7).blk t).view.emb y)
  have e0 : ((((cfg1.win 7).blk t).view.emb y) 0).val = 4000 * t.val + (y 0).val := by
    show win1_7.index t 0 * 4000 + 1 * (y 0).val = _; rw [hi.1]; omega
  have e1 : (((cfg1.win 7).blk t).view.emb y) 1 = y 1 := by
    apply Fin.ext; show win1_7.index t 1 * 128 + 1 * (y 1).val = _; rw [hi.2]; omega
  unfold G1
  rw [tileOf1_eq _ t (y 0) e0, rowIn_eq _ t.val (y 0) e0, e1]
  exact congrArg _ (eq_ix2 y)

theorem final1_7 (c : Dev nD) : (dat1 V c).arrAt 7 cfg1.N = G1 V c :=
  (dat1 V c).arrAt_eq_of_cover 7 (G1 V c) (fun t _ => flushed1_7 V c t) fun i =>
    ⟨tileOf1 (i 0), flush1_7 _, by
      rw [mem_blk1_7]
      have hi := idx1_7 (tileOf1 (i 0))
      have h0 : (i 0 : Nat) < 100000 := (i 0).isLt
      have h1 : (i 1 : Nat) < 128 := (i 1).isLt
      have ht : (tileOf1 (i 0)).val = (i 0 : Nat) / 4000 := rfl
      intro a
      match a with
      | ⟨0, _⟩ => show win1_7.index (tileOf1 (i 0)) 0 * 4000 ≤ (i 0 : Nat) ∧ (i 0 : Nat) < win1_7.index (tileOf1 (i 0)) 0 * 4000 + 4000
                  rw [hi.1, ht]; omega
      | ⟨1, _⟩ => show win1_7.index (tileOf1 (i 0)) 1 * 128 ≤ (i 1 : Nat) ∧ (i 1 : Nat) < win1_7.index (tileOf1 (i 0)) 1 * 128 + 128
                  rw [hi.2]; omega⟩

end Finals

end Cert.KernelIdeal.Hand

end
-- ==== Proof.KiRun.lean ====
/-
  The whole program as four segments — host operations, the first kernel's region, host operations, the second kernel's
  region — run from the launch to the return. The buffers' contents at each boundary are a fold from the launch memory:
  a host stretch applies its operations; a region leaves its arrays at what its write-backs make of them and every other
  buffer alone. The run ends with every unscoped buffer at the last boundary's contents; from that, the argument arrays
  end as launched, and the result array holds what the second region's write-backs leave.
-/
import proofs.«135623_j83167746719884_2_alg».proof.Proof.KiBody0
import proofs.«135623_j83167746719884_2_alg».proof.Proof.KiReg1
import proofs.«135623_j83167746719884_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffers' contents at each boundary -/

/-- Core `c`'s buffers at launch. -/
abbrev W0 : Dev nD → Valuation τ sig (Elt F) := fun c b => m (c, b)
/-- After the first host stretch (the first region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the first region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (the second region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the second region's exit. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- A buffer that no host operation writes and that is no array of either region ends as launched. -/
theorem W4_keep (c : Dev nD) (r : Ref sig .tc) (h0 : r ∉ (hostOps0_W : List (Ref sig .tc))) (h1 : r ∉ (hostOps1_W : List (Ref sig .tc)))
    (ha0 : ∀ w, Pipeline.arrRef spec0 w ≠ r) (ha1 : ∀ w, Pipeline.arrRef spec1 w ≠ r) :
    W4 m c (Proc.devRef .tc r) = m ((c : Thread nD τ).loc r) :=
  calc W4 m c (Proc.devRef .tc r)
    _ = W3 m c (Proc.devRef .tc r) := W4_of_ne m c r ha1
    _ = W2 m c (Proc.devRef .tc r) := StableHlo.after_of_writes_sub hostOps1 _ hostOps1_writes h1
    _ = W1 m c (Proc.devRef .tc r) := W2_of_ne m c r ha0
    _ = W0 m c (Proc.devRef .tc r) := StableHlo.after_of_writes_sub hostOps0 _ hostOps0_writes h0
    _ = m ((c : Thread nD τ).loc r) := rfl

/-- The node table is the first region's first input window: read and never written. -/
theorem W4_main_arg0 (c : Dev nD) : W4 m c (Proc.devRef .tc main_arg0) = m ((c : Thread nD τ).loc main_arg0) :=
  calc W4 m c (Proc.devRef .tc main_arg0)
    _ = W3 m c (Proc.devRef .tc main_arg0) := W4_of_ne m c main_arg0 (by decide)
    _ = W2 m c (Proc.devRef .tc main_arg0) := StableHlo.after_of_writes_sub hostOps1 _ hostOps1_writes (by decide)
    _ = W1 m c (Proc.devRef .tc main_arg0) := (W2_arr m c 0).trans (((dat0 (V1 m) c).arrAt_in 0 rfl _).trans (A_eq0 (V1 m) c 0))
    _ = W0 m c (Proc.devRef .tc main_arg0) := StableHlo.after_of_writes_sub hostOps0 _ hostOps0_writes (by decide)
    _ = m ((c : Thread nD τ).loc main_arg0) := rfl
theorem W4_main_arg1 (c : Dev nD) : W4 m c (Proc.devRef .tc main_arg1) = m ((c : Thread nD τ).loc main_arg1) :=
  W4_keep m c main_arg1 (by decide) (by decide) (by decide) (by decide)
theorem W4_main_arg2 (c : Dev nD) : W4 m c (Proc.devRef .tc main_arg2) = m ((c : Thread nD τ).loc main_arg2) :=
  W4_keep m c main_arg2 (by decide) (by decide) (by decide) (by decide)
theorem W4_main_arg3 (c : Dev nD) : W4 m c (Proc.devRef .tc main_arg3) = m ((c : Thread nD τ).loc main_arg3) :=
  W4_keep m c main_arg3 (by decide) (by decide) (by decide) (by decide)
theorem W4_main_arg4 (c : Dev nD) : W4 m c (Proc.devRef .tc main_arg4) = m ((c : Thread nD τ).loc main_arg4) :=
  W4_keep m c main_arg4 (by decide) (by decide) (by decide) (by decide)
theorem W4_main_arg5 (c : Dev nD) : W4 m c (Proc.devRef .tc main_arg5) = m ((c : Thread nD τ).loc main_arg5) :=
  W4_keep m c main_arg5 (by decide) (by decide) (by decide) (by decide)
theorem W4_main_arg6 (c : Dev nD) : W4 m c (Proc.devRef .tc main_arg6) = m ((c : Thread nD τ).loc main_arg6) :=
  W4_keep m c main_arg6 (by decide) (by decide) (by decide) (by decide)
theorem W4_main_arg7 (c : Dev nD) : W4 m c (Proc.devRef .tc main_arg7) = m ((c : Thread nD τ).loc main_arg7) :=
  W4_keep m c main_arg7 (by decide) (by decide) (by decide) (by decide)
theorem W4_main_arg8 (c : Dev nD) : W4 m c (Proc.devRef .tc main_arg8) = m ((c : Thread nD τ).loc main_arg8) :=
  W4_keep m c main_arg8 (by decide) (by decide) (by decide) (by decide)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m c) ∗ ∃ r, prngReg c r)

/-! ## The regions as segments -/

set_option backward.isDefEq.respectTransparency.types false in
/-- The first kernel's region: entered from every unscoped buffer at the first boundary's contents, left at the second's. Its
    arrays are split out of the unscoped buffers and put back at the exit contents; the generator register and the scoped
    buffers go into the invariant and come out of it; nothing is owed. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi0_last (V1 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second kernel's region: entered from every unscoped buffer at the third boundary's contents, left at the last. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m) ]
theorem main_run (c : Dev nD) : main (F := F) c = Pipeline.Seg.run (segs m) := (main_chain c).trans (by chain_rfl)

variable (ρ : Dev nD → PrngReg)

set_option backward.isDefEq.respectTransparency.types false in
/-- THE RUN. From any memory with zero counters every weakly fair execution of the program on the TensorCores terminates,
    nothing faulting, and every final memory holds every unscoped buffer at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m c b)
    (hfin := fun c s' => by
      iintro ⟨⟨Hh, -⟩, HSI⟩
      unfold StableHlo.held
      imodintro
      iapply (pointsTo_read_all (Pipeline.ucRefs τ sig) (fun b => (((c : Thread nD τ)).1, b)) (W4 m c) s')
      isplitl [Hh] <;> iassumption)
    (hQ := fun s h => h)

/-- The argument arrays end as launched, and the result array holds what the second region's write-backs leave. -/
theorem run_value : θ_run defs (onTc (τ := τ) (main (F := F))) ⟨m, fun _ => 0, ρ⟩ (fun r => ∀ c : Dev nD,
      r.2.mem ((c.tc : Thread nD τ).loc main_v28) = (dat1 (V3 m) c).arrAt 7 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v28 (by decide))).trans (W4_arr m c 7),
      (h c _ (mem_uc main_arg0 (by decide))).trans (W4_main_arg0 m c),
      (h c _ (mem_uc main_arg1 (by decide))).trans (W4_main_arg1 m c),
      (h c _ (mem_uc main_arg2 (by decide))).trans (W4_main_arg2 m c),
      (h c _ (mem_uc main_arg3 (by decide))).trans (W4_main_arg3 m c),
      (h c _ (mem_uc main_arg4 (by decide))).trans (W4_main_arg4 m c),
      (h c _ (mem_uc main_arg5 (by decide))).trans (W4_main_arg5 m c),
      (h c _ (mem_uc main_arg6 (by decide))).trans (W4_main_arg6 m c),
      (h c _ (mem_uc main_arg7 (by decide))).trans (W4_main_arg7 m c),
      (h c _ (mem_uc main_arg8 (by decide))).trans (W4_main_arg8 m c)⟩) (run_all m ρ)

/-- The frame: the program runs to the end, faults nowhere, and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_value m ρ)

end Cert.KernelIdeal.Hand

end
-- ==== Proof.Spec.lean ====
/-
  The mathematics of one graph-isomorphism layer over the extended reals, stated twice.

  A node table `x` (100000 rows of 128 features) and an aggregated neighbour table `nbr` of the same
  shape are combined row by row, `(1 + e) · x + nbr`, sent through a linear map (`W1`, `b1`), normalised
  column by column with the batch mean and the biased batch variance, scaled and shifted (`γ`, `β`), cut off
  below at zero, and sent through a second linear map (`W2`, `b2`).

  The two statements differ only in how the batch statistics are taken:
  * `outTiled`: the column sums of `h` and of `h²` are accumulated tile by tile (25 tiles of 4000 rows), and the
    variance is the mean of squares minus the square of the mean;
  * `outWhole`: the column sums run over all 100000 rows at once, and the variance is the mean of the squared
    deviations from the mean.
  Both divide by the same number (the float word of 100000) and add the same small number (the float word of
  1e-5) under the reciprocal square root. Float literals stay as their words: the same word on both sides is
  never evaluated.
-/
import Idealize.ShloMosaic.PureOps.Ideal

noncomputable section

namespace GinLayer

open Idealize.ShloMosaic

/-- A table of rows of 128 features. -/
abbrev Tab (n : ℕ) : Type := Fin n → Fin 128 → EReal

/-- The float words the two programs share. -/
abbrev cOne : EReal := Ideal.ofBits .f32 0x3F800000#32
abbrev cCount : EReal := Ideal.ofBits .f32 0x47C35000#32
abbrev cEps : EReal := Ideal.ofBits .f32 0x3727C5AC#32
abbrev cZero : EReal := Ideal.ofBits .f32 0x00000000#32

/-- Row `p` of tile `t`: row `4000 · t + p` of the table. -/
def tileRow (t : Fin 25) (p : Fin 4000) : Fin 100000 := ⟨4000 * t.val + p.val, by have := t.isLt; have := p.isLt; omega⟩

/-- The combined table: `(1 + e) · x + nbr`, entry by entry. -/
def combine (e : EReal) (x nbr : Tab 100000) : Tab 100000 := fun r k => (cOne + e) * x r k + nbr r k

/-- A linear map applied to every row: `(∑ k, a r k · W j k) + b j` (the weight matrix is indexed output first). -/
def linear {n : ℕ} (a : Tab n) (W : Fin 128 → Fin 128 → EReal) (b : Fin 128 → EReal) : Tab n :=
  fun r j => (∑ k : Fin 128, a r k * W j k) + b j

/-- Normalise, scale, shift and cut off below at zero, given the column statistics. -/
def normRelu {n : ℕ} (h : Tab n) (mean var γ β : Fin 128 → EReal) : Tab n :=
  fun r k => max (((h r k - mean k) * Ideal.rsqrt (var k + cEps)) * γ k + β k) cZero

/-- Column sums taken tile by tile. -/
def sumTiled (h : Tab 100000) (j : Fin 128) : EReal := ∑ t : Fin 25, ∑ p : Fin 4000, h (tileRow t p) j

/-- The batch mean from the tiled sums. -/
def meanTiled (h : Tab 100000) (j : Fin 128) : EReal := Ideal.div (sumTiled h j) cCount

/-- The batch variance as the mean of squares minus the square of the mean, from the tiled sums. -/
def varTiled (h : Tab 100000) (j : Fin 128) : EReal :=
  Ideal.div (sumTiled (fun r k => h r k * h r k) j) cCount - meanTiled h j * meanTiled h j

/-- The layer with tiled one-pass statistics. -/
def outTiled (e : EReal) (x nbr : Tab 100000) (W1 : Fin 128 → Fin 128 → EReal) (b1 γ β : Fin 128 → EReal)
    (W2 : Fin 128 → Fin 128 → EReal) (b2 : Fin 128 → EReal) : Tab 100000 :=
  let h := linear (combine e x nbr) W1 b1
  linear (normRelu h (meanTiled h) (varTiled h) γ β) W2 b2

/-- The batch mean over all rows at once. -/
def meanWhole (h : Tab 100000) (j : Fin 128) : EReal := Ideal.div (∑ r : Fin 100000, h r j) cCount

/-- The batch variance as the mean of the squared deviations. -/
def varWhole (h : Tab 100000) (j : Fin 128) : EReal :=
  Ideal.div (∑ r : Fin 100000, (h r j - meanWhole h j) * (h r j - meanWhole h j)) cCount

/-- The layer with two-pass statistics over all rows. -/
def outWhole (e : EReal) (x nbr : Tab 100000) (W1 : Fin 128 → Fin 128 → EReal) (b1 γ β : Fin 128 → EReal)
    (W2 : Fin 128 → Fin 128 → EReal) (b2 : Fin 128 → EReal) : Tab 100000 :=
  let h := linear (combine e x nbr) W1 b1
  linear (normRelu h (meanWhole h) (varWhole h) γ β) W2 b2

end GinLayer

end
-- ==== Proof.RefValue.lean ====
/-
  The reference program's result, read at an index, is the layer with two-pass statistics over all rows.

  Stage by stage, outermost last: the combined table (1 + e) · x + nbr; its image h under the first linear map;
  the column sums of h over all 100000 rows (the initial value of each sum is the zero word, which adds nothing),
  divided by the count word: the mean; the column sums of the squared deviations, divided by the count word: the
  variance; the normalised, scaled and shifted table, cut off below at zero; its image under the second linear map.
  The aggregated neighbour table is carried as one opaque table (nbrOf): nothing here looks inside it.
-/
import proofs.«135623_j83167746719884_2_alg».proof.Proof.Spec
import proofs.«135623_j83167746719884_2_alg».proof.Proof.Gen.ReferenceIdeal.Read

noncomputable section

open scoped BigOperators

namespace Cert.ReferenceIdeal.RefValue

open Cert.ReferenceIdeal Cert.ReferenceIdeal.Gen Cert.ReferenceIdeal.Read Idealize.ShloMosaic Idealize.ShloMosaic.ValueIdx GinLayer

/-- The argument arrays' types at the extended reals. -/
abbrev ATab : Type := (⟨S100000x128, .f32⟩ : BufTy).Contents (Elt Ideal)
abbrev AEdges : Type := (⟨S2x1600000, .i32⟩ : BufTy).Contents (Elt Ideal)
abbrev AOne : Type := (⟨S1, .f32⟩ : BufTy).Contents (Elt Ideal)
abbrev AMat : Type := (⟨S128x128, .f32⟩ : BufTy).Contents (Elt Ideal)
abbrev AVec : Type := (⟨S128, .f32⟩ : BufTy).Contents (Elt Ideal)

/-- The aggregated neighbour table, as the program computes it from x and the edge list. Kept folded. -/
def nbrOf (x0 : ATab) (x1 : AEdges) : ATab := val_main_v13 (F := Ideal) x0 x1

/-- A 100000×128 array as a table of rows. -/
def tab (a : ATab) : Tab 100000 := fun r k => a (ix2 r k)
/-- A 128×128 array as a function of its two coordinates. -/
def mat (a : AMat) : Fin 128 → Fin 128 → EReal := fun j k => a (ix2 j k)
/-- A 128 array as a function of its coordinate. -/
def vec (a : AVec) : Fin 128 → EReal := fun j => a (ix1 j)
/-- The one entry of the 1-array. -/
def scal (a : AOne) : EReal := a (ix1 (0 : Fin 1))

/-- The table before the statistics: the first linear map of the combined table. -/
def hTab (x0 : ATab) (x1 : AEdges) (x2 : AOne) (x3 : AMat) (x4 : AVec) : Tab 100000 :=
  linear (combine (scal x2) (tab x0) (tab (nbrOf x0 x1))) (mat x3) (vec x4)

variable (x0 : ATab) (x1 : AEdges) (x2 : AOne) (x3 : AMat) (x4 x5 x6 : AVec) (x7 : AMat) (x8 : AVec)

/-! ### The combined table and the first linear map -/

theorem v17_at (i : S100000x128.Idx) : val_main_v17 (F := Ideal) x2 i = cOne + scal x2 := by
  rw [val_main_v17_apply, val_main_v16_apply, val_main_v15_apply, val_main_v14_apply, val_main_cst_1_apply]
  have e : idx_main_v16 (idx_main_v17 i) = ix1 (0 : Fin 1) := funext fun a => Fin.ext (by match a with | ⟨0, _⟩ => rfl)
  rw [e]
  rfl

theorem v19_at (r : Fin 100000) (k : Fin 128) :
    val_main_v19 (F := Ideal) x0 x1 x2 (ix2 r k) = combine (scal x2) (tab x0) (tab (nbrOf x0 x1)) r k := by
  rw [val_main_v19_apply, val_main_v18_apply, v17_at]
  rfl

theorem v20_at (k j : Fin 128) : val_main_v20 (F := Ideal) x3 (ix2 k j) = mat x3 j k := by
  rw [val_main_v20_apply]
  have e : idx_main_v20 (ix2 k j) = ix2 j k := funext fun a => Fin.ext (by match a with | ⟨0, _⟩ => rfl | ⟨1, _⟩ => rfl)
  rw [e]
  rfl

theorem v21_at (r : Fin 100000) (j : Fin 128) :
    val_main_v21 (F := Ideal) x0 x1 x2 x3 (ix2 r j)
      = ∑ k : Fin 128, combine (scal x2) (tab x0) (tab (nbrOf x0 x1)) r k * mat x3 j k := by
  rw [val_main_v21_apply]
  refine Finset.sum_congr rfl fun k _ => ?_
  have el : lidx_main_v21 (ix2 r j) k = ix2 r k := funext fun a => Fin.ext (by match a with | ⟨0, _⟩ => rfl | ⟨1, _⟩ => rfl)
  have er : ridx_main_v21 (ix2 r j) k = ix2 k j := funext fun a => Fin.ext (by match a with | ⟨0, _⟩ => rfl | ⟨1, _⟩ => rfl)
  rw [el, er, v19_at, v20_at]

theorem v23_at (r : Fin 100000) (j : Fin 128) : val_main_v23 (F := Ideal) x4 (ix2 r j) = vec x4 j := by
  rw [val_main_v23_apply, val_main_v22_apply]
  have e : idx_main_v22 (idx_main_v23 (ix2 r j)) = ix1 j := funext fun a => Fin.ext (by match a with | ⟨0, _⟩ => rfl)
  rw [e]
  rfl

theorem v24_at (r : Fin 100000) (j : Fin 128) :
    val_main_v24 (F := Ideal) x0 x1 x2 x3 x4 (ix2 r j) = hTab x0 x1 x2 x3 x4 r j := by
  rw [val_main_v24_apply, v21_at, v23_at]
  rfl

/-! ### The mean -/

theorem v25_at (j : Fin 128) :
    val_main_v25 (F := Ideal) x0 x1 x2 x3 x4 (ix1 j) = ∑ r : Fin 100000, hTab x0 x1 x2 x3 x4 r j := by
  rw [val_main_v25_apply, val_main_cst_2_apply, Ideal.ofBits_def, Ideal.ofBits_zero_f32, zero_add]
  refine Finset.sum_congr rfl fun r _ => ?_
  have e : idx_main_v25 (ix1 j) r = ix2 r j := funext fun a => Fin.ext (by match a with | ⟨0, _⟩ => rfl | ⟨1, _⟩ => rfl)
  rw [e, v24_at]

theorem v27_at (j : Fin 128) :
    val_main_v27 (F := Ideal) x0 x1 x2 x3 x4 (ix1 j) = meanWhole (hTab x0 x1 x2 x3 x4) j := by
  rw [val_main_v27_apply, v25_at, val_main_v26_apply, val_main_cst_3_apply]
  rfl

theorem v29_at (r : Fin 100000) (j : Fin 128) :
    val_main_v29 (F := Ideal) x0 x1 x2 x3 x4 (ix2 r j) = meanWhole (hTab x0 x1 x2 x3 x4) j := by
  rw [val_main_v29_apply, val_main_v28_apply]
  have e : idx_main_v28 (idx_main_v29 (ix2 r j)) = ix1 j := funext fun a => Fin.ext (by match a with | ⟨0, _⟩ => rfl)
  rw [e, v27_at]

theorem v36_at (r : Fin 100000) (j : Fin 128) :
    val_main_v36 (F := Ideal) x0 x1 x2 x3 x4 (ix2 r j) = meanWhole (hTab x0 x1 x2 x3 x4) j := by
  rw [val_main_v36_apply, val_main_v35_apply]
  have e : idx_main_v35 (idx_main_v36 (ix2 r j)) = ix1 j := funext fun a => Fin.ext (by match a with | ⟨0, _⟩ => rfl)
  rw [e, v27_at]

/-! ### The variance -/

theorem v31_at (r : Fin 100000) (j : Fin 128) :
    val_main_v31 (F := Ideal) x0 x1 x2 x3 x4 (ix2 r j)
      = (hTab x0 x1 x2 x3 x4 r j - meanWhole (hTab x0 x1 x2 x3 x4) j) * (hTab x0 x1 x2 x3 x4 r j - meanWhole (hTab x0 x1 x2 x3 x4) j) := by
  rw [val_main_v31_apply, val_main_v30_apply, v24_at, v29_at]
  rfl

theorem v34_at (j : Fin 128) :
    val_main_v34 (F := Ideal) x0 x1 x2 x3 x4 (ix1 j) = varWhole (hTab x0 x1 x2 x3 x4) j := by
  rw [val_main_v34_apply, val_main_v32_apply, val_main_cst_4_apply, Ideal.ofBits_def, Ideal.ofBits_zero_f32, zero_add,
    val_main_v33_apply, val_main_cst_5_apply]
  have es : ∑ r : Fin 100000, val_main_v31 (F := Ideal) x0 x1 x2 x3 x4 (idx_main_v32 (ix1 j) r)
      = ∑ r : Fin 100000, (hTab x0 x1 x2 x3 x4 r j - meanWhole (hTab x0 x1 x2 x3 x4) j) * (hTab x0 x1 x2 x3 x4 r j - meanWhole (hTab x0 x1 x2 x3 x4) j) := by
    refine Finset.sum_congr rfl fun r _ => ?_
    have e : idx_main_v32 (ix1 j) r = ix2 r j := funext fun a => Fin.ext (by match a with | ⟨0, _⟩ => rfl | ⟨1, _⟩ => rfl)
    rw [e, v31_at]
  rw [es]
  rfl

theorem v42_at (r : Fin 100000) (j : Fin 128) :
    val_main_v42 (F := Ideal) x0 x1 x2 x3 x4 (ix2 r j) = Ideal.rsqrt (varWhole (hTab x0 x1 x2 x3 x4) j + cEps) := by
  rw [val_main_v42_apply, val_main_v41_apply]
  have e : idx_main_v41 (idx_main_v42 (ix2 r j)) = ix1 j := funext fun a => Fin.ext (by match a with | ⟨0, _⟩ => rfl)
  rw [e, val_main_v40_apply, val_main_v39_apply, v34_at, val_main_v38_apply, val_main_cst_6_apply]
  rfl

/-! ### Normalise, scale, shift, cut off -/

theorem v45_at (r : Fin 100000) (j : Fin 128) : val_main_v45 (F := Ideal) x5 (ix2 r j) = vec x5 j := by
  rw [val_main_v45_apply, val_main_v44_apply]
  have e : idx_main_v44 (idx_main_v45 (ix2 r j)) = ix1 j := funext fun a => Fin.ext (by match a with | ⟨0, _⟩ => rfl)
  rw [e]
  rfl

theorem v48_at (r : Fin 100000) (j : Fin 128) : val_main_v48 (F := Ideal) x6 (ix2 r j) = vec x6 j := by
  rw [val_main_v48_apply, val_main_v47_apply]
  have e : idx_main_v47 (idx_main_v48 (ix2 r j)) = ix1 j := funext fun a => Fin.ext (by match a with | ⟨0, _⟩ => rfl)
  rw [e]
  rfl

theorem v50_at (r : Fin 100000) (j : Fin 128) :
    val_main_v50 (F := Ideal) x0 x1 x2 x3 x4 x5 x6 (ix2 r j)
      = normRelu (hTab x0 x1 x2 x3 x4) (meanWhole (hTab x0 x1 x2 x3 x4)) (varWhole (hTab x0 x1 x2 x3 x4)) (vec x5) (vec x6) r j := by
  rw [val_main_v50_apply, val_main_v49_apply, val_main_v46_apply, val_main_v43_apply, val_main_v37_apply, v24_at, v36_at, v42_at,
    v45_at, v48_at, val_main_call0_v0_apply, val_main_call0_cst_apply]
  rfl

/-! ### The second linear map -/

theorem v51_at (k j : Fin 128) : val_main_v51 (F := Ideal) x7 (ix2 k j) = mat x7 j k := by
  rw [val_main_v51_apply]
  have e : idx_main_v51 (ix2 k j) = ix2 j k := funext fun a => Fin.ext (by match a with | ⟨0, _⟩ => rfl | ⟨1, _⟩ => rfl)
  rw [e]
  rfl

theorem v54_at (r : Fin 100000) (j : Fin 128) : val_main_v54 (F := Ideal) x8 (ix2 r j) = vec x8 j := by
  rw [val_main_v54_apply, val_main_v53_apply]
  have e : idx_main_v53 (idx_main_v54 (ix2 r j)) = ix1 j := funext fun a => Fin.ext (by match a with | ⟨0, _⟩ => rfl)
  rw [e]
  rfl

/-- The reference's result at row r, column j. -/
theorem result_at (r : Fin 100000) (j : Fin 128) :
    val_main_v55 (F := Ideal) x0 x1 x2 x3 x4 x5 x6 x7 x8 (ix2 r j)
      = outWhole (scal x2) (tab x0) (tab (nbrOf x0 x1)) (mat x3) (vec x4) (vec x5) (vec x6) (mat x7) (vec x8) r j := by
  rw [val_main_v55_apply, val_main_v52_apply, v54_at]
  have es : ∑ k : Fin 128, val_main_v50 (F := Ideal) x0 x1 x2 x3 x4 x5 x6 (lidx_main_v52 (ix2 r j) k) * val_main_v51 (F := Ideal) x7 (ridx_main_v52 (ix2 r j) k)
      = ∑ k : Fin 128, normRelu (hTab x0 x1 x2 x3 x4) (meanWhole (hTab x0 x1 x2 x3 x4)) (varWhole (hTab x0 x1 x2 x3 x4)) (vec x5) (vec x6) r k * mat x7 j k := by
    refine Finset.sum_congr rfl fun k _ => ?_
    have el : lidx_main_v52 (ix2 r j) k = ix2 r k := funext fun a => Fin.ext (by match a with | ⟨0, _⟩ => rfl | ⟨1, _⟩ => rfl)
    have er : ridx_main_v52 (ix2 r j) k = ix2 k j := funext fun a => Fin.ext (by match a with | ⟨0, _⟩ => rfl | ⟨1, _⟩ => rfl)
    rw [el, er, v50_at, v51_at]
  rw [es]
  rfl

/-- The reference's result as a function of the index. -/
theorem result_eq :
    val_main_v55 (F := Ideal) x0 x1 x2 x3 x4 x5 x6 x7 x8
      = fun i : S100000x128.Idx =>
          outWhole (scal x2) (tab x0) (tab (nbrOf x0 x1)) (mat x3) (vec x4) (vec x5) (vec x6) (mat x7) (vec x8) (i 0) (i 1) := by
  funext i
  obtain ⟨r, j, rfl⟩ : ∃ (r : Fin 100000) (j : Fin 128), i = ix2 r j := ⟨i 0, i 1, eq_ix2 i⟩
  exact result_at x0 x1 x2 x3 x4 x5 x6 x7 x8 r j

end Cert.ReferenceIdeal.RefValue

end
-- ==== Proof.KiHost.lean ====
/-
  What the kernel program's host operations leave in the buffers they write, over arbitrary contents of the
  other buffers.

  The operations before the first kernel region lay the arguments out for it: the two weight matrices transposed,
  the four 128-vectors and the 1-vector given a leading axis of size one, and the aggregated neighbour table
  computed from the node table and the edge list by the same fourteen operations as in the reference program. The
  operations between the two regions turn the two accumulated column sums into the batch mean (sum divided by
  the count) and the batch variance (mean of squares minus the square of the mean).
-/
import proofs.«135623_j83167746719884_2_alg».proof.Proof.Gen.KernelIdeal.Launch
import proofs.«135623_j83167746719884_2_alg».proof.Proof.Gen.KernelIdeal.Regions
import proofs.«135623_j83167746719884_2_alg».proof.Proof.Spec
import proofs.«135623_j83167746719884_2_alg».proof.Proof.RefValue
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.HostValue

open Cert.KernelIdeal Cert.KernelIdeal.Gen Idealize.ShloMosaic Idealize.ShloMosaic.ValueIdx
open Idealize.ShloMosaic.TcCoe Idealize.ShloMosaic.StableHlo

variable (W : Valuation τ sig (Elt Ideal))

/-! ### Between the two regions: mean and variance from the two sums -/

/-- The contents of a 1×128 float buffer. -/
abbrev Row : Type := FVec Ideal S1x128 .f32

/-- The count word as a row. -/
def countRow : Row :=
  broadcastInDim S1x128 ![] bcast_S_S1x128 (constant (F := Ideal) S_ .f32 0x47C35000#32)

theorem after1_v23 :
    StableHlo.after (hostOps1 (F := Ideal)) W (Proc.devRef .tc main_v23)
      = Host.divf (F := Ideal) (s := S1x128) (φ := .f32) (W (Proc.devRef .tc main_v21_1)) countRow := by
  unfold countRow
  after_results

theorem after1_v27 :
    StableHlo.after (hostOps1 (F := Ideal)) W (Proc.devRef .tc main_v27)
      = subf (F := Ideal) (s := S1x128) (φ := .f32)
          (Host.divf (F := Ideal) (s := S1x128) (φ := .f32) (W (Proc.devRef .tc main_v21_2)) countRow)
          (mulf (F := Ideal) (s := S1x128) (φ := .f32)
            (Host.divf (F := Ideal) (s := S1x128) (φ := .f32) (W (Proc.devRef .tc main_v21_1)) countRow)
            (Host.divf (F := Ideal) (s := S1x128) (φ := .f32) (W (Proc.devRef .tc main_v21_1)) countRow)) := by
  unfold countRow
  after_results

theorem countRow_at (i : S1x128.Idx) : countRow i = GinLayer.cCount := by
  unfold countRow
  exact (broadcastInDim_apply _ bcast_S_S1x128 _ i ix0 (fun a => a.elim0)).trans rfl

/-- The batch mean: the first sum divided by the count, column by column. -/
theorem after1_v23_at (j : Fin 128) :
    StableHlo.after (hostOps1 (F := Ideal)) W (Proc.devRef .tc main_v23) (ix2 (0 : Fin 1) j)
      = Ideal.div (W (Proc.devRef .tc main_v21_1) (ix2 (0 : Fin 1) j)) GinLayer.cCount := by
  rw [after1_v23]
  show Ideal.div _ (countRow _) = _
  rw [countRow_at]

/-- The batch variance: the second sum divided by the count, less the square of the mean. -/
theorem after1_v27_at (j : Fin 128) :
    StableHlo.after (hostOps1 (F := Ideal)) W (Proc.devRef .tc main_v27) (ix2 (0 : Fin 1) j)
      = Ideal.div (W (Proc.devRef .tc main_v21_2) (ix2 (0 : Fin 1) j)) GinLayer.cCount
          - Ideal.div (W (Proc.devRef .tc main_v21_1) (ix2 (0 : Fin 1) j)) GinLayer.cCount
            * Ideal.div (W (Proc.devRef .tc main_v21_1) (ix2 (0 : Fin 1) j)) GinLayer.cCount := by
  rw [after1_v27]
  show Ideal.div _ (countRow _) - Ideal.div _ (countRow _) * Ideal.div _ (countRow _) = _
  rw [countRow_at]

/-! ### Before the first region: the arguments laid out -/

/-! The two weight matrices, transposed. -/

theorem after0_v14_at (k j : Fin 128) :
    StableHlo.after (hostOps0 (F := Ideal)) W (Proc.devRef .tc main_v14) (ix2 k j)
      = W (Proc.devRef .tc main_arg3) (ix2 j k) := by
  have e : StableHlo.after (hostOps0 (F := Ideal)) W (Proc.devRef .tc main_v14)
      = transpose S128x128 [1, 0] (W (Proc.devRef .tc main_arg3)) transposes_S128x128_S128x128_1_0 := by
    after_results
  rw [e]
  exact transpose_ix2_apply _ _ k j

theorem after0_v15_at (k j : Fin 128) :
    StableHlo.after (hostOps0 (F := Ideal)) W (Proc.devRef .tc main_v15) (ix2 k j)
      = W (Proc.devRef .tc main_arg7) (ix2 j k) := by
  have e : StableHlo.after (hostOps0 (F := Ideal)) W (Proc.devRef .tc main_v15)
      = transpose S128x128 [1, 0] (W (Proc.devRef .tc main_arg7)) transposes_S128x128_S128x128_1_0 := by
    after_results
  rw [e]
  exact transpose_ix2_apply _ _ k j

/-! The four 128-vectors, each given a leading axis of size one. -/

theorem after0_v16_at (j : Fin 128) :
    StableHlo.after (hostOps0 (F := Ideal)) W (Proc.devRef .tc main_v16) (ix2 (0 : Fin 1) j)
      = W (Proc.devRef .tc main_arg4) (ix1 j) := by
  have e : StableHlo.after (hostOps0 (F := Ideal)) W (Proc.devRef .tc main_v16)
      = shapeCast S1x128 (W (Proc.devRef .tc main_arg4)) shapeCasts_S128_S1x128 := by
    after_results
    rfl
  rw [e]
  exact shapeCast_a_1a_apply _ _ 0 j

theorem after0_v17_at (j : Fin 128) :
    StableHlo.after (hostOps0 (F := Ideal)) W (Proc.devRef .tc main_v17) (ix2 (0 : Fin 1) j)
      = W (Proc.devRef .tc main_arg8) (ix1 j) := by
  have e : StableHlo.after (hostOps0 (F := Ideal)) W (Proc.devRef .tc main_v17)
      = shapeCast S1x128 (W (Proc.devRef .tc main_arg8)) shapeCasts_S128_S1x128 := by
    after_results
    rfl
  rw [e]
  exact shapeCast_a_1a_apply _ _ 0 j

theorem after0_v18_at (j : Fin 128) :
    StableHlo.after (hostOps0 (F := Ideal)) W (Proc.devRef .tc main_v18) (ix2 (0 : Fin 1) j)
      = W (Proc.devRef .tc main_arg5) (ix1 j) := by
  have e : StableHlo.after (hostOps0 (F := Ideal)) W (Proc.devRef .tc main_v18)
      = shapeCast S1x128 (W (Proc.devRef .tc main_arg5)) shapeCasts_S128_S1x128 := by
    after_results
    rfl
  rw [e]
  exact shapeCast_a_1a_apply _ _ 0 j

theorem after0_v19_at (j : Fin 128) :
    StableHlo.after (hostOps0 (F := Ideal)) W (Proc.devRef .tc main_v19) (ix2 (0 : Fin 1) j)
      = W (Proc.devRef .tc main_arg6) (ix1 j) := by
  have e : StableHlo.after (hostOps0 (F := Ideal)) W (Proc.devRef .tc main_v19)
      = shapeCast S1x128 (W (Proc.devRef .tc main_arg6)) shapeCasts_S128_S1x128 := by
    after_results
    rfl
  rw [e]
  exact shapeCast_a_1a_apply _ _ 0 j

/-- The 1-vector given a leading axis of size one. -/
theorem after0_v20_at :
    StableHlo.after (hostOps0 (F := Ideal)) W (Proc.devRef .tc main_v20) (ix2 (0 : Fin 1) (0 : Fin 1))
      = W (Proc.devRef .tc main_arg2) (ix1 (0 : Fin 1)) := by
  have e : StableHlo.after (hostOps0 (F := Ideal)) W (Proc.devRef .tc main_v20)
      = shapeCast S1x1 (W (Proc.devRef .tc main_arg2)) shapeCasts_S1_S1x1 := by
    after_results
    rfl
  rw [e]
  exact shapeCast_a_1a_apply _ _ 0 0

/-! ### The aggregated neighbour table

The fourteen operations that compute it from the node table and the edge list (the two rows of the edge list cut out
and flattened; negative targets wrapped by the row count; the rows of the node table gathered at the targets; a zero
table; the gathered rows added into it at the sources) are, one for one, the reference program's. Opening the
reference's stages down to the library functions, the two terms are the same composition of the same functions of the
same two arrays; they differ only in which program's copy of each shape and each shape relation they name. -/

theorem after0_v13 :
    StableHlo.after (hostOps0 (F := Ideal)) W (Proc.devRef .tc main_v13)
      = Cert.ReferenceIdeal.RefValue.nbrOf (W (Proc.devRef .tc main_arg0)) (W (Proc.devRef .tc main_arg1)) := by
  unfold Cert.ReferenceIdeal.RefValue.nbrOf
  unfold Cert.ReferenceIdeal.Read.val_main_v13
  unfold Cert.ReferenceIdeal.Read.val_main_v12 Cert.ReferenceIdeal.Read.val_main_v11 Cert.ReferenceIdeal.Read.val_main_v10
  unfold Cert.ReferenceIdeal.Read.val_main_v9 Cert.ReferenceIdeal.Read.val_main_v8 Cert.ReferenceIdeal.Read.val_main_v7
  unfold Cert.ReferenceIdeal.Read.val_main_v6 Cert.ReferenceIdeal.Read.val_main_v5 Cert.ReferenceIdeal.Read.val_main_v4
  unfold Cert.ReferenceIdeal.Read.val_main_v3 Cert.ReferenceIdeal.Read.val_main_v2 Cert.ReferenceIdeal.Read.val_main_v1
  unfold Cert.ReferenceIdeal.Read.val_main_v0 Cert.ReferenceIdeal.Read.val_main_c Cert.ReferenceIdeal.Read.val_main_c_0
  unfold Cert.ReferenceIdeal.Read.val_main_cst
  after_results
  rfl

end Cert.KernelIdeal.HostValue

end
-- ==== Proof.KiLink.lean ====
/-
  The buffers the two kernels read, at the ideal instance, traced back through the host operations to the argument arrays:
  the second kernel's `h` operand is the first kernel's `h` array; its mean and variance operands are the quotients by
  100000 of the first kernel's two statistics arrays (the variance less the square of the mean); its scale, shift, weight
  and bias operands, like the first kernel's, are re-laid argument arrays; and the first kernel's aggregated-neighbour
  operand is the host's gather and scatter-add of the node table, the same chain the reference runs.
-/
import proofs.«135623_j83167746719884_2_alg».proof.Proof.KiFinal
import proofs.«135623_j83167746719884_2_alg».proof.Proof.KiRun
import proofs.«135623_j83167746719884_2_alg».proof.Proof.KiHost
import Idealize.ShloMosaic.Lib.StableHlo.Run

set_option maxRecDepth 16384

noncomputable section

namespace Cert.KernelIdeal.KValue

open Cert.KernelIdeal Cert.KernelIdeal.Gen Cert.KernelIdeal.Hand Cert.KernelIdeal.HostValue
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (c : Dev nD)

/-! ## What the second kernel's windows read -/

theorem V3_h : Hand.V3 m c main_v21_0 = G5 (Hand.V1 m) c :=
  calc Hand.V3 m c main_v21_0
    _ = W2 m c (Proc.devRef .tc main_v21_0) := StableHlo.after_of_writes_sub hostOps1 _ hostOps1_writes (by decide)
    _ = (dat0 (Hand.V1 m) c).arrAt 5 cfg0.N := W2_arr m c 5
    _ = G5 (Hand.V1 m) c := final0_5 (Hand.V1 m) c

theorem W2_sum : W2 m c (Proc.devRef .tc main_v21_1) = accS (Hand.V1 m) c t24.val t24.isLt :=
  (W2_arr m c 6).trans (final0_6 (Hand.V1 m) c)
theorem W2_sq : W2 m c (Proc.devRef .tc main_v21_2) = accQ (Hand.V1 m) c t24.val t24.isLt :=
  (W2_arr m c 7).trans (final0_7 (Hand.V1 m) c)

theorem V3_mean_at (k : Fin 128) :
    Hand.V3 m c main_v23 (ix2 (0 : Fin 1) k) = Ideal.div (accS (Hand.V1 m) c t24.val t24.isLt (ix2 (0 : Fin 1) k)) GinLayer.cCount := by
  show StableHlo.after (hostOps1 (F := Ideal)) (W2 m c) (Proc.devRef .tc main_v23) (ix2 (0 : Fin 1) k) = _
  rw [after1_v23_at (W2 m c) k, W2_sum]

theorem V3_var_at (k : Fin 128) :
    Hand.V3 m c main_v27 (ix2 (0 : Fin 1) k) = Ideal.div (accQ (Hand.V1 m) c t24.val t24.isLt (ix2 (0 : Fin 1) k)) GinLayer.cCount
      - Ideal.div (accS (Hand.V1 m) c t24.val t24.isLt (ix2 (0 : Fin 1) k)) GinLayer.cCount * Ideal.div (accS (Hand.V1 m) c t24.val t24.isLt (ix2 (0 : Fin 1) k)) GinLayer.cCount := by
  show StableHlo.after (hostOps1 (F := Ideal)) (W2 m c) (Proc.devRef .tc main_v27) (ix2 (0 : Fin 1) k) = _
  rw [after1_v27_at (W2 m c) k, W2_sum, W2_sq]

/-- A buffer the first host stretch writes, that neither region writes and the second stretch leaves alone, is read by the
    second kernel as the first stretch left it. -/
theorem V3_of_V1 (r : Ref sig .tc) (h1 : r ∉ (hostOps1_W : List (Ref sig .tc))) (ha0 : ∀ w, Pipeline.arrRef spec0 w ≠ r) :
    Hand.V3 m c r = Hand.V1 m c r :=
  (StableHlo.after_of_writes_sub hostOps1 _ hostOps1_writes h1).trans (W2_of_ne m c r ha0)

theorem V3_gamma_at (k : Fin 128) : Hand.V3 m c main_v18 (ix2 (0 : Fin 1) k) = m ((c : Thread nD τ).loc main_arg5) (ix1 k) := by
  rw [V3_of_V1 m c main_v18 (by decide) (by decide)]
  exact after0_v18_at (W0 m c) k
theorem V3_beta_at (k : Fin 128) : Hand.V3 m c main_v19 (ix2 (0 : Fin 1) k) = m ((c : Thread nD τ).loc main_arg6) (ix1 k) := by
  rw [V3_of_V1 m c main_v19 (by decide) (by decide)]
  exact after0_v19_at (W0 m c) k
theorem V3_w2_at (k j : Fin 128) : Hand.V3 m c main_v15 (ix2 k j) = m ((c : Thread nD τ).loc main_arg7) (ix2 j k) := by
  rw [V3_of_V1 m c main_v15 (by decide) (by decide)]
  exact after0_v15_at (W0 m c) k j
theorem V3_b2_at (j : Fin 128) : Hand.V3 m c main_v17 (ix2 (0 : Fin 1) j) = m ((c : Thread nD τ).loc main_arg8) (ix1 j) := by
  rw [V3_of_V1 m c main_v17 (by decide) (by decide)]
  exact after0_v17_at (W0 m c) j

/-! ## What the first kernel's windows read -/

theorem V1_x : Hand.V1 m c main_arg0 = m ((c : Thread nD τ).loc main_arg0) :=
  StableHlo.after_of_writes_sub hostOps0 _ hostOps0_writes (by decide)
theorem V1_nbr : Hand.V1 m c main_v13 = Cert.ReferenceIdeal.RefValue.nbrOf (m ((c : Thread nD τ).loc main_arg0)) (m ((c : Thread nD τ).loc main_arg1)) :=
  after0_v13 (W0 m c)
theorem V1_eps_at : Hand.V1 m c main_v20 (ix2 (0 : Fin 1) (0 : Fin 1)) = m ((c : Thread nD τ).loc main_arg2) (ix1 (0 : Fin 1)) :=
  after0_v20_at (W0 m c)
theorem V1_w1_at (k j : Fin 128) : Hand.V1 m c main_v14 (ix2 k j) = m ((c : Thread nD τ).loc main_arg3) (ix2 j k) :=
  after0_v14_at (W0 m c) k j
theorem V1_b1_at (j : Fin 128) : Hand.V1 m c main_v16 (ix2 (0 : Fin 1) j) = m ((c : Thread nD τ).loc main_arg4) (ix1 j) :=
  after0_v16_at (W0 m c) j

end Cert.KernelIdeal.KValue

end
-- ==== Proof.KiPay.lean ====
/-
  The kernel's pure values, read at an index, on the extended reals.

  Each value the kernel stores is a chain of entrywise operations, casts to the same shape (identities), a row or a
  single entry spread over a tile, a product of a tile with a 128×128 matrix accumulated into the zero tile (a plain
  sum over the contracted coordinate), and a sum down the 4000 rows of a tile. Conversions between the two float
  formats are identities on the extended reals.
-/
import proofs.«135623_j83167746719884_2_alg».proof.Proof.Gen.KernelIdeal.Skeleton
import proofs.«135623_j83167746719884_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.PayValue

open Cert.KernelIdeal Cert.KernelIdeal.Gen Idealize.ShloMosaic Idealize.ShloMosaic.ValueIdx GinLayer

/-! ### The stored rows and the zero rows -/

theorem pay1_eq (v33 : FVec Ideal S1x128 .f32) : k0_pay1 (F := Ideal) v33 = v33 := by
  unfold k0_pay1
  exact shapeCast_self _ _

theorem pay2_at (v21 : FVec Ideal S4000x128 .f32) (i : S4000x128.Idx) : k0_pay2 (F := Ideal) v21 i = v21 i := rfl

theorem pay3_at (j : Fin 128) : k0_pay3 (F := Ideal) (ix2 (0 : Fin 1) j) = 0 := by
  unfold k0_pay3
  refine (congrFun (shapeCast_self _ _) _).trans ?_
  exact Ideal.ofBits_zero_f32

theorem pay4_at (j : Fin 128) : k0_pay4 (F := Ideal) (ix2 (0 : Fin 1) j) = 0 := by
  unfold k0_pay4
  refine (congrFun (shapeCast_self _ _) _).trans ?_
  exact Ideal.ofBits_zero_f32

/-- Sums and products of equal extended reals are equal. -/
theorem addE {a b c d : EReal} (h1 : a = c) (h2 : b = d) : a + b = c + d := by rw [h1, h2]
theorem mulE {a b c d : EReal} (h1 : a = c) (h2 : b = d) : a * b = c * d := by rw [h1, h2]
theorem subE {a b c d : EReal} (h1 : a = c) (h2 : b = d) : a - b = c - d := by rw [h1, h2]

/-! ### The tile-by-matrix product at an index -/

theorem lhs0 (i : S4000x128.Idx) (q : dot_S4000x128_S128x128_S4000x128_1_0_0_1_n_n.contr.Idx) : (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs1 (i : S4000x128.Idx) (q : dot_S4000x128_S128x128_S4000x128_1_0_0_1_n_n.contr.Idx) : (dot_S4000x128_S128x128_S4000x128_1_0_0_1_n_n.lhsIdx i q 1).val = (q ⟨0, by decide⟩).val :=
  dot_S4000x128_S128x128_S4000x128_1_0_0_1_n_n.lhsIdx_val_of_single rfl i q
theorem rhs0 (i : S4000x128.Idx) (q : dot_S4000x128_S128x128_S4000x128_1_0_0_1_n_n.contr.Idx) : (dot_S4000x128_S128x128_S4000x128_1_0_0_1_n_n.rhsIdx i q 0).val = (q ⟨0, by decide⟩).val :=
  dot_S4000x128_S128x128_S4000x128_1_0_0_1_n_n.rhsIdx_val_of_single rfl i q
theorem rhs1 (i : S4000x128.Idx) (q : dot_S4000x128_S128x128_S4000x128_1_0_0_1_n_n.contr.Idx) : (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- A 4000×128 tile times a 128×128 matrix, accumulated into the zero tile: at (p, j) the sum over k of L(p,k) · R(k,j). -/
theorem matmul_zero_at {φ₁ φ₂ : FTy} (L : FVec Ideal S4000x128 φ₁) (R : FVec Ideal S128x128 φ₂) (p : Fin 4000) (j : Fin 128) :
    matmul dot_S4000x128_S128x128_S4000x128_1_0_0_1_n_n none L R (constant (F := Ideal) S4000x128 .f32 0x00000000#32) (ix2 p j)
      = ∑ k : Fin 128, L (ix2 p k) * R (ix2 k j) := by
  refine (Ideal.matmul_constant_zero_apply dot_S4000x128_S128x128_S4000x128_1_0_0_1_n_n none L R (ix2 p j)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p j) ((contrEquiv1 dot_S4000x128_S128x128_S4000x128_1_0_0_1_n_n 128 rfl rfl).symm k) = ix2 p k := funext fun a => Fin.ext (by
    match a with
    | ⟨0, _⟩ => exact lhs0 _ _
    | ⟨1, _⟩ => exact (lhs1 _ _).trans hk)
  have er : dot_S4000x128_S128x128_S4000x128_1_0_0_1_n_n.rhsIdx (ix2 p j) ((contrEquiv1 dot_S4000x128_S128x128_S4000x128_1_0_0_1_n_n 128 rfl rfl).symm k) = ix2 k j := funext fun a => Fin.ext (by
    match a with
    | ⟨0, _⟩ => exact (rhs0 _ _).trans hk
    | ⟨1, _⟩ => exact rhs1 _ _)
  rw [el, er]

/-- A single entry spread over a tile reads that entry everywhere. -/
theorem broadcastTo_11_ab_apply {α : Type} {a b : ℕ} (v : (⟨2, ![1, 1]⟩ : Shape).Idx → α) (h : (⟨2, ![1, 1]⟩ : Shape).Broadcasts ⟨2, ![a, b]⟩)
    (p : Fin a) (c : Fin b) : broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-! ### The table before the statistics, one tile -/

theorem pay5_at (v3 : Vec Ideal S1x1 .f32) (v7 v10 : Vec Ideal S4000x128 .f32) (v14 : Vec Ideal S128x128 .f32)
    (v18 : Vec Ideal S1x128 .f32) (p : Fin 4000) (j : Fin 128) :
    k0_pay5 (F := Ideal) v3 v7 v10 v14 v18 (ix2 p j)
      = (∑ k : Fin 128, ((cOne + v3 (ix2 (0 : Fin 1) (0 : Fin 1))) * v7 (ix2 p k) + v10 (ix2 p k)) * v14 (ix2 k j))
        + v18 (ix2 (0 : Fin 1) j) := by
  unfold k0_pay5
  simp only [shapeCast_self]
  refine (addf_apply _ _ _).trans ?_
  refine addE ((matmul_zero_at _ _ p j).trans ?_) (broadcastTo_1b_ab_apply _ _ p j)
  refine Finset.sum_congr rfl fun k _ => ?_
  refine mulE ?_ rfl
  refine addE (mulE ((broadcastTo_11_ab_apply _ _ p k).trans ?_) rfl) rfl
  rfl

theorem maxE {a b c d : EReal} (h1 : a = c) (h2 : b = d) : max a b = max c d := by rw [h1, h2]

/-! ### Sums down the rows of a tile -/

/-- The sum of a tile down its 4000 rows, at column j. -/
theorem colsum_at (src : FVec Ideal S4000x128 .f32) (h : S4000x128.Reduces [0] S128) (hφ : FKind.Formats .f32)
    (hacc : (0x00000000#32 : BitVec 32) = FKind.add.neutral .f32 hφ) (j : Fin 128) :
    multiReduction (F := Ideal) .add [0] S128 src 0x00000000#32 h hφ hacc (ix1 j) = ∑ p : Fin 4000, src (ix2 p j) := by
  refine (Ideal.multiReduction_add_single src _ h hφ hacc (ix1 j)).trans ?_
  refine Finset.sum_congr rfl fun p _ => ?_
  exact congrArg src (funext fun a => Fin.ext (by match a with | ⟨0, _⟩ => rfl | ⟨1, _⟩ => rfl))

theorem pay6_at (v3 : Vec Ideal S1x1 .f32) (v7 v10 : Vec Ideal S4000x128 .f32) (v14 : Vec Ideal S128x128 .f32)
    (v18 v22 : Vec Ideal S1x128 .f32) (j : Fin 128) :
    k0_pay6 (F := Ideal) v3 v7 v10 v14 v18 v22 (ix2 (0 : Fin 1) j)
      = v22 (ix2 (0 : Fin 1) j) + ∑ p : Fin 4000, k0_pay5 (F := Ideal) v3 v7 v10 v14 v18 (ix2 p j) := by
  unfold k0_pay6
  simp only [shapeCast_self]
  refine (addf_apply _ _ _).trans ?_
  refine addE rfl ((shapeCast_a_1a_apply _ _ (0 : Fin 1) j).trans ?_)
  exact colsum_at _ _ _ _ j

theorem pay7_at (v3 : Vec Ideal S1x1 .f32) (v7 v10 : Vec Ideal S4000x128 .f32) (v14 : Vec Ideal S128x128 .f32)
    (v18 v29 : Vec Ideal S1x128 .f32) (j : Fin 128) :
    k0_pay7 (F := Ideal) v3 v7 v10 v14 v18 v29 (ix2 (0 : Fin 1) j)
      = v29 (ix2 (0 : Fin 1) j) + ∑ p : Fin 4000, k0_pay5 (F := Ideal) v3 v7 v10 v14 v18 (ix2 p j) * k0_pay5 (F := Ideal) v3 v7 v10 v14 v18 (ix2 p j) := by
  unfold k0_pay7
  refine (addf_apply _ _ _).trans ?_
  refine addE rfl ((shapeCast_a_1a_apply _ _ (0 : Fin 1) j).trans ?_)
  exact colsum_at _ _ _ _ j

/-! ### The second pass: normalise, scale, shift, cut off, second linear map, one tile -/

theorem k1_pay1_at (v0 : Vec Ideal S4000x128 .bf16) (v3 v8 v14 v18 : Vec Ideal S1x128 .f32) (v25 : Vec Ideal S128x128 .f32)
    (v29 : Vec Ideal S1x128 .f32) (p : Fin 4000) (j : Fin 128) :
    k1_pay1 (F := Ideal) v0 v3 v8 v14 v18 v25 v29 (ix2 p j)
      = (∑ k : Fin 128, max ((((v0 (ix2 p k) - v8 (ix2 (0 : Fin 1) k)) * Ideal.rsqrt (v3 (ix2 (0 : Fin 1) k) + cEps)) * v14 (ix2 (0 : Fin 1) k)) + v18 (ix2 (0 : Fin 1) k)) cZero * v25 (ix2 k j))
        + v29 (ix2 (0 : Fin 1) j) := by
  unfold k1_pay1
  simp only [shapeCast_self]
  refine (addf_apply _ _ _).trans ?_
  refine addE ((matmul_zero_at _ _ p j).trans ?_) (broadcastTo_1b_ab_apply _ _ p j)
  refine Finset.sum_congr rfl fun k _ => ?_
  refine mulE ?_ rfl
  refine maxE (addE (mulE (mulE (subE rfl (broadcastTo_1b_ab_apply _ _ p k)) ((broadcastTo_1b_ab_apply _ _ p k).trans rfl))
    (broadcastTo_1b_ab_apply _ _ p k)) (broadcastTo_1b_ab_apply _ _ p k)) rfl

end Cert.KernelIdeal.PayValue

end
-- ==== Proof.KiSums.lean ====
/-
  The accumulator rows, summed. At the ideal instance the payload that updates the first accumulator adds, to each of its
  128 entries, the tile's column sum of `h`; started from zero at the first point, after point `n` the row holds the sum
  over the tiles `0 … n` of their column sums. The second row holds the same of `h²`.
-/
import proofs.«135623_j83167746719884_2_alg».proof.Proof.KiSteps
import proofs.«135623_j83167746719884_2_alg».proof.Proof.KiPay

set_option maxRecDepth 16384

noncomputable section

namespace Cert.KernelIdeal.KValue

open Cert.KernelIdeal Cert.KernelIdeal.Gen Cert.KernelIdeal.Hand Cert.KernelIdeal.PayValue
open Idealize.ShloMosaic Idealize.ShloMosaic.TcCoe Idealize.SL.Sem
open Idealize.ShloMosaic.ValueIdx

variable (V : (c : Dev nD) → (b : Ref sig .tc) → Buf (Elt Ideal) ((c : Thread nD τ).loc b)) (c : Dev nD)

/-- Tile `s`'s column sums of `h` and of `h²` (zero past the grid). -/
def tsum (s : ℕ) (k : Fin 128) : EReal :=
  if hs : s < cfg0.N then ∑ p : Fin 4000, hTile V c ⟨s, hs⟩ (ix2 p k) else 0
def tsq (s : ℕ) (k : Fin 128) : EReal :=
  if hs : s < cfg0.N then ∑ p : Fin 4000, hTile V c ⟨s, hs⟩ (ix2 p k) * hTile V c ⟨s, hs⟩ (ix2 p k) else 0

theorem accS_at : ∀ (n : ℕ) (h : n < cfg0.N) (k : Fin 128),
    accS V c n h (ix2 (0 : Fin 1) k) = ∑ s ∈ Finset.range (n + 1), tsum V c s k
  | 0, h, k => by
    show k0_pay6 (F := Ideal) (iblk0 V c 2 ⟨0, h⟩) (iblk0 V c 0 ⟨0, h⟩) (iblk0 V c 1 ⟨0, h⟩) (iblk0 V c 3 ⟨0, h⟩) (iblk0 V c 4 ⟨0, h⟩) (k0_pay3 (F := Ideal)) (ix2 (0 : Fin 1) k) = _
    rw [pay6_at, pay3_at, zero_add, Finset.sum_range_one]
    unfold tsum; rw [dif_pos h]; rfl
  | n + 1, h, k => by
    show k0_pay6 (F := Ideal) (iblk0 V c 2 ⟨n + 1, h⟩) (iblk0 V c 0 ⟨n + 1, h⟩) (iblk0 V c 1 ⟨n + 1, h⟩) (iblk0 V c 3 ⟨n + 1, h⟩) (iblk0 V c 4 ⟨n + 1, h⟩) (accS V c n (Nat.lt_of_succ_lt h)) (ix2 (0 : Fin 1) k) = _
    rw [pay6_at, accS_at n (Nat.lt_of_succ_lt h) k, Finset.sum_range_succ _ (n + 1)]
    congr 1
    unfold tsum; rw [dif_pos h]; rfl

theorem accQ_at : ∀ (n : ℕ) (h : n < cfg0.N) (k : Fin 128),
    accQ V c n h (ix2 (0 : Fin 1) k) = ∑ s ∈ Finset.range (n + 1), tsq V c s k
  | 0, h, k => by
    show k0_pay1 (F := Ideal) (k0_pay7 (F := Ideal) (iblk0 V c 2 ⟨0, h⟩) (iblk0 V c 0 ⟨0, h⟩) (iblk0 V c 1 ⟨0, h⟩) (iblk0 V c 3 ⟨0, h⟩) (iblk0 V c 4 ⟨0, h⟩) (k0_pay4 (F := Ideal))) (ix2 (0 : Fin 1) k) = _
    rw [pay1_eq, pay7_at, pay4_at, zero_add, Finset.sum_range_one]
    unfold tsq; rw [dif_pos h]; rfl
  | n + 1, h, k => by
    show k0_pay1 (F := Ideal) (k0_pay7 (F := Ideal) (iblk0 V c 2 ⟨n + 1, h⟩) (iblk0 V c 0 ⟨n + 1, h⟩) (iblk0 V c 1 ⟨n + 1, h⟩) (iblk0 V c 3 ⟨n + 1, h⟩) (iblk0 V c 4 ⟨n + 1, h⟩) (accQ V c n (Nat.lt_of_succ_lt h))) (ix2 (0 : Fin 1) k) = _
    rw [pay1_eq, pay7_at, accQ_at n (Nat.lt_of_succ_lt h) k, Finset.sum_range_succ _ (n + 1)]
    congr 1
    unfold tsq; rw [dif_pos h]; rfl

end Cert.KernelIdeal.KValue

end
-- ==== Proof.Algebra.lean ====
/-
  The two ways of taking the batch statistics of a table of REAL numbers give the same layer.

  * The tiled column sum (25 tiles of 4000 rows) is the sum over all 100000 rows: row 4000·t + p runs through every
    row exactly once, so the double sum is a reindexing of the single one. This holds for any entries.
  * Hence the two means are one number.
  * On real entries a(r), with μ = Σ a / N and N = 100000 the number of rows,
      Σ (a(r) − μ)² = Σ a(r)² − 2 μ Σ a + N μ² = Σ a(r)² − N μ²,
    so the mean of the squared deviations is the mean of the squares minus μ². At an infinite entry the identity
    fails (∞ − ∞), which is why the entries are asked to be real.
  * The combined table and its image under the first linear map are real when e, x, the neighbour table, W1 and b1 are.
  Nothing is asked of γ, β, W2, b2: both layers are the same function of the table, its mean and its variance.
-/
import proofs.«135623_j83167746719884_2_alg».proof.Proof.Spec
import Mathlib.Algebra.BigOperators.Fin
import Mathlib.Logic.Equiv.Fin.Basic
import Mathlib.Tactic

noncomputable section

open scoped BigOperators

namespace GinLayer

open Idealize.ShloMosaic

/-! ### Real entries -/

/-- An extended real that is a real number. -/
def IsReal (v : EReal) : Prop := ∃ a : ℝ, v = (a : EReal)

theorem IsReal.add {u v : EReal} (hu : IsReal u) (hv : IsReal v) : IsReal (u + v) := by
  obtain ⟨a, rfl⟩ := hu; obtain ⟨b, rfl⟩ := hv; exact ⟨a + b, (EReal.coe_add a b).symm⟩

theorem IsReal.mul {u v : EReal} (hu : IsReal u) (hv : IsReal v) : IsReal (u * v) := by
  obtain ⟨a, rfl⟩ := hu; obtain ⟨b, rfl⟩ := hv; exact ⟨a * b, (EReal.coe_mul a b).symm⟩

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type*} (s : Finset ι) (f : ι → EReal) (h : ∀ i, IsReal (f i)) : IsReal (∑ i ∈ s, f i) := by
  choose a ha using h
  exact ⟨∑ i ∈ s, a i, by rw [coe_sum]; exact Finset.sum_congr rfl fun i _ => ha i⟩

/-! ### The shared float words -/

/-- The word 0x47C35000 has sign 0, exponent field 143 and fraction 4400128: (2²³ + 4400128) · 2^(143 − 127 − 23)
    = 12800000 · 2⁻⁷ = 100000. -/
theorem cCount_eq : cCount = ((100000 : ℝ) : EReal) := by
  simp [cCount, Ideal.ofBits, Ideal.ieee, -EReal.coe_mul]; norm_num

/-- The word 0x3F800000 is 1. -/
theorem cOne_isReal : IsReal cOne := by
  refine ⟨1, ?_⟩
  simp [cOne, Ideal.ofBits, Ideal.ieee, -EReal.coe_mul]; norm_num

/-! ### Tiles -/

/-- Tile and position within the tile, as one row number. -/
def tileEquiv : Fin 25 × Fin 4000 ≃ Fin 100000 := finProdFinEquiv

theorem tileEquiv_apply (t : Fin 25) (p : Fin 4000) : tileEquiv (t, p) = tileRow t p := by
  apply Fin.ext
  show p.val + 4000 * t.val = 4000 * t.val + p.val
  omega

/-- The tile-by-tile sum is the sum over all rows. -/
theorem sum_tiles (f : Fin 100000 → EReal) : ∑ t : Fin 25, ∑ p : Fin 4000, f (tileRow t p) = ∑ r : Fin 100000, f r := by
  rw [← Equiv.sum_comp tileEquiv f, Fintype.sum_prod_type]
  exact Finset.sum_congr rfl fun t _ => Finset.sum_congr rfl fun p _ => by rw [tileEquiv_apply]

theorem sumTiled_eq (h : Tab 100000) (j : Fin 128) : sumTiled h j = ∑ r : Fin 100000, h r j :=
  sum_tiles fun r => h r j

theorem meanTiled_eq (h : Tab 100000) : meanTiled h = meanWhole h := by
  funext j
  rw [meanTiled, meanWhole, sumTiled_eq]

/-! ### The variance identity -/

/-- In ℝ: the mean of squares minus the squared mean is the mean of the squared deviations, when the divisor is the
    number of terms. -/
theorem var_identity (a : Fin 100000 → ℝ) :
    (∑ r, a r * a r) * (1 / 100000 : ℝ) - (∑ r, a r) * (1 / 100000 : ℝ) * ((∑ r, a r) * (1 / 100000 : ℝ))
      = (∑ r, (a r - (∑ r, a r) * (1 / 100000 : ℝ)) * (a r - (∑ r, a r) * (1 / 100000 : ℝ))) * (1 / 100000 : ℝ) := by
  set S : ℝ := ∑ r, a r with hS
  set μ : ℝ := S * (1 / 100000 : ℝ) with hμ
  have hexp : ∀ r, (a r - μ) * (a r - μ) = a r * a r - 2 * μ * a r + μ * μ := fun r => by ring
  simp only [hexp, Finset.sum_add_distrib, Finset.sum_sub_distrib, ← Finset.mul_sum, Finset.sum_const, Finset.card_univ,
    Fintype.card_fin, nsmul_eq_mul]
  rw [← hS, hμ]
  push_cast
  ring

theorem varTiled_eq (h : Tab 100000) (hh : ∀ r j, IsReal (h r j)) : varTiled h = varWhole h := by
  funext j
  choose a ha using fun r => hh r j
  have hm : meanWhole h j = (((∑ r, a r) * (1 / 100000 : ℝ) : ℝ) : EReal) := by
    rw [meanWhole, cCount_eq, Ideal.div_coe (by norm_num), EReal.coe_mul, coe_sum]
    simp only [ha]
  rw [varTiled, meanTiled_eq, sumTiled_eq, varWhole, hm, cCount_eq, Ideal.div_coe (by norm_num), Ideal.div_coe (by norm_num)]
  simp only [ha, ← EReal.coe_mul, ← EReal.coe_sub, ← coe_sum]
  rw [var_identity]

/-! ### The table before the statistics is real -/

theorem linear_combine_isReal {e : EReal} {x nbr : Tab 100000} {W1 : Fin 128 → Fin 128 → EReal} {b1 : Fin 128 → EReal}
    (he : IsReal e) (hx : ∀ r k, IsReal (x r k)) (hn : ∀ r k, IsReal (nbr r k))
    (hW : ∀ j k, IsReal (W1 j k)) (hb : ∀ j, IsReal (b1 j)) (r : Fin 100000) (j : Fin 128) :
    IsReal (linear (combine e x nbr) W1 b1 r j) :=
  (IsReal.sum _ _ fun k => (((cOne_isReal.add he).mul (hx r k)).add (hn r k)).mul (hW j k)).add (hb j)

/-- On real e, x, neighbour table, W1 and b1 — and any γ, β, W2, b2 — the layer with tiled one-pass statistics is the
    layer with two-pass statistics over all rows. -/
theorem outTiled_eq_outWhole (e : EReal) (x nbr : Tab 100000) (W1 : Fin 128 → Fin 128 → EReal) (b1 γ β : Fin 128 → EReal)
    (W2 : Fin 128 → Fin 128 → EReal) (b2 : Fin 128 → EReal)
    (he : ∃ a : ℝ, e = (a : EReal)) (hx : ∀ r k, ∃ a : ℝ, x r k = (a : EReal))
    (hn : ∀ r k, ∃ a : ℝ, nbr r k = (a : EReal)) (hW : ∀ j k, ∃ a : ℝ, W1 j k = (a : EReal))
    (hb : ∀ j, ∃ a : ℝ, b1 j = (a : EReal)) :
    outTiled e x nbr W1 b1 γ β W2 b2 = outWhole e x nbr W1 b1 γ β W2 b2 := by
  unfold outTiled outWhole
  dsimp only
  rw [meanTiled_eq, varTiled_eq _ (linear_combine_isReal he hx hn hW hb)]

end GinLayer

end
-- ==== Proof.LibFiniteAll.lean ====
/-
  Reading back one conjunct of the precondition. Each conjunct is a reduction by `and`, over a whole array, of an
  entrywise comparison: `|x| < +inf` (every entry of x is finite) or `v ≥ 0`. A reduction by `and` from 1 that
  comes out 1 met only 1s, so the comparison holds at every index. On the extended reals `|x| = max x (-x)`, and
  `max x (-x) < ⊤` excludes both infinities, so x is a real number.
-/
import Idealize.ShloMosaic.PureOps.Ideal
import Idealize.ShloMosaic.PureOps.Ideal.Laws
import Idealize.ShloMosaic.Lib.ValueIdx
import Idealize.ShloMosaic.Lib.ReduceAll
import Idealize.ShloMosaic.PureOps

noncomputable section

namespace Cert.LibFiniteAll

open Idealize.ShloMosaic

/-- The rank-0 shape has one index. -/
theorem subsingleton_idx0 : Subsingleton (⟨0, ![]⟩ : Shape).Idx := ⟨fun a b => funext fun d => d.elim0⟩

/-- The f32 word of +infinity denotes the top extended real. -/
theorem ofBits_inf : Ideal.ofBits .f32 0x7F800000#32 = (⊤ : EReal) := by simp [Ideal.ofBits, Ideal.ieee]

/-- An extended real whose absolute value max x (-x) is below +infinity is a real number. -/
theorem real_of_abs_lt_top (x : EReal) (h : max x (-x) < (⊤ : EReal)) : ∃ r : ℝ, x = (r : EReal) := by
  induction x using EReal.rec with
  | bot => simp at h
  | coe r => exact ⟨r, rfl⟩
  | top => simp at h

/-- A comparison word that is 1 says the comparison holds. -/
theorem ofBool_eq_one (b : Bool) : BitVec.ofBool b = 1#1 ↔ b = true := by cases b <;> decide

/-- Entry read-back of |x| < +inf. -/
theorem real_of_cmp (x : EReal)
    (h : Ideal.cmp .olt (max x (-x)) (Ideal.ofBits .f32 0x7F800000#32) = 1#1) : ∃ r : ℝ, x = (r : EReal) := by
  rw [ofBits_inf] at h
  unfold Ideal.cmp at h
  rw [ofBool_eq_one] at h
  exact real_of_abs_lt_top x (of_decide_eq_true h)

/-- Entry read-back of v ≥ 0. -/
theorem nonneg_of_cmp (v : EReal)
    (h : Ideal.cmp .oge v (Ideal.ofBits .f32 0x00000000#32) = 1#1) : 0 ≤ v := by
  rw [Ideal.ofBits_zero_f32] at h
  unfold Ideal.cmp at h
  rw [ofBool_eq_one] at h
  exact of_decide_eq_true h

variable {s : Shape} {axes : List (Fin s.rank)}

/-- all(|x| < +inf) = 1 over an array of any shape: every entry is a real number. -/
theorem real_of_all (x : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .olt (Host.absf x) (broadcastInDim s ![] hb (constant (F := Ideal) (⟨0, ![]⟩ : Shape) .f32 0x7F800000#32)))
          (constantI (⟨0, ![]⟩ : Shape) 1 1#1) hr hu ValueIdx.ix0 = 1#1)
    (i : s.Idx) : ∃ r : ℝ, x i = (r : EReal) := by
  haveI := subsingleton_idx0
  have h := Host.reduce_andi_all _ _ hr hu _ e i
  exact real_of_cmp (x i) h

/-- all(v ≥ 0) = 1: every entry is nonnegative. -/
theorem nonneg_of_all (v : FVec Ideal s .f32)
    (hb : (⟨0, ![]⟩ : Shape).BroadcastsInDim s (![] : Fin 0 → Fin s.rank))
    (hr : s.ReducesTo axes (⟨0, ![]⟩ : Shape)) (hu : 0 < (⟨0, ![]⟩ : Shape).numel)
    (e : Host.reduce IntOp.andi
          (cmpf .oge v (broadcastInDim s ![] hb (constant (F := Ideal) (⟨0, ![]⟩ : Shape) .f32 0x00000000#32)))
          (constantI (⟨0, ![]⟩ : Shape) 1 1#1) hr hu ValueIdx.ix0 = 1#1)
    (i : s.Idx) : (0 : EReal) ≤ v i := by
  haveI := subsingleton_idx0
  have h := Host.reduce_andi_all _ _ hr hu _ e i
  exact nonneg_of_cmp (v i) h

end Cert.LibFiniteAll

end
-- ==== Proof.Finite.lean ====
/-
  Every entry the law between the two layers needs to be real is real.

  The precondition is a conjunction of eight statements, one per float argument: the reduction by 'and', over the
  whole array, of the entrywise comparison |v| < +inf comes out 1. A conjunction of words that is 1 has every
  conjunct 1, and each conjunct says that every entry of its array is a real number.
  The aggregated neighbour table is, entry by entry, the zero word plus a finite sum of entries of x (the gathered
  rows that land at that entry), so it is real when x is.
-/
import proofs.«135623_j83167746719884_2_alg».proof.Proof.Algebra
import proofs.«135623_j83167746719884_2_alg».proof.Proof.RefValue
import proofs.«135623_j83167746719884_2_alg».proof.Proof.LibFiniteAll
import proofs.«135623_j83167746719884_2_alg».proof.Pre_finite_inputs

noncomputable section

open scoped BigOperators

namespace Cert.ReferenceIdeal.RefValue

open Cert.ReferenceIdeal Cert.ReferenceIdeal.Gen Cert.ReferenceIdeal.Read Idealize.ShloMosaic Idealize.ShloMosaic.ValueIdx GinLayer

section Pre

variable [Cert.Pre_finite_inputs.Facts]

/-- The precondition, read back: every entry of x, e, W1 and b1 is a real number. -/
theorem real_of_pre (x0 : ATab) (x1 : AEdges) (x2 : AOne) (x3 : AMat) (x4 x5 x6 : AVec) (x7 : AMat) (x8 : AVec)
    (h : Cert.Pre_finite_inputs.fn (F := Ideal) x0 x1 x2 x3 x4 x5 x6 x7 x8 = fun _ => 1#1) :
    (∀ i, ∃ a : ℝ, x0 i = (a : EReal)) ∧ (∀ i, ∃ a : ℝ, x2 i = (a : EReal)) ∧ (∀ i, ∃ a : ℝ, x3 i = (a : EReal))
      ∧ (∀ i, ∃ a : ℝ, x4 i = (a : EReal)) := by
  have h0 := congrFun h ValueIdx.ix0
  dsimp only [Cert.Pre_finite_inputs.fn, Cert.Pre_finite_inputs.fn_part1, Cert.Pre_finite_inputs.fn_part2, andi] at h0
  obtain ⟨h33, -⟩ := IntOp.andi_eq_one.1 h0
  obtain ⟨h28, -⟩ := IntOp.andi_eq_one.1 h33
  obtain ⟨h23, -⟩ := IntOp.andi_eq_one.1 h28
  obtain ⟨h18, -⟩ := IntOp.andi_eq_one.1 h23
  obtain ⟨h13, h17⟩ := IntOp.andi_eq_one.1 h18
  obtain ⟨h8, h12⟩ := IntOp.andi_eq_one.1 h13
  obtain ⟨h3, h7⟩ := IntOp.andi_eq_one.1 h8
  exact ⟨Cert.LibFiniteAll.real_of_all x0 _ _ _ h3, Cert.LibFiniteAll.real_of_all x2 _ _ _ h7,
    Cert.LibFiniteAll.real_of_all x3 _ _ _ h12, Cert.LibFiniteAll.real_of_all x4 _ _ _ h17⟩

end Pre

/-- A scatter that adds real updates into a real table leaves a real table. -/
theorem scatterAdd_real {s si su : Shape} {φ : FTy} (d : ScatterDims s si su) {w : Nat} (x : FVec Ideal s φ) (idx : IVec si w)
    (upd : FVec Ideal su φ) (hx : ∀ i, IsReal (x i)) (hu : ∀ j, IsReal (upd j)) (i : s.Idx) :
    IsReal (Host.scatterAdd d x idx upd i) := by
  unfold Host.scatterAdd
  rw [Ideal.hostScatterAdd_def]
  unfold Ideal.hostScatterAdd
  exact (hx i).add (IsReal.sum _ _ hu)

/-- A gather from a real table is real. -/
theorem gather_real {s si t : Shape} {w : Nat} (d : GatherDims s si t) (x : s.Idx → EReal) (idx : IVec si w)
    (hx : ∀ i, IsReal (x i)) (j : t.Idx) : IsReal (Host.gather d x idx j) := by
  unfold Host.gather
  exact hx _

/-- The table the scatter adds into is the zero word everywhere. -/
theorem v11_real (i : S100000x128.Idx) : IsReal (val_main_v11 (F := Ideal) i) := by
  rw [val_main_v11_apply, val_main_cst_apply, Ideal.ofBits_def, Ideal.ofBits_zero_f32]
  exact ⟨0, rfl⟩

/-- The aggregated neighbour table is real when x is: it is the zero table with gathered rows of x added in. -/
theorem nbrOf_real (x0 : ATab) (x1 : AEdges) (hx : ∀ i, ∃ a : ℝ, x0 i = (a : EReal)) (i : S100000x128.Idx) :
    ∃ a : ℝ, nbrOf x0 x1 i = (a : EReal) :=
  scatterAdd_real scatter_S100000x128_S1600000x1_S1600000x128_1_0_0_1 (val_main_v11 (F := Ideal))
    (val_main_v12 (F := Ideal) x1) (val_main_v10 (F := Ideal) x0 x1) v11_real
    (gather_real gather_S100000x128_S1600000x1_S1600000x128_1_0_n_n_0_1_1128 x0 (val_main_v9 (F := Ideal) x1) hx) i

/-- The hypotheses of the law between the two layers, from the precondition. -/
theorem reals_of_pre [Cert.Pre_finite_inputs.Facts] (x0 : ATab) (x1 : AEdges) (x2 : AOne) (x3 : AMat) (x4 x5 x6 : AVec) (x7 : AMat) (x8 : AVec)
    (h : Cert.Pre_finite_inputs.fn (F := Ideal) x0 x1 x2 x3 x4 x5 x6 x7 x8 = fun _ => 1#1) :
    (∃ a : ℝ, scal x2 = (a : EReal)) ∧ (∀ r k, ∃ a : ℝ, tab x0 r k = (a : EReal))
      ∧ (∀ r k, ∃ a : ℝ, tab (nbrOf x0 x1) r k = (a : EReal)) ∧ (∀ j k, ∃ a : ℝ, mat x3 j k = (a : EReal))
      ∧ (∀ j, ∃ a : ℝ, vec x4 j = (a : EReal)) := by
  obtain ⟨h0, h2, h3, h4⟩ := real_of_pre x0 x1 x2 x3 x4 x5 x6 x7 x8 h
  exact ⟨h2 _, fun r k => h0 _, fun r k => nbrOf_real x0 x1 h0 _, fun j k => h3 _, fun j => h4 _⟩

/-- On the precondition the reference's result is the layer with tiled one-pass statistics. -/
theorem result_eq_tiled [Cert.Pre_finite_inputs.Facts] (x0 : ATab) (x1 : AEdges) (x2 : AOne) (x3 : AMat) (x4 x5 x6 : AVec) (x7 : AMat) (x8 : AVec)
    (h : Cert.Pre_finite_inputs.fn (F := Ideal) x0 x1 x2 x3 x4 x5 x6 x7 x8 = fun _ => 1#1) :
    val_main_v55 (F := Ideal) x0 x1 x2 x3 x4 x5 x6 x7 x8
      = fun i : S100000x128.Idx =>
          outTiled (scal x2) (tab x0) (tab (nbrOf x0 x1)) (mat x3) (vec x4) (vec x5) (vec x6) (mat x7) (vec x8) (i 0) (i 1) := by
  obtain ⟨he, hx, hn, hW, hb⟩ := reals_of_pre x0 x1 x2 x3 x4 x5 x6 x7 x8 h
  rw [result_eq, outTiled_eq_outWhole _ _ _ _ _ _ _ _ _ he hx hn hW hb]

end Cert.ReferenceIdeal.RefValue

end
-- ==== Proof.KiMain.lean ====
/-
  The kernel's result array as the layer with tiled one-pass statistics. Reading the second kernel's payload at an index,
  its operands are: the `h` array — at row `r` the first kernel's tile payload, which is `((1 + ε)·x + nbr)·W1ᵀ + b1` at row
  `r` —, the mean and variance rows — the quotients by 100000 of the accumulated column sums of `h` and `h²` over the 25
  tiles, the variance less the square of the mean —, and the scale, shift, second weight matrix and second bias.
-/
import proofs.«135623_j83167746719884_2_alg».proof.Proof.KiLink
import proofs.«135623_j83167746719884_2_alg».proof.Proof.KiSums
import proofs.«135623_j83167746719884_2_alg».proof.Proof.Finite

set_option maxRecDepth 16384

noncomputable section

namespace Cert.KernelIdeal.KValue

open Cert.KernelIdeal Cert.KernelIdeal.Gen Cert.KernelIdeal.Hand Cert.KernelIdeal.PayValue
open Idealize.ShloMosaic Idealize.ShloMosaic.TcCoe Idealize.SL.Sem
open Idealize.ShloMosaic.ValueIdx
open Idealize.ShloMosaic.Pipeline (Dat)
open GinLayer
open Cert.ReferenceIdeal.RefValue (tab mat vec scal nbrOf)

variable (m : (ℓ : Loc nD τ sig) → Buf (Elt Ideal) ℓ) (c : Dev nD)

/-- `h` as the layer states it, of the kernel's argument arrays. -/
def hK : Tab 100000 :=
  linear (combine (scal (m ((c : Thread nD τ).loc main_arg2))) (tab (m ((c : Thread nD τ).loc main_arg0)))
    (tab (nbrOf (m ((c : Thread nD τ).loc main_arg0)) (m ((c : Thread nD τ).loc main_arg1)))))
    (mat (m ((c : Thread nD τ).loc main_arg3))) (vec (m ((c : Thread nD τ).loc main_arg4)))

/-- The layer with tiled one-pass statistics, of the kernel's argument arrays, as contents of the result array. -/
def layer : Buf (Elt Ideal) ((c : Thread nD τ).loc main_v28) :=
  fun i => outTiled (scal (m ((c : Thread nD τ).loc main_arg2))) (tab (m ((c : Thread nD τ).loc main_arg0)))
    (tab (nbrOf (m ((c : Thread nD τ).loc main_arg0)) (m ((c : Thread nD τ).loc main_arg1))))
    (mat (m ((c : Thread nD τ).loc main_arg3))) (vec (m ((c : Thread nD τ).loc main_arg4)))
    (vec (m ((c : Thread nD τ).loc main_arg5))) (vec (m ((c : Thread nD τ).loc main_arg6)))
    (mat (m ((c : Thread nD τ).loc main_arg7))) (vec (m ((c : Thread nD τ).loc main_arg8))) (i 0) (i 1)

/-- A tile of the first kernel's payload, at an entry, is `h` at the entry's row of the table. -/
theorem hTile_at (t : Fin cfg0.N) (p : Fin 4000) (k : Fin 128) (r : Fin 100000) (hr : r.val = 4000 * t.val + p.val) :
    hTile (Hand.V1 m) c t (ix2 p k) = hK m c r k := by
  unfold hTile
  rw [pay5_at]
  unfold hK linear combine tab mat vec scal
  refine congrArg₂ (· + ·) (Finset.sum_congr rfl fun k' _ => ?_) ?_
  · rw [iblk0_2_apply, V1_eps_at, iblk0_0_apply (Hand.V1 m) c t p k' r hr, iblk0_1_apply (Hand.V1 m) c t p k' r hr, iblk0_3_apply,
      V1_x, V1_nbr, V1_w1_at]
  · rw [iblk0_4_apply, V1_b1_at]

/-- The `h` array the second kernel reads is `h`. -/
theorem h_at (r : Fin 100000) (k : Fin 128) : Hand.V3 m c main_v21_0 (ix2 r k) = hK m c r k := by
  rw [V3_h]
  show k0_pay2 (F := Ideal) (hTile (Hand.V1 m) c (tileOf0 r)) (ix2 (rowIn r) k) = _
  rw [pay2_at]
  exact hTile_at m c (tileOf0 r) (rowIn r) k r (by show r.val = 4000 * (r.val / 4000) + r.val % 4000; omega)

theorem tsum_eq (s : Fin 25) (k : Fin 128) : tsum (Hand.V1 m) c s.val k = ∑ p : Fin 4000, hK m c (tileRow s p) k := by
  have hs : s.val < cfg0.N := by have := N_0; have := s.isLt; show s.val < grid0.N; omega
  unfold tsum; rw [dif_pos hs]
  exact Finset.sum_congr rfl fun p _ => hTile_at m c ⟨s.val, hs⟩ p k (tileRow s p) rfl

theorem tsq_eq (s : Fin 25) (k : Fin 128) :
    tsq (Hand.V1 m) c s.val k = ∑ p : Fin 4000, hK m c (tileRow s p) k * hK m c (tileRow s p) k := by
  have hs : s.val < cfg0.N := by have := N_0; have := s.isLt; show s.val < grid0.N; omega
  unfold tsq; rw [dif_pos hs]
  exact Finset.sum_congr rfl fun p _ => by rw [hTile_at m c ⟨s.val, hs⟩ p k (tileRow s p) rfl]

/-- The accumulated column sums are the tiled sums of `h` and of `h²`. -/
theorem sum_at (k : Fin 128) : accS (Hand.V1 m) c t24.val t24.isLt (ix2 (0 : Fin 1) k) = sumTiled (hK m c) k := by
  rw [accS_at]
  show ∑ s ∈ Finset.range 25, tsum (Hand.V1 m) c s k = _
  rw [Finset.sum_range]; unfold sumTiled
  exact Finset.sum_congr rfl fun s _ => tsum_eq m c s k

theorem sq_at (k : Fin 128) :
    accQ (Hand.V1 m) c t24.val t24.isLt (ix2 (0 : Fin 1) k) = sumTiled (fun r k => hK m c r k * hK m c r k) k := by
  rw [accQ_at]
  show ∑ s ∈ Finset.range 25, tsq (Hand.V1 m) c s k = _
  rw [Finset.sum_range]; unfold sumTiled
  exact Finset.sum_congr rfl fun s _ => tsq_eq m c s k

/-- The result array's closed form and the layer, at an entry given by its coordinates. -/
theorem G1_at (V : (c : Dev nD) → (b : Ref sig .tc) → Buf (Elt Ideal) ((c : Thread nD τ).loc b)) (r : Fin 100000) (j : Fin 128) :
    G1 V c (ix2 r j) = k1_pay1 (F := Ideal) (iblk1 V c 0 (tileOf1 r)) (iblk1 V c 2 (tileOf1 r)) (iblk1 V c 1 (tileOf1 r))
      (iblk1 V c 3 (tileOf1 r)) (iblk1 V c 4 (tileOf1 r)) (iblk1 V c 5 (tileOf1 r)) (iblk1 V c 6 (tileOf1 r)) (ix2 (rowIn r) j) := rfl

theorem layer_at (r : Fin 100000) (j : Fin 128) :
    layer m c (ix2 r j) = linear (normRelu (hK m c) (meanTiled (hK m c)) (varTiled (hK m c))
      (vec (m ((c : Thread nD τ).loc main_arg5))) (vec (m ((c : Thread nD τ).loc main_arg6))))
      (mat (m ((c : Thread nD τ).loc main_arg7))) (vec (m ((c : Thread nD τ).loc main_arg8))) r j := rfl

/-- THE KERNEL'S VALUE: its result array ends holding the layer with tiled one-pass statistics. -/
theorem kernel_value : (dat1 (Hand.V3 m) c).arrAt 7 cfg1.N = layer m c := by
  rw [final1_7]
  funext i
  obtain ⟨r, j, rfl⟩ : ∃ (r : Fin 100000) (j : Fin 128), i = ix2 r j := ⟨i 0, i 1, eq_ix2 i⟩
  have hr : r.val = 4000 * (tileOf1 r).val + (rowIn r).val := by
    show r.val = 4000 * (r.val / 4000) + r.val % 4000; omega
  rw [G1_at, layer_at, k1_pay1_at]
  unfold linear normRelu meanTiled varTiled
  refine congrArg₂ (· + ·) (Finset.sum_congr rfl fun k _ => ?_) ?_
  · rw [iblk1_0_apply (Hand.V3 m) c (tileOf1 r) (rowIn r) k r hr, h_at, iblk1_1_apply, V3_mean_at, iblk1_2_apply, V3_var_at,
      sum_at, sq_at, iblk1_3_apply, V3_gamma_at, iblk1_4_apply, V3_beta_at, iblk1_5_apply, V3_w2_at]
    rfl
  · rw [iblk1_6_apply, V3_b2_at]
    rfl

end Cert.KernelIdeal.KValue

end
-- ==== Proof.lean ====
/-
  One graph-isomorphism layer on a graph of 100000 nodes and 1600000 edges: the aggregated neighbour table (a gather of the
  node table along one row of the edge list, scatter-added along the other), the combination `(1 + ε)·x + nbr`, a linear
  map, batch normalisation of the 128 columns with the biased batch statistics, a cut-off below at zero, and a second
  linear map.

  The kernel's program computes the aggregation with host operations and the rest in two tiled regions of 25 points each:
  the first stores the tiles of `h` and accumulates, in two rows it carries from point to point, the column sums of `h` and
  of `h²`; between the regions the host divides the two sums by 100000 and forms the variance as the mean of squares less
  the square of the mean; the second region normalises, cuts off and applies the second linear map tile by tile. The
  reference computes the same `h`, takes the mean over all rows at once, and the variance as the mean of the squared
  deviations.

  * The three frames: each program runs to the end, faults nowhere and leaves its argument arrays unchanged. The kernel's
    two frames are one proof read at the two instances (the program's text is the same): the program as four segments, each
    region's body run once per case of its conditionals, the first region's invariant carrying the two accumulator rows. The
    reference's frame is its run with the result dropped.
  * The kernel's idealization rewrote nothing, so there is nothing to preserve.
  * Over the extended reals the two results agree on finite inputs: the result array of the kernel's program is, index by
    index, the layer with tiled one-pass statistics (the tiles' payloads read at an index, the accumulators summed by
    induction on the point, the host stages traced back to the arguments); the reference's is the layer with two-pass
    statistics; the aggregated table is one term in both; and on real entries `Σ (h − μ)² / n = Σ h² / n − μ²` with
    `μ = Σ h / n`, the tiled sums being the whole sums re-indexed.
-/
import proofs.«135623_j83167746719884_2_alg».proof.Defs
import proofs.«135623_j83167746719884_2_alg».proof.Proof.Gen.Kernel
import proofs.«135623_j83167746719884_2_alg».proof.Proof.Gen.KernelIdeal
import proofs.«135623_j83167746719884_2_alg».proof.Proof.Gen.ReferenceIdeal
import proofs.«135623_j83167746719884_2_alg».proof.Proof.Gen.Pre_finite_inputs
import proofs.«135623_j83167746719884_2_alg».proof.Proof.Gen.ReferenceIdeal.Run
import proofs.«135623_j83167746719884_2_alg».proof.Proof.Gen.ReferenceIdeal.Read
import proofs.«135623_j83167746719884_2_alg».proof.Proof.KRun
import proofs.«135623_j83167746719884_2_alg».proof.Proof.KiMain
import proofs.«135623_j83167746719884_2_alg».proof.Proof.Finite

noncomputable section

namespace Cert.Proof

open Idealize.ShloMosaic Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- At the ideal instance, from memories agreeing on the arguments, both programs end with the layer's tiled form of the
    kernel's arguments in their result arrays: the kernel's by its value, the reference's by its value, the precondition
    (which holds of the reference's arguments because they are the kernel's) and the variance identity. -/
theorem algebraic : Cert.algebraic_KernelIdeal_ReferenceIdeal := by
  intro m ρ m' ρ' hpre hagree
  refine ⟨fun c => Cert.KernelIdeal.KValue.layer m c, ?_, ?_⟩
  · exact (θ_run Cert.KernelIdeal.defs _ _).mono (fun _ h c => ⟨(h c).1.trans (Cert.KernelIdeal.KValue.kernel_value m c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8⟩ := hagree c
    rw [Cert.ReferenceIdeal.Read.val_main_v55_eq, e0, e1, e2, e3, e4, e5, e6, e7, e8]
    exact Cert.ReferenceIdeal.RefValue.result_eq_tiled _ _ _ _ _ _ _ _ _ (hpre c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
